-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v15)) (v1 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_v16) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_v48) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x2048x2048 : Shape := ⟨3, ![1, 2048, 2048]⟩
abbrev S1x2048x64 : Shape := ⟨3, ![1, 2048, 64]⟩
abbrev S1x1x2048x2048 : Shape := ⟨4, ![1, 1, 2048, 2048]⟩
abbrev S2048x2048 : Shape := ⟨2, ![2048, 2048]⟩
abbrev S512x2048 : Shape := ⟨2, ![512, 2048]⟩
abbrev S_ : Shape := ⟨0, ![]⟩

class Facts : Prop where
  bcast_S_S1x2048x2048 : S_.BroadcastsInDim S1x2048x2048 (![] : Fin 0 → Fin S1x2048x2048.rank)
  reducesTo_S1x2048x2048_S_d0_1_2 : S1x2048x2048.ReducesTo [0, 1, 2] S_
  h_S_ : 0 < S_.numel
  bcast_S_S1x2048x64 : S_.BroadcastsInDim S1x2048x64 (![] : Fin 0 → Fin S1x2048x64.rank)
  reducesTo_S1x2048x64_S_d0_1_2 : S1x2048x64.ReducesTo [0, 1, 2] S_
  bcast_S_S1x1x2048x2048 : S_.BroadcastsInDim S1x1x2048x2048 (![] : Fin 0 → Fin S1x1x2048x2048.rank)
  reducesTo_S1x1x2048x2048_S_d0_1_2_3 : S1x1x2048x2048.ReducesTo [0, 1, 2, 3] S_
  bcast_S_S2048x2048 : S_.BroadcastsInDim S2048x2048 (![] : Fin 0 → Fin S2048x2048.rank)
  reducesTo_S2048x2048_S_d0_1 : S2048x2048.ReducesTo [0, 1] S_
  bcast_S_S512x2048 : S_.BroadcastsInDim S512x2048 (![] : Fin 0 → Fin S512x2048.rank)
  reducesTo_S512x2048_S_d0_1 : S512x2048.ReducesTo [0, 1] S_

variable [Facts]

def fn_part2 {F : FTy → Type} [FloatOps F] (main_arg7 : FVec F S2048x2048 .f32) (main_v33 : IVec S_ 1) : IVec S_ 1 :=
  let main_v34 : FVec F S2048x2048 .f32 := Host.absf main_arg7
  let main_cst_12 : FVec F S_ .f32 := constant S_ .f32 0x7F800000#32
  let main_v35 : FVec F S2048x2048 .f32 := broadcastInDim S2048x2048 ![] bcast_S_S2048x2048 main_cst_12
  let main_v36 : IVec S2048x2048 1 := cmpf .olt main_v34 main_v35
  let main_c_13 : IVec S_ 1 := constantI S_ 1 1#1
  let main_v37 : IVec S_ 1 := (fun x v => Host.reduce IntOp.andi x v reducesTo_S2048x2048_S_d0_1 h_S_) main_v36 main_c_13
  let main_v38 : IVec S_ 1 := andi main_v33 main_v37
  main_v38

def fn_part1 {F : FTy → Type} [FloatOps F] (main_arg4 : FVec F S2048x2048 .f32) (main_arg5 : FVec F S512x2048 .f32) (main_arg6 : FVec F S512x2048 .f32) (main_arg7 : FVec F S2048x2048 .f32) (main_v13 : IVec S_ 1) (main_v16 : IVec S1x1x2048x2048 1) : IVec S_ 1 :=
  let main_c_5 : IVec S_ 1 := constantI S_ 1 1#1
  let main_v17 : IVec S_ 1 := (fun x v => Host.reduce IntOp.andi x v reducesTo_S1x1x2048x2048_S_d0_1_2_3 h_S_) main_v16 main_c_5
  let main_v18 : IVec S_ 1 := andi main_v13 main_v17
  let main_v19 : FVec F S2048x2048 .f32 := Host.absf main_arg4
  let main_cst_6 : FVec F S_ .f32 := constant S_ .f32 0x7F800000#32
  let main_v20 : FVec F S2048x2048 .f32 := broadcastInDim S2048x2048 ![] bcast_S_S2048x2048 main_cst_6
  let main_v21 : IVec S2048x2048 1 := cmpf .olt main_v19 main_v20
  let main_c_7 : IVec S_ 1 := constantI S_ 1 1#1
  let main_v22 : IVec S_ 1 := (fun x v => Host.reduce IntOp.andi x v reducesTo_S2048x2048_S_d0_1 h_S_) main_v21 main_c_7
  let main_v23 : IVec S_ 1 := andi main_v18 main_v22
  let main_v24 : FVec F S512x2048 .f32 := Host.absf main_arg5
  let main_cst_8 : FVec F S_ .f32 := constant S_ .f32 0x7F800000#32
  let main_v25 : FVec F S512x2048 .f32 := broadcastInDim S512x2048 ![] bcast_S_S512x2048 main_cst_8
  let main_v26 : IVec S512x2048 1 := cmpf .olt main_v24 main_v25
  let main_c_9 : IVec S_ 1 := constantI S_ 1 1#1
  let main_v27 : IVec S_ 1 := (fun x v => Host.reduce IntOp.andi x v reducesTo_S512x2048_S_d0_1 h_S_) main_v26 main_c_9
  let main_v28 : IVec S_ 1 := andi main_v23 main_v27
  let main_v29 : FVec F S512x2048 .f32 := Host.absf main_arg6
  let main_cst_10 : FVec F S_ .f32 := constant S_ .f32 0x7F800000#32
  let main_v30 : FVec F S512x2048 .f32 := broadcastInDim S512x2048 ![] bcast_S_S512x2048 main_cst_10
  let main_v31 : IVec S512x2048 1 := cmpf .olt main_v29 main_v30
  let main_c_11 : IVec S_ 1 := constantI S_ 1 1#1
  let main_v32 : IVec S_ 1 := (fun x v => Host.reduce IntOp.andi x v reducesTo_S512x2048_S_d0_1 h_S_) main_v31 main_c_11
  let main_v33 : IVec S_ 1 := andi main_v28 main_v32
  fn_part2 (F := F) main_arg7 main_v33

def fn {F : FTy → Type} [FloatOps F] (main_arg0 : FVec F S1x2048x2048 .f32) (main_arg1 : FVec F S1x2048x64 .f32) (main_arg2 : FVec F S1x2048x64 .f32) (main_arg3 : FVec F S1x1x2048x2048 .f32) (main_arg4 : FVec F S2048x2048 .f32) (main_arg5 : FVec F S512x2048 .f32) (main_arg6 : FVec F S512x2048 .f32) (main_arg7 : FVec F S2048x2048 .f32) : IVec S_ 1 :=
  let main_v0 : FVec F S1x2048x2048 .f32 := Host.absf main_arg0
  let main_cst : FVec F S_ .f32 := constant S_ .f32 0x7F800000#32
  let main_v1 : FVec F S1x2048x2048 .f32 := broadcastInDim S1x2048x2048 ![] bcast_S_S1x2048x2048 main_cst
  let main_v2 : IVec S1x2048x2048 1 := cmpf .olt main_v0 main_v1
  let main_c : IVec S_ 1 := constantI S_ 1 1#1
  let main_v3 : IVec S_ 1 := (fun x v => Host.reduce IntOp.andi x v reducesTo_S1x2048x2048_S_d0_1_2 h_S_) main_v2 main_c
  let main_v4 : FVec F S1x2048x64 .f32 := Host.absf main_arg1
  let main_cst_0 : FVec F S_ .f32 := constant S_ .f32 0x7F800000#32
  let main_v5 : FVec F S1x2048x64 .f32 := broadcastInDim S1x2048x64 ![] bcast_S_S1x2048x64 main_cst_0
  let main_v6 : IVec S1x2048x64 1 := cmpf .olt main_v4 main_v5
  let main_c_1 : IVec S_ 1 := constantI S_ 1 1#1
  let main_v7 : IVec S_ 1 := (fun x v => Host.reduce IntOp.andi x v reducesTo_S1x2048x64_S_d0_1_2 h_S_) main_v6 main_c_1
  let main_v8 : IVec S_ 1 := andi main_v3 main_v7
  let main_v9 : FVec F S1x2048x64 .f32 := Host.absf main_arg2
  let main_cst_2 : FVec F S_ .f32 := constant S_ .f32 0x7F800000#32
  let main_v10 : FVec F S1x2048x64 .f32 := broadcastInDim S1x2048x64 ![] bcast_S_S1x2048x64 main_cst_2
  let main_v11 : IVec S1x2048x64 1 := cmpf .olt main_v9 main_v10
  let main_c_3 : IVec S_ 1 := constantI S_ 1 1#1
  let main_v12 : IVec S_ 1 := (fun x v => Host.reduce IntOp.andi x v reducesTo_S1x2048x64_S_d0_1_2 h_S_) main_v11 main_c_3
  let main_v13 : IVec S_ 1 := andi main_v8 main_v12
  let main_v14 : FVec F S1x1x2048x2048 .f32 := Host.absf main_arg3
  let main_cst_4 : FVec F S_ .f32 := constant S_ .f32 0x7F800000#32
  let main_v15 : FVec F S1x1x2048x2048 .f32 := broadcastInDim S1x1x2048x2048 ![] bcast_S_S1x1x2048x2048 main_cst_4
  let main_v16 : IVec S1x1x2048x2048 1 := cmpf .olt main_v14 main_v15
  fn_part1 (F := F) main_arg4 main_arg5 main_arg6 main_arg7 main_v13 main_v16
-- ==== Kernel.lean ====
abbrev S1x2048x2048 : Shape := ⟨3, ![1, 2048, 2048]⟩
abbrev S1x2048x64 : Shape := ⟨3, ![1, 2048, 64]⟩
abbrev S1x1x2048x2048 : Shape := ⟨4, ![1, 1, 2048, 2048]⟩
abbrev S2048x2048 : Shape := ⟨2, ![2048, 2048]⟩
abbrev S512x2048 : Shape := ⟨2, ![512, 2048]⟩
abbrev S3072x2048 : Shape := ⟨2, ![3072, 2048]⟩
abbrev S2048x3072 : Shape := ⟨2, ![2048, 3072]⟩
abbrev S512x512 : Shape := ⟨2, ![512, 512]⟩
abbrev S2048x512 : Shape := ⟨2, ![2048, 512]⟩
abbrev S2048x64 : Shape := ⟨2, ![2048, 64]⟩
abbrev S8x2048x64 : Shape := ⟨3, ![8, 2048, 64]⟩
abbrev S2048x128 : Shape := ⟨2, ![2048, 128]⟩
abbrev S2x2048x64 : Shape := ⟨3, ![2, 2048, 64]⟩
abbrev S2048x32 : Shape := ⟨2, ![2048, 32]⟩
abbrev S2048x8x64 : Shape := ⟨3, ![2048, 8, 64]⟩
abbrev S32x2048x2048 : Shape := ⟨3, ![32, 2048, 2048]⟩
abbrev S256x128 : Shape := ⟨2, ![256, 128]⟩
abbrev S256x64 : Shape := ⟨2, ![256, 64]⟩
abbrev S256x2048 : Shape := ⟨2, ![256, 2048]⟩
abbrev S2x256x2048 : Shape := ⟨3, ![2, 256, 2048]⟩
abbrev S256x32 : Shape := ⟨2, ![256, 32]⟩
abbrev S256 : Shape := ⟨1, ![256]⟩
abbrev S256x1 : Shape := ⟨2, ![256, 1]⟩
abbrev S1x256x2048 : Shape := ⟨3, ![1, 256, 2048]⟩
abbrev S1x32x2048x2048 : Shape := ⟨4, ![1, 32, 2048, 2048]⟩

abbrev nBuf : Space → Nat
  | .hbm => 26
  | .vmem => 34
  | .smem => 0
  | _ => 0

abbrev bufTy : (tb : Table) → Fin (tcTables nBuf tb) → BufTy
  | .hbm, ⟨0, _⟩ => ⟨S1x2048x2048, .f32⟩
  | .hbm, ⟨1, _⟩ => ⟨S1x2048x64, .f32⟩
  | .hbm, ⟨2, _⟩ => ⟨S1x2048x64, .f32⟩
  | .hbm, ⟨3, _⟩ => ⟨S1x1x2048x2048, .f32⟩
  | .hbm, ⟨4, _⟩ => ⟨S2048x2048, .f32⟩
  | .hbm, ⟨5, _⟩ => ⟨S512x2048, .f32⟩
  | .hbm, ⟨6, _⟩ => ⟨S512x2048, .f32⟩
  | .hbm, ⟨7, _⟩ => ⟨S2048x2048, .f32⟩
  | .hbm, ⟨8, _⟩ => ⟨S2048x2048, .f32⟩
  | .hbm, ⟨9, _⟩ => ⟨S3072x2048, .f32⟩
  | .hbm, ⟨10, _⟩ => ⟨S2048x3072, .f32⟩
  | .hbm, ⟨11, _⟩ => ⟨S2048x2048, .f32⟩
  | .hbm, ⟨12, _⟩ => ⟨S2048x512, .f32⟩
  | .hbm, ⟨13, _⟩ => ⟨S2048x512, .f32⟩
  | .hbm, ⟨14, _⟩ => ⟨S2048x64, .f32⟩
  | .hbm, ⟨15, _⟩ => ⟨S2048x64, .f32⟩
  | .hbm, ⟨16, _⟩ => ⟨S2048x2048, .f32⟩
  | .hbm, ⟨17, _⟩ => ⟨S8x2048x64, .bf16⟩
  | .hbm, ⟨18, _⟩ => ⟨S2048x8x64, .f32⟩
  | .hbm, ⟨19, _⟩ => ⟨S8x2048x64, .f32⟩
  | .hbm, ⟨20, _⟩ => ⟨S8x2048x64, .bf16⟩
  | .hbm, ⟨21, _⟩ => ⟨S32x2048x2048, .f32⟩
  | .hbm, ⟨22, _⟩ => ⟨S2048x2048, .bf16⟩
  | .hbm, ⟨23, _⟩ => ⟨S2048x2048, .f32⟩
  | .hbm, ⟨24, _⟩ => ⟨S1x2048x2048, .f32⟩
  | .hbm, ⟨25, _⟩ => ⟨S1x32x2048x2048, .f32⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S512x512, .f32⟩
  | .local _ .vmem, ⟨5, _⟩ => ⟨S512x512, .f32⟩
  | .local _ .vmem, ⟨6, _⟩ => ⟨S2048x128, .f32⟩
  | .local _ .vmem, ⟨7, _⟩ => ⟨S2048x128, .f32⟩
  | .local _ .vmem, ⟨8, _⟩ => ⟨S2048x64, .f32⟩
  | .local _ .vmem, ⟨9, _⟩ => ⟨S2048x64, .f32⟩
  | .local _ .vmem, ⟨10, _⟩ => ⟨S2x2048x64, .bf16⟩
  | .local _ .vmem, ⟨11, _⟩ => ⟨S2x2048x64, .bf16⟩
  | .local _ .vmem, ⟨12, _⟩ => ⟨S256x128, .f32⟩
  | .local _ .vmem, ⟨13, _⟩ => ⟨S256x128, .f32⟩
  | .local _ .vmem, ⟨14, _⟩ => ⟨S256x64, .f32⟩
  | .local _ .vmem, ⟨15, _⟩ => ⟨S256x64, .f32⟩
  | .local _ .vmem, ⟨16, _⟩ => ⟨S256x64, .f32⟩
  | .local _ .vmem, ⟨17, _⟩ => ⟨S256x64, .f32⟩
  | .local _ .vmem, ⟨18, _⟩ => ⟨S1x2048x64, .bf16⟩
  | .local _ .vmem, ⟨19, _⟩ => ⟨S1x2048x64, .bf16⟩
  | .local _ .vmem, ⟨20, _⟩ => ⟨S1x2048x64, .bf16⟩
  | .local _ .vmem, ⟨21, _⟩ => ⟨S1x2048x64, .bf16⟩
  | .local _ .vmem, ⟨22, _⟩ => ⟨S256x2048, .f32⟩
  | .local _ .vmem, ⟨23, _⟩ => ⟨S256x2048, .f32⟩
  | .local _ .vmem, ⟨24, _⟩ => ⟨S2x256x2048, .f32⟩
  | .local _ .vmem, ⟨25, _⟩ => ⟨S2x256x2048, .f32⟩
  | .local _ .vmem, ⟨26, _⟩ => ⟨S256x128, .bf16⟩
  | .local _ .vmem, ⟨27, _⟩ => ⟨S256x128, .bf16⟩
  | .local _ .vmem, ⟨28, _⟩ => ⟨S512x2048, .bf16⟩
  | .local _ .vmem, ⟨29, _⟩ => ⟨S512x2048, .bf16⟩
  | .local _ .vmem, ⟨30, _⟩ => ⟨S512x2048, .f32⟩
  | .local _ .vmem, ⟨31, _⟩ => ⟨S512x2048, .f32⟩
  | .local _ .vmem, ⟨32, _⟩ => ⟨S512x512, .f32⟩
  | .local _ .vmem, ⟨33, _⟩ => ⟨S512x512, .f32⟩
  | _, _ => ⟨S1x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13_0 : Ref sig .tc := ⟨.hbm, 21, rfl⟩
abbrev main_v13_1 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc2_stg3_0 : Ref sig .tc := ⟨.vmem, 18, rfl⟩
abbrev cc2_stg3_1 : Ref sig .tc := ⟨.vmem, 19, rfl⟩
abbrev cc2_stg4_0 : Ref sig .tc := ⟨.vmem, 20, rfl⟩
abbrev cc2_stg4_1 : Ref sig .tc := ⟨.vmem, 21, rfl⟩
abbrev cc2_stg5_0 : Ref sig .tc := ⟨.vmem, 22, rfl⟩
abbrev cc2_stg5_1 : Ref sig .tc := ⟨.vmem, 23, rfl⟩
abbrev cc2_stg6_0 : Ref sig .tc := ⟨.vmem, 24, rfl⟩
abbrev cc2_stg6_1 : Ref sig .tc := ⟨.vmem, 25, rfl⟩
abbrev cc2_stg7_0 : Ref sig .tc := ⟨.vmem, 26, rfl⟩
abbrev cc2_stg7_1 : Ref sig .tc := ⟨.vmem, 27, rfl⟩
abbrev cc3_stg0_0 : Ref sig .tc := ⟨.vmem, 28, rfl⟩
abbrev cc3_stg0_1 : Ref sig .tc := ⟨.vmem, 29, rfl⟩
abbrev cc3_stg1_0 : Ref sig .tc := ⟨.vmem, 30, rfl⟩
abbrev cc3_stg1_1 : Ref sig .tc := ⟨.vmem, 31, rfl⟩
abbrev cc3_stg2_0 : Ref sig .tc := ⟨.vmem, 32, rfl⟩
abbrev cc3_stg2_1 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc2_sem3_0 : DmaSem sig := 18
abbrev cc2_sem3_1 : DmaSem sig := 19
abbrev cc2_sem4_0 : DmaSem sig := 20
abbrev cc2_sem4_1 : DmaSem sig := 21
abbrev cc2_sem5_0 : DmaSem sig := 22
abbrev cc2_sem5_1 : DmaSem sig := 23
abbrev cc2_sem6_0 : DmaSem sig := 24
abbrev cc2_sem6_1 : DmaSem sig := 25
abbrev cc2_sem7_0 : DmaSem sig := 26
abbrev cc2_sem7_1 : DmaSem sig := 27
abbrev cc3_sem0_0 : DmaSem sig := 28
abbrev cc3_sem0_1 : DmaSem sig := 29
abbrev cc3_sem1_0 : DmaSem sig := 30
abbrev cc3_sem1_1 : DmaSem sig := 31
abbrev cc3_sem2_0 : DmaSem sig := 32
abbrev cc3_sem2_1 : DmaSem sig := 33

abbrev nD : Nat := 1
abbrev τ : Topo := Topo.v7x

variable {F : FTy → Type} [FloatOps F]

abbrev grid0 : Pipeline.Grid := ⟨2, ![4, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨1, ![4], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S2048x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S2048x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S2048x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2x2048x64 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨2, ![8, 16], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_3 (i : grid2.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc2_transform_4 (i : grid2.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc2_transform_5 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_6 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc2_transform_7 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S256x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S256x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false]

abbrev stage2_2 : Fin 2 → Memref sig .tc .vmem S256x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

abbrev stage2_3 : Fin 2 → Memref sig .tc .vmem S1x2048x64 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![false, true]

abbrev stage2_4 : Fin 2 → Memref sig .tc .vmem S1x2048x64 .bf16 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![false, true]

abbrev stage2_5 : Fin 2 → Memref sig .tc .vmem S256x2048 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, false]

abbrev stage2_6 : Fin 2 → Memref sig .tc .vmem S2x256x2048 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true, true]

abbrev stage2_7 : Fin 2 → Memref sig .tc .vmem S256x128 .bf16 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true, true]

abbrev grid3 : Pipeline.Grid := ⟨2, ![4, 4], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage3_0 : Fin 2 → Memref sig .tc .vmem S512x2048 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false]

abbrev stage3_1 : Fin 2 → Memref sig .tc .vmem S512x2048 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 2 → Memref sig .tc .vmem S512x512 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]

class Facts₀ : Prop where
  shapeCasts_S1x2048x2048_S2048x2048 : S1x2048x2048.ShapeCasts S2048x2048
  concatenates_S2048x2048_S512x2048_S512x2048_S3072x2048_d0 : Shape.Concatenates [S2048x2048, S512x2048, S512x2048] S3072x2048 0
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  bitsLt_bf16_f32 : FTy.bits .bf16 < FTy.bits .f32
  inb_S512x512_S512x512_0_0 : ∀ a, (![0, 0] : Fin 2 → Nat) a + S512x512.size a ≤ S512x512.size a
  h_S512x512 : 0 < S512x512.numel
  slices_S2048x3072_S2048x2048_0_0 : S2048x3072.Slices ![0, 0] S2048x2048
  slices_S2048x3072_S2048x512_0_2048 : S2048x3072.Slices ![0, 2048] S2048x512
  slices_S2048x3072_S2048x512_0_2560 : S2048x3072.Slices ![0, 2560] S2048x512
  shapeCasts_S1x2048x64_S2048x64 : S1x2048x64.ShapeCasts S2048x64
  shapeCasts_S1x1x2048x2048_S2048x2048 : S1x1x2048x2048.ShapeCasts S2048x2048
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  inb_S2048x64_S2048x64_0_0 : ∀ a, (![0, 0] : Fin 2 → Nat) a + S2048x64.size a ≤ S2048x64.size a
  h_S2048x64 : 0 < S2048x64.numel
  shapeCasts_S2048x64_S2048x64 : S2048x64.ShapeCasts S2048x64
  slices_S2048x128_o0_0_S2048x64 : S2048x128.Slices ![0, 0] S2048x64
  slices_S2048x128_o0_64_S2048x64 : S2048x128.Slices ![0, 64] S2048x64
  slices_S2048x64_o0_32_S2048x32 : S2048x64.Slices ![0, 32] S2048x32
  slices_S2048x64_o0_0_S2048x32 : S2048x64.Slices ![0, 0] S2048x32
  concatenates_S2048x32_S2048x32_S2048x64_d1 : Shape.Concatenates [S2048x32, S2048x32] S2048x64 1
  inb_S2x2048x64_S1x2048x64_0_0_0 : ∀ a, (![0, 0, 0] : Fin 3 → Nat) a + S1x2048x64.size a ≤ S2x2048x64.size a
  h_S1x2048x64 : 0 < S1x2048x64.numel
  shapeCasts_S2048x64_S1x2048x64 : S2048x64.ShapeCasts S1x2048x64
  packedbf16_S2x2048x64_S1x2048x64_0_0_0 : (Rect.unit (s := S2x2048x64) ![0, 0, 0] S1x2048x64.size inb_S2x2048x64_S1x2048x64_0_0_0).PackedRows (EltTy.packing .bf16)
  inb_S2x2048x64_S1x2048x64_1_0_0 : ∀ a, (![1, 0, 0] : Fin 3 → Nat) a + S1x2048x64.size a ≤ S2x2048x64.size a
  packedbf16_S2x2048x64_S1x2048x64_1_0_0 : (Rect.unit (s := S2x2048x64) ![1, 0, 0] S1x2048x64.size inb_S2x2048x64_S1x2048x64_1_0_0).PackedRows (EltTy.packing .bf16)
  shapeCasts_S2048x512_S2048x8x64 : S2048x512.ShapeCasts S2048x8x64
  transposes_S2048x8x64_S8x2048x64_1_0_2 : S2048x8x64.Transposes [1, 0, 2] S8x2048x64
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S256x64_S256x64_0_0 : ∀ a, (![0, 0] : Fin 2 → Nat) a + S256x64.size a ≤ S256x64.size a
  h_S256x64 : 0 < S256x64.numel
  shapeCasts_S256x64_S256x64 : S256x64.ShapeCasts S256x64
  inb_S1x2048x64_S1x2048x64_0_0_0 : ∀ a, (![0, 0, 0] : Fin 3 → Nat) a + S1x2048x64.size a ≤ S1x2048x64.size a
  inb_S256x2048_S256x2048_0_0 : ∀ a, (![0, 0] : Fin 2 → Nat) a + S256x2048.size a ≤ S256x2048.size a
  h_S256x2048 : 0 < S256x2048.numel
  shapeCasts_S256x2048_S256x2048 : S256x2048.ShapeCasts S256x2048
  slices_S256x128_o0_0_S256x64 : S256x128.Slices ![0, 0] S256x64
  slices_S256x128_o0_64_S256x64 : S256x128.Slices ![0, 64] S256x64
  slices_S256x64_o0_32_S256x32 : S256x64.Slices ![0, 32] S256x32
  slices_S256x64_o0_0_S256x32 : S256x64.Slices ![0, 0] S256x32
  concatenates_S256x32_S256x32_S256x64_d1 : Shape.Concatenates [S256x32, S256x32] S256x64 1
  reduces_S256x2048_S256 : S256x2048.Reduces [1] S256
  shapeCasts_S256_S256x1 : S256.ShapeCasts S256x1
  broadcasts_S256x1_S256x2048 : S256x1.Broadcasts S256x2048
  inb_S2x256x2048_S1x256x2048_0_0_0 : ∀ a, (![0, 0, 0] : Fin 3 → Nat) a + S1x256x2048.size a ≤ S2x256x2048.size a
  h_S1x256x2048 : 0 < S1x256x2048.numel
  shapeCasts_S1x256x2048_S256x2048 : S1x256x2048.ShapeCasts S256x2048
  shapeCasts_S256x2048_S1x256x2048 : S256x2048.ShapeCasts S1x256x2048
  inb_S2x256x2048_S1x256x2048_1_0_0 : ∀ a, (![1, 0, 0] : Fin 3 → Nat) a + S1x256x2048.size a ≤ S2x256x2048.size a
  concatenates_S256x64_S256x64_S256x128_d1 : Shape.Concatenates [S256x64, S256x64] S256x128 1
  packedbf16_S256x128_S256x128_0_0 : (Rect.unit (s := S256x128) ![0, 0] S256x128.size inb_S256x128_S256x128_0_0).PackedRows (EltTy.packing .bf16)
  bcast_S2048x2048_S1x2048x2048_1_2 : S2048x2048.BroadcastsInDim S1x2048x2048 (![1, 2] : Fin 2 → Fin S1x2048x2048.rank)
  bcast_S32x2048x2048_S1x32x2048x2048_1_2_3 : S32x2048x2048.BroadcastsInDim S1x32x2048x2048 (![1, 2, 3] : Fin 3 → Fin S1x32x2048x2048.rank)
  dot_S512x2048_S512x2048_S512x512_1_1_0_0_n_n_wf : DotDims.WF S512x2048 S512x2048 S512x512 [1] [1] [0] [0] [] []
  dot_S256x64_S2048x64_S256x2048_1_1_0_0_n_n_wf : DotDims.WF S256x64 S2048x64 S256x2048 [1] [1] [0] [0] [] []
  dot_S256x2048_S2048x64_S256x64_1_0_0_1_n_n_wf : DotDims.WF S256x2048 S2048x64 S256x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S2048x2048.size a
  hwx0_0 : ∀ i : grid0.Coords, EltTy.bits .f32 = 32 ∨ (Rect.block (s := S2048x2048) S512x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x2048.size a ≤ S3072x2048.size a
  hwx0_1 : ∀ i : grid0.Coords, EltTy.bits .f32 = 32 ∨ (Rect.block (s := S3072x2048) S512x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S2048x3072.size a
  hwx0_2 : ∀ i : grid0.Coords, EltTy.bits .f32 = 32 ∨ (Rect.block (s := S2048x3072) S512x512.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x128.size a ≤ S2048x512.size a
  hwx1_0 : ∀ i : grid1.Coords, EltTy.bits .f32 = 32 ∨ (Rect.block (s := S2048x512) S2048x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S2048x64.size a ≤ S2048x64.size a
  hwx1_1 : ∀ i : grid1.Coords, EltTy.bits .f32 = 32 ∨ (Rect.block (s := S2048x64) S2048x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S2048x64.size a ≤ S2048x64.size a
  hwx1_2 : ∀ i : grid1.Coords, EltTy.bits .f32 = 32 ∨ (Rect.block (s := S2048x64) S2048x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2x2048x64.size a ≤ S8x2048x64.size a
  hwx1_3 : ∀ i : grid1.Coords, EltTy.bits .bf16 = 32 ∨ (Rect.block (s := S8x2048x64) S2x2048x64.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S256x128.size a ≤ S2048x2048.size a
  hwx2_0 : ∀ i : grid2.Coords, EltTy.bits .f32 = 32 ∨ (Rect.block (s := S2048x2048) S256x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S256x64.size a ≤ S2048x64.size a
  hwx2_1 : ∀ i : grid2.Coords, EltTy.bits .f32 = 32 ∨ (Rect.block (s := S2048x64) S256x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S256x64.size a ≤ S2048x64.size a
  hwx2_2 : ∀ i : grid2.Coords, EltTy.bits .f32 = 32 ∨ (Rect.block (s := S2048x64) S256x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1x2048x64.size a ≤ S8x2048x64.size a
  hwx2_3 : ∀ i : grid2.Coords, EltTy.bits .bf16 = 32 ∨ (Rect.block (s := S8x2048x64) S1x2048x64.size (cc2_transform_3 i) (hinb2_3 i)).WholeWords (EltTy.packing .bf16)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S1x2048x64.size a ≤ S8x2048x64.size a
  hwx2_4 : ∀ i : grid2.Coords, EltTy.bits .bf16 = 32 ∨ (Rect.block (s := S8x2048x64) S1x2048x64.size (cc2_transform_4 i) (hinb2_4 i)).WholeWords (EltTy.packing .bf16)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S256x2048.size a ≤ S2048x2048.size a
  hwx2_5 : ∀ i : grid2.Coords, EltTy.bits .f32 = 32 ∨ (Rect.block (s := S2048x2048) S256x2048.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S2x256x2048.size a ≤ S32x2048x2048.size a
  hwx2_6 : ∀ i : grid2.Coords, EltTy.bits .f32 = 32 ∨ (Rect.block (s := S32x2048x2048) S2x256x2048.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S256x128.size a ≤ S2048x2048.size a
  hwx2_7 : ∀ i : grid2.Coords, EltTy.bits .bf16 = 32 ∨ (Rect.block (s := S2048x2048) S256x128.size (cc2_transform_7 i) (hinb2_7 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S512x2048.size a ≤ S2048x2048.size a
  hwx3_0 : ∀ i : grid3.Coords, EltTy.bits .bf16 = 32 ∨ (Rect.block (s := S2048x2048) S512x2048.size (cc3_transform_0 i) (hinb3_0 i)).WholeWords (EltTy.packing .bf16)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S512x2048.size a ≤ S2048x2048.size a
  hwx3_1 : ∀ i : grid3.Coords, EltTy.bits .f32 = 32 ∨ (Rect.block (s := S2048x2048) S512x2048.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S512x512.size a ≤ S2048x2048.size a
  hwx3_2 : ∀ i : grid3.Coords, EltTy.bits .f32 = 32 ∨ (Rect.block (s := S2048x2048) S512x512.size (cc3_transform_2 i) (hinb3_2 i)).WholeWords (EltTy.packing .f32)

variable [Facts₀]

def dot_S512x2048_S512x2048_S512x512_1_1_0_0_n_n : DotDims S512x2048 S512x2048 S512x512 where
  lhsContracting := [1]
  rhsContracting := [1]
  lhsNonContracting := [0]
  rhsNonContracting := [0]
  lhsBatch := []
  rhsBatch := []
  wf := dot_S512x2048_S512x2048_S512x512_1_1_0_0_n_n_wf
def dot_S256x64_S2048x64_S256x2048_1_1_0_0_n_n : DotDims S256x64 S2048x64 S256x2048 where
  lhsContracting := [1]
  rhsContracting := [1]
  lhsNonContracting := [0]
  rhsNonContracting := [0]
  lhsBatch := []
  rhsBatch := []
  wf := dot_S256x64_S2048x64_S256x2048_1_1_0_0_n_n_wf
def dot_S256x2048_S2048x64_S256x64_1_0_0_1_n_n : DotDims S256x2048 S2048x64 S256x64 where
  lhsContracting := [1]
  rhsContracting := [0]
  lhsNonContracting := [0]
  rhsNonContracting := [1]
  lhsBatch := []
  rhsBatch := []
  wf := dot_S256x2048_S2048x64_S256x64_1_0_0_1_n_n_wf

abbrev win0_0 : Pipeline.Window sig grid0 :=
  Pipeline.Window.ofSpec (Memref.whole main_v0) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S512x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S512x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v4) S2048x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v6) S2048x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v7) S2048x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v9) S2x2048x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v3) S256x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v6) S256x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v7) S256x64.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v9) S1x2048x64.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v12) S1x2048x64.size cc2_transform_4 reads2_4 false false 2 stage2_4 sem2_4
    hrank2 hreads2_4 hinb2_4 nbuf2_4 (Memref.isWhole_whole _) hwx2_4 hstage2_4

abbrev win2_5 : Pipeline.Window sig grid2 :=
  Pipeline.Window.ofSpec (Memref.whole main_v8) S256x2048.size cc2_transform_5 reads2_5 false false 2 stage2_5 sem2_5
    hrank2 hreads2_5 hinb2_5 nbuf2_5 (Memref.isWhole_whole _) hwx2_5 hstage2_5

abbrev win2_6 : Pipeline.Window sig grid2 :=
  Pipeline.Window.ofSpec (Memref.whole main_v13_0) S2x256x2048.size cc2_transform_6 reads2_6 true false 2 stage2_6 sem2_6
    hrank2 hreads2_6 hinb2_6 nbuf2_6 (Memref.isWhole_whole _) hwx2_6 hstage2_6

abbrev win2_7 : Pipeline.Window sig grid2 :=
  Pipeline.Window.ofSpec (Memref.whole main_v13_1) S256x128.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

abbrev win3_0 : Pipeline.Window sig grid3 :=
  Pipeline.Window.ofSpec (Memref.whole main_v13_1) S512x2048.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg7) S512x2048.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v14) S512x512.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S1x2048x2048 : Shape := ⟨3, ![1, 2048, 2048]⟩
abbrev S1x2048x64 : Shape := ⟨3, ![1, 2048, 64]⟩
abbrev S1x1x2048x2048 : Shape := ⟨4, ![1, 1, 2048, 2048]⟩
abbrev S2048x2048 : Shape := ⟨2, ![2048, 2048]⟩
abbrev S512x2048 : Shape := ⟨2, ![512, 2048]⟩
abbrev S1x2048x32x64 : Shape := ⟨4, ![1, 2048, 32, 64]⟩
abbrev S1x32x2048x64 : Shape := ⟨4, ![1, 32, 2048, 64]⟩
abbrev S1x2048x512 : Shape := ⟨3, ![1, 2048, 512]⟩
abbrev S1x2048x8x64 : Shape := ⟨4, ![1, 2048, 8, 64]⟩
abbrev S1x8x2048x64 : Shape := ⟨4, ![1, 8, 2048, 64]⟩
abbrev S1x1x2048x64 : Shape := ⟨4, ![1, 1, 2048, 64]⟩
abbrev S1x32x2048x32 : Shape := ⟨4, ![1, 32, 2048, 32]⟩
abbrev S1x8x2048x32 : Shape := ⟨4, ![1, 8, 2048, 32]⟩
abbrev S1x8x4x2048x64 : Shape := ⟨5, ![1, 8, 4, 2048, 64]⟩
abbrev S1x32x2048x2048 : Shape := ⟨4, ![1, 32, 2048, 2048]⟩
abbrev S_ : Shape := ⟨0, ![]⟩
abbrev S1x32x2048 : Shape := ⟨3, ![1, 32, 2048]⟩
abbrev S1x32x2048x1 : Shape := ⟨4, ![1, 32, 2048, 1]⟩

abbrev nBuf : Space → Nat
  | .hbm => 65
  | .vmem => 0
  | .smem => 0
  | _ => 0

abbrev bufTy : (tb : Table) → Fin (tcTables nBuf tb) → BufTy
  | .hbm, ⟨0, _⟩ => ⟨S1x2048x2048, .f32⟩
  | .hbm, ⟨1, _⟩ => ⟨S1x2048x64, .f32⟩
  | .hbm, ⟨2, _⟩ => ⟨S1x2048x64, .f32⟩
  | .hbm, ⟨3, _⟩ => ⟨S1x1x2048x2048, .f32⟩
  | .hbm, ⟨4, _⟩ => ⟨S2048x2048, .f32⟩
  | .hbm, ⟨5, _⟩ => ⟨S512x2048, .f32⟩
  | .hbm, ⟨6, _⟩ => ⟨S512x2048, .f32⟩
  | .hbm, ⟨7, _⟩ => ⟨S2048x2048, .f32⟩
  | .hbm, ⟨8, _⟩ => ⟨S1x2048x2048, .f32⟩
  | .hbm, ⟨9, _⟩ => ⟨S1x2048x32x64, .f32⟩
  | .hbm, ⟨10, _⟩ => ⟨S1x32x2048x64, .f32⟩
  | .hbm, ⟨11, _⟩ => ⟨S1x2048x512, .f32⟩
  | .hbm, ⟨12, _⟩ => ⟨S1x2048x8x64, .f32⟩
  | .hbm, ⟨13, _⟩ => ⟨S1x8x2048x64, .f32⟩
  | .hbm, ⟨14, _⟩ => ⟨S1x2048x512, .f32⟩
  | .hbm, ⟨15, _⟩ => ⟨S1x2048x8x64, .f32⟩
  | .hbm, ⟨16, _⟩ => ⟨S1x8x2048x64, .f32⟩
  | .hbm, ⟨17, _⟩ => ⟨S1x1x2048x64, .f32⟩
  | .hbm, ⟨18, _⟩ => ⟨S1x1x2048x64, .f32⟩
  | .hbm, ⟨19, _⟩ => ⟨S1x32x2048x64, .f32⟩
  | .hbm, ⟨20, _⟩ => ⟨S1x32x2048x64, .f32⟩
  | .hbm, ⟨21, _⟩ => ⟨S1x32x2048x32, .f32⟩
  | .hbm, ⟨22, _⟩ => ⟨S1x32x2048x32, .f32⟩
  | .hbm, ⟨23, _⟩ => ⟨S1x32x2048x32, .f32⟩
  | .hbm, ⟨24, _⟩ => ⟨S1x32x2048x64, .f32⟩
  | .hbm, ⟨25, _⟩ => ⟨S1x32x2048x64, .f32⟩
  | .hbm, ⟨26, _⟩ => ⟨S1x32x2048x64, .f32⟩
  | .hbm, ⟨27, _⟩ => ⟨S1x32x2048x64, .f32⟩
  | .hbm, ⟨28, _⟩ => ⟨S1x8x2048x64, .f32⟩
  | .hbm, ⟨29, _⟩ => ⟨S1x8x2048x64, .f32⟩
  | .hbm, ⟨30, _⟩ => ⟨S1x8x2048x32, .f32⟩
  | .hbm, ⟨31, _⟩ => ⟨S1x8x2048x32, .f32⟩
  | .hbm, ⟨32, _⟩ => ⟨S1x8x2048x32, .f32⟩
  | .hbm, ⟨33, _⟩ => ⟨S1x8x2048x64, .f32⟩
  | .hbm, ⟨34, _⟩ => ⟨S1x8x2048x64, .f32⟩
  | .hbm, ⟨35, _⟩ => ⟨S1x8x2048x64, .f32⟩
  | .hbm, ⟨36, _⟩ => ⟨S1x8x2048x64, .f32⟩
  | .hbm, ⟨37, _⟩ => ⟨S1x8x4x2048x64, .f32⟩
  | .hbm, ⟨38, _⟩ => ⟨S1x32x2048x64, .f32⟩
  | .hbm, ⟨39, _⟩ => ⟨S1x8x4x2048x64, .f32⟩
  | .hbm, ⟨40, _⟩ => ⟨S1x32x2048x64, .f32⟩
  | .hbm, ⟨41, _⟩ => ⟨S1x32x2048x2048, .f32⟩
  | .hbm, ⟨42, _⟩ => ⟨S_, .f32⟩
  | .hbm, ⟨43, _⟩ => ⟨S1x32x2048x2048, .f32⟩
  | .hbm, ⟨44, _⟩ => ⟨S1x32x2048x2048, .f32⟩
  | .hbm, ⟨45, _⟩ => ⟨S1x32x2048x2048, .f32⟩
  | .hbm, ⟨46, _⟩ => ⟨S1x32x2048x2048, .f32⟩
  | .hbm, ⟨47, _⟩ => ⟨S_, .f32⟩
  | .hbm, ⟨48, _⟩ => ⟨S1x32x2048, .f32⟩
  | .hbm, ⟨49, _⟩ => ⟨S_, .f32⟩
  | .hbm, ⟨50, _⟩ => ⟨S1x32x2048, .f32⟩
  | .hbm, ⟨51, _⟩ => ⟨S1x32x2048, .f32⟩
  | .hbm, ⟨52, _⟩ => ⟨S1x32x2048x1, .f32⟩
  | .hbm, ⟨53, _⟩ => ⟨S1x32x2048x2048, .f32⟩
  | .hbm, ⟨54, _⟩ => ⟨S1x32x2048x2048, .f32⟩
  | .hbm, ⟨55, _⟩ => ⟨S1x32x2048x2048, .f32⟩
  | .hbm, ⟨56, _⟩ => ⟨S_, .f32⟩
  | .hbm, ⟨57, _⟩ => ⟨S1x32x2048, .f32⟩
  | .hbm, ⟨58, _⟩ => ⟨S1x32x2048x1, .f32⟩
  | .hbm, ⟨59, _⟩ => ⟨S1x32x2048x2048, .f32⟩
  | .hbm, ⟨60, _⟩ => ⟨S1x32x2048x2048, .f32⟩
  | .hbm, ⟨61, _⟩ => ⟨S1x32x2048x64, .f32⟩
  | .hbm, ⟨62, _⟩ => ⟨S1x2048x32x64, .f32⟩
  | .hbm, ⟨63, _⟩ => ⟨S1x2048x2048, .f32⟩
  | .hbm, ⟨64, _⟩ => ⟨S1x2048x2048, .f32⟩
  | _, _ => ⟨S1x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_cst : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_cst_0 : Ref sig .tc := ⟨.hbm, 47, rfl⟩
abbrev main_v38 : Ref sig .tc := ⟨.hbm, 48, rfl⟩
abbrev main_cst_1 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_cst_2 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩

abbrev nD : Nat := 1
abbrev τ : Topo := Topo.v7x

variable {F : FTy → Type} [FloatOps F]

class Facts₀ : Prop where
  shapeCasts_S1x2048x2048_S1x2048x32x64 : S1x2048x2048.ShapeCasts S1x2048x32x64
  transposes_S1x2048x32x64_S1x32x2048x64_0_2_1_3 : S1x2048x32x64.Transposes [0, 2, 1, 3] S1x32x2048x64
  shapeCasts_S1x2048x512_S1x2048x8x64 : S1x2048x512.ShapeCasts S1x2048x8x64
  transposes_S1x2048x8x64_S1x8x2048x64_0_2_1_3 : S1x2048x8x64.Transposes [0, 2, 1, 3] S1x8x2048x64
  bcast_S1x2048x64_S1x1x2048x64_0_2_3 : S1x2048x64.BroadcastsInDim S1x1x2048x64 (![0, 2, 3] : Fin 3 → Fin S1x1x2048x64.rank)
  bcast_S1x1x2048x64_S1x32x2048x64_0_1_2_3 : S1x1x2048x64.BroadcastsInDim S1x32x2048x64 (![0, 1, 2, 3] : Fin 4 → Fin S1x32x2048x64.rank)
  slices_S1x32x2048x64_S1x32x2048x32_0_0_0_32 : S1x32x2048x64.Slices ![0, 0, 0, 32] S1x32x2048x32
  slices_S1x32x2048x64_S1x32x2048x32_0_0_0_0 : S1x32x2048x64.Slices ![0, 0, 0, 0] S1x32x2048x32
  concatenates_S1x32x2048x32_S1x32x2048x32_S1x32x2048x64_d3 : Shape.Concatenates [S1x32x2048x32, S1x32x2048x32] S1x32x2048x64 3
  bcast_S1x1x2048x64_S1x8x2048x64_0_1_2_3 : S1x1x2048x64.BroadcastsInDim S1x8x2048x64 (![0, 1, 2, 3] : Fin 4 → Fin S1x8x2048x64.rank)
  slices_S1x8x2048x64_S1x8x2048x32_0_0_0_32 : S1x8x2048x64.Slices ![0, 0, 0, 32] S1x8x2048x32
  slices_S1x8x2048x64_S1x8x2048x32_0_0_0_0 : S1x8x2048x64.Slices ![0, 0, 0, 0] S1x8x2048x32
  concatenates_S1x8x2048x32_S1x8x2048x32_S1x8x2048x64_d3 : Shape.Concatenates [S1x8x2048x32, S1x8x2048x32] S1x8x2048x64 3
  bcast_S1x8x2048x64_S1x8x4x2048x64_0_1_3_4 : S1x8x2048x64.BroadcastsInDim S1x8x4x2048x64 (![0, 1, 3, 4] : Fin 4 → Fin S1x8x4x2048x64.rank)
  shapeCasts_S1x8x4x2048x64_S1x32x2048x64 : S1x8x4x2048x64.ShapeCasts S1x32x2048x64
  bcast_S_S1x32x2048x2048 : S_.BroadcastsInDim S1x32x2048x2048 (![] : Fin 0 → Fin S1x32x2048x2048.rank)
  bcast_S1x1x2048x2048_S1x32x2048x2048_0_1_2_3 : S1x1x2048x2048.BroadcastsInDim S1x32x2048x2048 (![0, 1, 2, 3] : Fin 4 → Fin S1x32x2048x2048.rank)
  reducesTo_S1x32x2048x2048_S1x32x2048_d3 : S1x32x2048x2048.ReducesTo [3] S1x32x2048
  h_S_ : 0 < S_.numel
  bcast_S_S1x32x2048 : S_.BroadcastsInDim S1x32x2048 (![] : Fin 0 → Fin S1x32x2048.rank)
  bcast_S1x32x2048_S1x32x2048x1_0_1_2 : S1x32x2048.BroadcastsInDim S1x32x2048x1 (![0, 1, 2] : Fin 3 → Fin S1x32x2048x1.rank)
  bcast_S1x32x2048x1_S1x32x2048x2048_0_1_2_3 : S1x32x2048x1.BroadcastsInDim S1x32x2048x2048 (![0, 1, 2, 3] : Fin 4 → Fin S1x32x2048x2048.rank)
  transposes_S1x32x2048x64_S1x2048x32x64_0_2_1_3 : S1x32x2048x64.Transposes [0, 2, 1, 3] S1x2048x32x64
  shapeCasts_S1x2048x32x64_S1x2048x2048 : S1x2048x32x64.ShapeCasts S1x2048x2048
  dot_S1x2048x2048_S2048x2048_S1x2048x2048_2_1_01_0_n_n_wf : DotDims.WF S1x2048x2048 S2048x2048 S1x2048x2048 [2] [1] [0, 1] [0] [] []
  dot_S1x2048x2048_S512x2048_S1x2048x512_2_1_01_0_n_n_wf : DotDims.WF S1x2048x2048 S512x2048 S1x2048x512 [2] [1] [0, 1] [0] [] []
  dot_S1x32x2048x64_S1x32x2048x64_S1x32x2048x2048_3_3_2_2_01_01_wf : DotDims.WF S1x32x2048x64 S1x32x2048x64 S1x32x2048x2048 [3] [3] [2] [2] [0, 1] [0, 1]
  dot_S1x32x2048x2048_S1x32x2048x64_S1x32x2048x64_3_2_2_3_01_01_wf : DotDims.WF S1x32x2048x2048 S1x32x2048x64 S1x32x2048x64 [3] [2] [2] [3] [0, 1] [0, 1]

variable [Facts₀]

def dot_S1x2048x2048_S2048x2048_S1x2048x2048_2_1_01_0_n_n : DotDims S1x2048x2048 S2048x2048 S1x2048x2048 where
  lhsContracting := [2]
  rhsContracting := [1]
  lhsNonContracting := [0, 1]
  rhsNonContracting := [0]
  lhsBatch := []
  rhsBatch := []
  wf := dot_S1x2048x2048_S2048x2048_S1x2048x2048_2_1_01_0_n_n_wf
def dot_S1x2048x2048_S512x2048_S1x2048x512_2_1_01_0_n_n : DotDims S1x2048x2048 S512x2048 S1x2048x512 where
  lhsContracting := [2]
  rhsContracting := [1]
  lhsNonContracting := [0, 1]
  rhsNonContracting := [0]
  lhsBatch := []
  rhsBatch := []
  wf := dot_S1x2048x2048_S512x2048_S1x2048x512_2_1_01_0_n_n_wf
def dot_S1x32x2048x64_S1x32x2048x64_S1x32x2048x2048_3_3_2_2_01_01 : DotDims S1x32x2048x64 S1x32x2048x64 S1x32x2048x2048 where
  lhsContracting := [3]
  rhsContracting := [3]
  lhsNonContracting := [2]
  rhsNonContracting := [2]
  lhsBatch := [0, 1]
  rhsBatch := [0, 1]
  wf := dot_S1x32x2048x64_S1x32x2048x64_S1x32x2048x2048_3_3_2_2_01_01_wf
def dot_S1x32x2048x2048_S1x32x2048x64_S1x32x2048x64_3_2_2_3_01_01 : DotDims S1x32x2048x2048 S1x32x2048x64 S1x32x2048x64 where
  lhsContracting := [3]
  rhsContracting := [2]
  lhsNonContracting := [2]
  rhsNonContracting := [3]
  lhsBatch := [0, 1]
  rhsBatch := [0, 1]
  wf := dot_S1x32x2048x2048_S1x32x2048x64_S1x32x2048x64_3_2_2_3_01_01_wf

class Facts : Prop extends Facts₀ where

variable [Facts]
-- ==== Proof.KFrDefs.lean ====
/-
  The four launched kernels of the attention program, each at the buffer contents `V` its region is entered with:
  the block every window shows at a grid point, what the kernel body leaves in each output window's staging
  buffer as a function of the input blocks, and the pipeline's proof data built from these.

  Region 0 multiplies a 512-row block of the hidden states by a 512-row block of the stacked projection weights;
  region 1 rotates two key heads (128 columns of the key projection) with the cosine and sine tables; region 2 is
  the attention cell of one 256-row query tile and one pair of query heads (rotated queries against the rotated keys,
  scaled, masked, softmax, then against the values); region 3 multiplies a 512-row block of the context by a 512-row
  block of the output weights.
-/
import proofs.«162642_j16423954940491_2_alg».proof.Proof.Gen.Kernel.Launch
import proofs.«162642_j16423954940491_2_alg».proof.Proof.Gen.Kernel.Skeleton
import proofs.«162642_j16423954940491_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

variable (V : (c : Dev nD) → (b : Ref sig .tc) → Buf (Elt F) ((c : Thread nD τ).loc b))

/-! ## Region 0: a block of the stacked projection -/

/-- Window `w`'s block at point `t` of region 0, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- A whole 512 × 2048 staging buffer, and a whole 512 × 512 one. -/
abbrev rA : Rect S512x2048 := Rect.unit (s := S512x2048) ![0, 0] S512x2048.size inb_S512x2048_S512x2048_0_0
abbrev rO : Rect S512x512 := Rect.unit (s := S512x512) ![0, 0] S512x512.size inb_S512x512_S512x512_0_0

/-- The output tile after the body: one store of the product of the two input blocks. -/
def out0_2 (x0 : Vec F S512x2048 .f32) (x1 : Vec F S512x2048 .f32) : Vec F S512x512 .f32 :=
  View.canon [⟨rO, k0_pay1 (View.ld x0 rA) (View.ld x1 rA)⟩]

/-- The proof data of region 0 on core `c`: inputs stay at their blocks, the output tile is `out0_2` of them. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-! ## Region 1: two key heads rotated -/

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev rK : Rect S2048x128 := Rect.unit (s := S2048x128) ![0, 0] S2048x128.size inb_S2048x128_S2048x128_0_0
abbrev rT : Rect S2048x64 := Rect.unit (s := S2048x64) ![0, 0] S2048x64.size inb_S2048x64_S2048x64_0_0
/-- The two heads' slabs of the 2 × 2048 × 64 output buffer. -/
abbrev rH0 : Rect S2x2048x64 := Rect.unit (s := S2x2048x64) ![0, 0, 0] S1x2048x64.size inb_S2x2048x64_S1x2048x64_0_0_0
abbrev rH1 : Rect S2x2048x64 := Rect.unit (s := S2x2048x64) ![1, 0, 0] S1x2048x64.size inb_S2x2048x64_S1x2048x64_1_0_0

/-- The output buffer after the body: the second head's slab stored last, the first head's first. -/
def out1_3 (x0 : Vec F S2048x128 .f32) (x1 : Vec F S2048x64 .f32) (x2 : Vec F S2048x64 .f32) : Vec F S2x2048x64 .bf16 :=
  View.canon [⟨rH1, k1_pay5 (View.ld x0 rK) (View.ld x1 rT) (View.ld x2 rT)⟩,
    ⟨rH0, k1_pay4 (View.ld x0 rK) (View.ld x1 rT) (View.ld x2 rT)⟩]

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

/-! ## Region 2: the attention cell -/

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev rQ : Rect S256x128 := Rect.unit (s := S256x128) ![0, 0] S256x128.size inb_S256x128_S256x128_0_0
abbrev rC : Rect S256x64 := Rect.unit (s := S256x64) ![0, 0] S256x64.size inb_S256x64_S256x64_0_0
abbrev rKV : Rect S1x2048x64 := Rect.unit (s := S1x2048x64) ![0, 0, 0] S1x2048x64.size inb_S1x2048x64_S1x2048x64_0_0_0
abbrev rM : Rect S256x2048 := Rect.unit (s := S256x2048) ![0, 0] S256x2048.size inb_S256x2048_S256x2048_0_0
/-- The two heads' slabs of the 2 × 256 × 2048 weights buffer. -/
abbrev rW0 : Rect S2x256x2048 := Rect.unit (s := S2x256x2048) ![0, 0, 0] S1x256x2048.size inb_S2x256x2048_S1x256x2048_0_0_0
abbrev rW1 : Rect S2x256x2048 := Rect.unit (s := S2x256x2048) ![1, 0, 0] S1x256x2048.size inb_S2x256x2048_S1x256x2048_1_0_0

section
variable (x0 : Vec F S256x128 .f32) (x1 : Vec F S256x64 .f32) (x2 : Vec F S256x64 .f32)
  (x3 : Vec F S1x2048x64 .bf16) (x4 : Vec F S1x2048x64 .bf16) (x5 : Vec F S256x2048 .f32)

/-- The first head's masked scores, their row maxima, and the second head's rotated queries: what the first part of
    the body hands to the second, from the six input blocks. -/
abbrev p2_keys : FVec F S2048x64 .bf16 := k2_pay9 (View.ld x3 rKV)
abbrev p2_vals : FVec F S2048x64 .bf16 := k2_pay10 (View.ld x4 rKV)
abbrev p2_mask : FVec F S256x2048 .f32 := k2_pay11 (View.ld x5 rM)
abbrev p2_q1 : FVec F S256x64 .bf16 := k2_pay12 (View.ld x0 rQ) (View.ld x1 rC) (View.ld x2 rC)
abbrev p2_sc0 : FVec F S256x2048 .f32 := k2_pay13 (View.ld x0 rQ) (View.ld x1 rC) (View.ld x2 rC) (View.ld x3 rKV) (View.ld x5 rM)
abbrev p2_mx0 : FVec F S256 .f32 := k2_pay14 (View.ld x0 rQ) (View.ld x1 rC) (View.ld x2 rC) (View.ld x3 rKV) (View.ld x5 rM)

/-- The weights buffer after the body: the second head's probabilities stored last, the first head's first. -/
def out2_6 : Vec F S2x256x2048 .f32 :=
  View.canon [⟨rW1, k2_pay4 (p2_keys x3) (p2_mask x5) (p2_q1 x0 x1 x2)⟩,
    ⟨rW0, k2_pay3 (p2_sc0 x0 x1 x2 x3 x5) (p2_mx0 x0 x1 x2 x3 x5) (k2_pay15 (F := F))⟩]

/-- The context buffer after the body: the two heads' contexts side by side, one store. -/
def out2_7 : Vec F S256x128 .bf16 :=
  View.canon [⟨rQ, k2_pay5 (p2_keys x3) (p2_vals x4) (p2_mask x5) (p2_q1 x0 x1 x2) (p2_sc0 x0 x1 x2 x3 x5)
    (p2_mx0 x0 x1 x2 x3 x5) (k2_pay15 (F := F))⟩]
end

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => out2_6 (iblk2 V c 0 t) (iblk2 V c 1 t) (iblk2 V c 2 t) (iblk2 V c 3 t) (iblk2 V c 5 t)
    | ⟨7, _⟩ => out2_7 (iblk2 V c 0 t) (iblk2 V c 1 t) (iblk2 V c 2 t) (iblk2 V c 3 t) (iblk2 V c 4 t) (iblk2 V c 5 t)
  Φ _ := Pipeline.ΦA spec2 c
  q _ := fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t =
    out2_6 (iblk2 V c 0 t) (iblk2 V c 1 t) (iblk2 V c 2 t) (iblk2 V c 3 t) (iblk2 V c 5 t) := by dsimp only [dat2]
theorem after2_7 (c : Dev nD) (t : Fin cfg2.N) : (dat2 V c).after 7 t =
    out2_7 (iblk2 V c 0 t) (iblk2 V c 1 t) (iblk2 V c 2 t) (iblk2 V c 3 t) (iblk2 V c 4 t) (iblk2 V c 5 t) := by dsimp only [dat2]

/-! ## Region 3: a block of the output projection -/

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The output tile after the body: one store of the product of the context block and the weight block. -/
def out3_2 (x0 : Vec F S512x2048 .bf16) (x1 : Vec F S512x2048 .f32) : Vec F S512x512 .f32 :=
  View.canon [⟨rO, k3_pay1 (View.ld x0 rA) (View.ld x1 rA)⟩]

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3_2 (iblk3 V c 0 t) (iblk3 V c 1 t)
  Φ _ := Pipeline.ΦA spec3 c
  q _ := fullShare
  owed _ := 0

theorem A_eq3 (c : Dev nD) (w : Fin cfg3.W) : (dat3 V c).A w = V c (Pipeline.arrRef spec3 w) := by
  dsimp only [dat3]
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = out3_2 (iblk3 V c 0 t) (iblk3 V c 1 t) := by dsimp only [dat3]

end Cert.Kernel.Fr

end
-- ==== Proof.KFrFold.lean ====
/-
  The buffer contents at every segment boundary of the attention program's run, as a fold from the launch memory: a
  stretch of host operations applies them; a launched region leaves each of its output arrays at what its grid points
  wrote back and every other buffer as it found it. Read back through the fold, every argument array ends as launched.
-/
import proofs.«162642_j16423954940491_2_alg».proof.Proof.KFrDefs
import proofs.«162642_j16423954940491_2_alg».proof.Proof.Gen.Kernel.Regions

import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- Core `c`'s buffers at launch. -/
abbrev W0 : Dev nD → Valuation τ sig (Elt F) := fun c b => (s₀ m ρ).mem ((c : Dev nD), b)

/-- After the host stretch `hostOps0`. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h

/-- At region 0's exit: its arrays at what the pipeline leaves (inputs as entered, each output's write-backs folded),
    every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references. -/
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the host stretch `hostOps1`. -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h

/-- At region 1's exit: its arrays at what the pipeline leaves (inputs as entered, each output's write-backs folded),
    every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- The same read at the TensorCore's references. -/
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After the host stretch `hostOps2`. -/
abbrev W5 : Dev nD → Valuation τ sig (Elt F) := fun c => StableHlo.after hostOps2 (W4 m ρ c)
abbrev V5 : (c : Dev nD) → (b : Ref sig .tc) → Buf (Elt F) ((c : Thread nD τ).loc b) := fun c b => W5 m ρ c b
theorem W5_of (c : Dev nD) (r : Ref sig .tc) (h : r ∉ hostOps2_W) : W5 m ρ c (Proc.devRef .tc r) = W4 m ρ c (Proc.devRef .tc r) :=
  StableHlo.after_of_writes_sub hostOps2 _ hostOps2_writes h

/-- At region 2's exit: its arrays at what the pipeline leaves (inputs as entered, each output's write-backs folded),
    every other buffer as entered. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
/-- The same read at the TensorCore's references. -/
abbrev V6 : (c : Dev nD) → (b : Ref sig .tc) → Buf (Elt F) ((c : Thread nD τ).loc b) := fun c b => W6 m ρ c b
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

/-- At region 3's exit: its arrays at what the pipeline leaves (inputs as entered, each output's write-backs folded),
    every other buffer as entered. -/
def W7 (c : Dev nD) : Valuation τ sig (Elt F) :=
  Pipeline.withArrays spec3 c (W6 m ρ c) fun w => (dat3 (V6 m ρ) c).arrAt w cfg3.N
theorem W7_arr (c : Dev nD) (w : Fin cfg3.W) :
    W7 m ρ c (Proc.devRef .tc (Pipeline.arrRef spec3 w)) = (dat3 (V6 m ρ) c).arrAt w cfg3.N := by
  unfold W7; exact Pipeline.withArrays_arr spec3 launch3.win.arr_inj c _ _ w
theorem W7_of_ne (c : Dev nD) (b : Ref sig .tc) (hb : ∀ w, Pipeline.arrRef spec3 w ≠ b) :
    W7 m ρ c (Proc.devRef .tc b) = W6 m ρ c (Proc.devRef .tc b) := by
  unfold W7; exact Pipeline.withArrays_of_ne spec3 c _ _ b hb
/-- The same read at the TensorCore's references. -/
abbrev V7 : (c : Dev nD) → (b : Ref sig .tc) → Buf (Elt F) ((c : Thread nD τ).loc b) := fun c b => W7 m ρ c b
theorem hF3 (c : Dev nD) (w : Fin cfg3.W) : (dat3 (V6 m ρ) c).arrAt w cfg3.N = V7 m ρ c (Pipeline.arrRef spec3 w) :=
  (W7_arr m ρ c w).symm
theorem hrest3 (c : Dev nD) : ∀ b, b ∉ Finset.univ.image (Pipeline.arrRef spec3) → V7 m ρ c b = V6 m ρ c b :=
  fun b hb => W7_of_ne m ρ c b fun w e => hb (Finset.mem_image.mpr ⟨w, Finset.mem_univ _, e⟩)

/-- After the host stretch `hostOps4`. -/
abbrev W8 : Dev nD → Valuation τ sig (Elt F) := fun c => StableHlo.after hostOps4 (W7 m ρ c)
abbrev V8 : (c : Dev nD) → (b : Ref sig .tc) → Buf (Elt F) ((c : Thread nD τ).loc b) := fun c b => W8 m ρ c b
theorem W8_of (c : Dev nD) (r : Ref sig .tc) (h : r ∉ hostOps4_W) : W8 m ρ c (Proc.devRef .tc r) = W7 m ρ c (Proc.devRef .tc r) :=
  StableHlo.after_of_writes_sub hostOps4 _ hostOps4_writes h

/-! ## The arguments end as launched -/

/-- `main_arg0` ends as launched: no host operation writes it and no region's output window is on it. -/
theorem W8_main_arg0 (c : Dev nD) : W8 m ρ c (Proc.devRef .tc main_arg0) = m ((c : Thread nD τ).loc main_arg0) :=
  calc W8 m ρ c (Proc.devRef .tc main_arg0)
    _ = W7 m ρ c (Proc.devRef .tc main_arg0) := W8_of m ρ c main_arg0 (by decide)
    _ = W6 m ρ c (Proc.devRef .tc main_arg0) := W7_of_ne m ρ c main_arg0 (by decide)
    _ = W5 m ρ c (Proc.devRef .tc main_arg0) := W6_of_ne m ρ c main_arg0 (by decide)
    _ = W4 m ρ c (Proc.devRef .tc main_arg0) := W5_of m ρ c main_arg0 (by decide)
    _ = W3 m ρ c (Proc.devRef .tc main_arg0) := W4_of_ne m ρ c main_arg0 (by decide)
    _ = W2 m ρ c (Proc.devRef .tc main_arg0) := W3_of m ρ c main_arg0 (by decide)
    _ = W1 m ρ c (Proc.devRef .tc main_arg0) := W2_of_ne m ρ c main_arg0 (by decide)
    _ = W0 m ρ c (Proc.devRef .tc main_arg0) := W1_of m ρ c main_arg0 (by decide)
    _ = m ((c : Thread nD τ).loc main_arg0) := rfl

/-- `main_arg1` ends as launched: no host operation writes it and no region's output window is on it. -/
theorem W8_main_arg1 (c : Dev nD) : W8 m ρ c (Proc.devRef .tc main_arg1) = m ((c : Thread nD τ).loc main_arg1) :=
  calc W8 m ρ c (Proc.devRef .tc main_arg1)
    _ = W7 m ρ c (Proc.devRef .tc main_arg1) := W8_of m ρ c main_arg1 (by decide)
    _ = W6 m ρ c (Proc.devRef .tc main_arg1) := W7_of_ne m ρ c main_arg1 (by decide)
    _ = W5 m ρ c (Proc.devRef .tc main_arg1) := W6_of_ne m ρ c main_arg1 (by decide)
    _ = W4 m ρ c (Proc.devRef .tc main_arg1) := W5_of m ρ c main_arg1 (by decide)
    _ = W3 m ρ c (Proc.devRef .tc main_arg1) := W4_of_ne m ρ c main_arg1 (by decide)
    _ = W2 m ρ c (Proc.devRef .tc main_arg1) := W3_of m ρ c main_arg1 (by decide)
    _ = W1 m ρ c (Proc.devRef .tc main_arg1) := W2_of_ne m ρ c main_arg1 (by decide)
    _ = W0 m ρ c (Proc.devRef .tc main_arg1) := W1_of m ρ c main_arg1 (by decide)
    _ = m ((c : Thread nD τ).loc main_arg1) := rfl

/-- `main_arg2` ends as launched: no host operation writes it and no region's output window is on it. -/
theorem W8_main_arg2 (c : Dev nD) : W8 m ρ c (Proc.devRef .tc main_arg2) = m ((c : Thread nD τ).loc main_arg2) :=
  calc W8 m ρ c (Proc.devRef .tc main_arg2)
    _ = W7 m ρ c (Proc.devRef .tc main_arg2) := W8_of m ρ c main_arg2 (by decide)
    _ = W6 m ρ c (Proc.devRef .tc main_arg2) := W7_of_ne m ρ c main_arg2 (by decide)
    _ = W5 m ρ c (Proc.devRef .tc main_arg2) := W6_of_ne m ρ c main_arg2 (by decide)
    _ = W4 m ρ c (Proc.devRef .tc main_arg2) := W5_of m ρ c main_arg2 (by decide)
    _ = W3 m ρ c (Proc.devRef .tc main_arg2) := W4_of_ne m ρ c main_arg2 (by decide)
    _ = W2 m ρ c (Proc.devRef .tc main_arg2) := W3_of m ρ c main_arg2 (by decide)
    _ = W1 m ρ c (Proc.devRef .tc main_arg2) := W2_of_ne m ρ c main_arg2 (by decide)
    _ = W0 m ρ c (Proc.devRef .tc main_arg2) := W1_of m ρ c main_arg2 (by decide)
    _ = m ((c : Thread nD τ).loc main_arg2) := rfl

/-- `main_arg3` ends as launched: no host operation writes it and no region's output window is on it. -/
theorem W8_main_arg3 (c : Dev nD) : W8 m ρ c (Proc.devRef .tc main_arg3) = m ((c : Thread nD τ).loc main_arg3) :=
  calc W8 m ρ c (Proc.devRef .tc main_arg3)
    _ = W7 m ρ c (Proc.devRef .tc main_arg3) := W8_of m ρ c main_arg3 (by decide)
    _ = W6 m ρ c (Proc.devRef .tc main_arg3) := W7_of_ne m ρ c main_arg3 (by decide)
    _ = W5 m ρ c (Proc.devRef .tc main_arg3) := W6_of_ne m ρ c main_arg3 (by decide)
    _ = W4 m ρ c (Proc.devRef .tc main_arg3) := W5_of m ρ c main_arg3 (by decide)
    _ = W3 m ρ c (Proc.devRef .tc main_arg3) := W4_of_ne m ρ c main_arg3 (by decide)
    _ = W2 m ρ c (Proc.devRef .tc main_arg3) := W3_of m ρ c main_arg3 (by decide)
    _ = W1 m ρ c (Proc.devRef .tc main_arg3) := W2_of_ne m ρ c main_arg3 (by decide)
    _ = W0 m ρ c (Proc.devRef .tc main_arg3) := W1_of m ρ c main_arg3 (by decide)
    _ = m ((c : Thread nD τ).loc main_arg3) := rfl

/-- `main_arg4` ends as launched: no host operation writes it and no region's output window is on it. -/
theorem W8_main_arg4 (c : Dev nD) : W8 m ρ c (Proc.devRef .tc main_arg4) = m ((c : Thread nD τ).loc main_arg4) :=
  calc W8 m ρ c (Proc.devRef .tc main_arg4)
    _ = W7 m ρ c (Proc.devRef .tc main_arg4) := W8_of m ρ c main_arg4 (by decide)
    _ = W6 m ρ c (Proc.devRef .tc main_arg4) := W7_of_ne m ρ c main_arg4 (by decide)
    _ = W5 m ρ c (Proc.devRef .tc main_arg4) := W6_of_ne m ρ c main_arg4 (by decide)
    _ = W4 m ρ c (Proc.devRef .tc main_arg4) := W5_of m ρ c main_arg4 (by decide)
    _ = W3 m ρ c (Proc.devRef .tc main_arg4) := W4_of_ne m ρ c main_arg4 (by decide)
    _ = W2 m ρ c (Proc.devRef .tc main_arg4) := W3_of m ρ c main_arg4 (by decide)
    _ = W1 m ρ c (Proc.devRef .tc main_arg4) := W2_of_ne m ρ c main_arg4 (by decide)
    _ = W0 m ρ c (Proc.devRef .tc main_arg4) := W1_of m ρ c main_arg4 (by decide)
    _ = m ((c : Thread nD τ).loc main_arg4) := rfl

/-- `main_arg5` ends as launched: no host operation writes it and no region's output window is on it. -/
theorem W8_main_arg5 (c : Dev nD) : W8 m ρ c (Proc.devRef .tc main_arg5) = m ((c : Thread nD τ).loc main_arg5) :=
  calc W8 m ρ c (Proc.devRef .tc main_arg5)
    _ = W7 m ρ c (Proc.devRef .tc main_arg5) := W8_of m ρ c main_arg5 (by decide)
    _ = W6 m ρ c (Proc.devRef .tc main_arg5) := W7_of_ne m ρ c main_arg5 (by decide)
    _ = W5 m ρ c (Proc.devRef .tc main_arg5) := W6_of_ne m ρ c main_arg5 (by decide)
    _ = W4 m ρ c (Proc.devRef .tc main_arg5) := W5_of m ρ c main_arg5 (by decide)
    _ = W3 m ρ c (Proc.devRef .tc main_arg5) := W4_of_ne m ρ c main_arg5 (by decide)
    _ = W2 m ρ c (Proc.devRef .tc main_arg5) := W3_of m ρ c main_arg5 (by decide)
    _ = W1 m ρ c (Proc.devRef .tc main_arg5) := W2_of_ne m ρ c main_arg5 (by decide)
    _ = W0 m ρ c (Proc.devRef .tc main_arg5) := W1_of m ρ c main_arg5 (by decide)
    _ = m ((c : Thread nD τ).loc main_arg5) := rfl

/-- `main_arg6` ends as launched: no host operation writes it and no region's output window is on it. -/
theorem W8_main_arg6 (c : Dev nD) : W8 m ρ c (Proc.devRef .tc main_arg6) = m ((c : Thread nD τ).loc main_arg6) :=
  calc W8 m ρ c (Proc.devRef .tc main_arg6)
    _ = W7 m ρ c (Proc.devRef .tc main_arg6) := W8_of m ρ c main_arg6 (by decide)
    _ = W6 m ρ c (Proc.devRef .tc main_arg6) := W7_of_ne m ρ c main_arg6 (by decide)
    _ = W5 m ρ c (Proc.devRef .tc main_arg6) := W6_of_ne m ρ c main_arg6 (by decide)
    _ = W4 m ρ c (Proc.devRef .tc main_arg6) := W5_of m ρ c main_arg6 (by decide)
    _ = W3 m ρ c (Proc.devRef .tc main_arg6) := W4_of_ne m ρ c main_arg6 (by decide)
    _ = W2 m ρ c (Proc.devRef .tc main_arg6) := W3_of m ρ c main_arg6 (by decide)
    _ = W1 m ρ c (Proc.devRef .tc main_arg6) := W2_of_ne m ρ c main_arg6 (by decide)
    _ = W0 m ρ c (Proc.devRef .tc main_arg6) := W1_of m ρ c main_arg6 (by decide)
    _ = m ((c : Thread nD τ).loc main_arg6) := rfl

/-- `main_arg7` ends as launched: no host operation writes it and no region's output window is on it. -/
theorem W8_main_arg7 (c : Dev nD) : W8 m ρ c (Proc.devRef .tc main_arg7) = m ((c : Thread nD τ).loc main_arg7) :=
  calc W8 m ρ c (Proc.devRef .tc main_arg7)
    _ = W7 m ρ c (Proc.devRef .tc main_arg7) := W8_of m ρ c main_arg7 (by decide)
    _ = W6 m ρ c (Proc.devRef .tc main_arg7) := (W7_arr m ρ c 1).trans (((dat3 (V6 m ρ) c).arrAt_in 1 rfl _).trans (A_eq3 (V6 m ρ) c 1))
    _ = W5 m ρ c (Proc.devRef .tc main_arg7) := W6_of_ne m ρ c main_arg7 (by decide)
    _ = W4 m ρ c (Proc.devRef .tc main_arg7) := W5_of m ρ c main_arg7 (by decide)
    _ = W3 m ρ c (Proc.devRef .tc main_arg7) := W4_of_ne m ρ c main_arg7 (by decide)
    _ = W2 m ρ c (Proc.devRef .tc main_arg7) := W3_of m ρ c main_arg7 (by decide)
    _ = W1 m ρ c (Proc.devRef .tc main_arg7) := W2_of_ne m ρ c main_arg7 (by decide)
    _ = W0 m ρ c (Proc.devRef .tc main_arg7) := W1_of m ρ c main_arg7 (by decide)
    _ = m ((c : Thread nD τ).loc main_arg7) := rfl

end Cert.Kernel.Fr

end
-- ==== Proof.KFrBody0.lean ====
/-
  Region 0's kernel body (one 512 × 512 tile of the stacked projection) as a triple: on whole staging buffers holding the
  two input blocks it runs to the end, faults nowhere, leaves the inputs as they were and the output buffer at the
  product tile; and from it the pipeline's body obligation at every grid point.
-/
import proofs.«162642_j16423954940491_2_alg».proof.Proof.KFrDefs

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Input window 0's current staging buffer holds its block at every point, fetched there or not: where it was not
    fetched the block index has not moved, and the body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_0 (c : Dev nD) (t : Fin cfg0.N) (d) : (dat0 V c).before 0 t d = iblk0 V c 0 t :=
  before0_0_of V (dat0 V c) (A_eq0 V c 0) (after0_0 V c) t d

/-- Input window 1's current staging buffer holds its block at every point, fetched there or not: where it was not
    fetched the block index has not moved, and the body leaves the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_1 (c : Dev nD) (t : Fin cfg0.N) (d) : (dat0 V c).before 1 t d = iblk0 V c 1 t :=
  before0_1_of V (dat0 V c) (A_eq0 V c 1) (after0_1 V c) t d

/-- The one store of the body covers the output buffer. -/
theorem cover0_2 (p0 : Vec F S512x512 .f32) (y : S512x512.Idx) :
    ∃ pc ∈ ([⟨rO, p0⟩] : List (View.Piece (Elt F) S512x512 .f32)), y ∈ pc.1.set :=
  View.cover_of_tiled [⟨rO, p0⟩] S512x512.size (by rfl) y

set_option maxHeartbeats 1000000 in
/-- The body's triple: inputs read, output stored whole. -/
theorem sound_kernel0 (c : Dev nD) (E : Set ℕ) (i : grid0.Coords)
    (arg2 : Memref sig .tc .vmem S512x2048 .f32) (harg2 : arg2.IsWhole) (arg3 : Memref sig .tc .vmem S512x2048 .f32) (harg3 : arg3.IsWhole)
    (arg4 : Memref sig .tc .vmem S512x512 .f32) (harg4 : arg4.IsWhole)
    (x0 : Vec F S512x2048 .f32) (x1 : Vec F S512x2048 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1
            ∗ owns (c : Thread nD τ) arg4 fullShare (out0_2 x0 x1)) -∗ K ⟨⟩))
      ⊢ wp frame (wpE (defs₀ (F := F)) Variants.none c none) E (cc0__mm_kernel i arg2 harg2 arg3 harg3 arg4 harg4) K := by
  simp only [cc0__mm_kernel_eq_skeleton]; unfold cc0__mm_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' buffers hold their blocks, so the triple applies; the invariant and what the
    core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Fr

end
-- ==== Proof.KFrBody1.lean ====
/-
  Region 1's kernel body (two key heads rotated) as a triple: on whole staging buffers holding the key columns and the
  cosine and sine tables it runs to the end, faults nowhere, leaves the inputs as they were and the output buffer at the
  two rotated heads; and from it the pipeline's body obligation at every grid point.
-/
import proofs.«162642_j16423954940491_2_alg».proof.Proof.KFrDefs

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Input window 0's current staging buffer holds its block at every point, fetched there or not: where it was not
    fetched the block index has not moved, and the body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_0 (c : Dev nD) (t : Fin cfg1.N) (d) : (dat1 V c).before 0 t d = iblk1 V c 0 t :=
  before1_0_of V (dat1 V c) (A_eq1 V c 0) (after1_0 V c) t d

/-- Input window 1's current staging buffer holds its block at every point, fetched there or not: where it was not
    fetched the block index has not moved, and the body leaves the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_1 (c : Dev nD) (t : Fin cfg1.N) (d) : (dat1 V c).before 1 t d = iblk1 V c 1 t :=
  before1_1_of V (dat1 V c) (A_eq1 V c 1) (after1_1 V c) t d

/-- Input window 2's current staging buffer holds its block at every point, fetched there or not: where it was not
    fetched the block index has not moved, and the body leaves the block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_2 (c : Dev nD) (t : Fin cfg1.N) (d) : (dat1 V c).before 2 t d = iblk1 V c 2 t :=
  before1_2_of V (dat1 V c) (A_eq1 V c 2) (after1_2 V c) t d

/-- The body's stores into output window 3's buffer tile it, so they cover it. -/
theorem cover1_3 (p0 : Vec F S1x2048x64 .bf16) (p1 : Vec F S1x2048x64 .bf16) (y : S2x2048x64.Idx) :
    ∃ pc ∈ ([⟨rH1, p0⟩, ⟨rH0, p1⟩] : List (View.Piece (Elt F) S2x2048x64 .bf16)), y ∈ pc.1.set :=
  View.cover_of_tiled [⟨rH1, p0⟩, ⟨rH0, p1⟩] S1x2048x64.size (by rfl) y

set_option maxHeartbeats 4000000 in
/-- The body's triple: on whole staging buffers, the inputs' holding `x0 …` and the outputs' anything, the kernel runs to
    the continuation with the inputs' as they were and each output's at its function of the inputs. -/
theorem sound_kernel1 (c : Dev nD) (E : Set ℕ) (i : grid1.Coords)
    (arg1 : Memref sig .tc .vmem S2048x128 .f32) (harg1 : arg1.IsWhole)
    (arg2 : Memref sig .tc .vmem S2048x64 .f32) (harg2 : arg2.IsWhole)
    (arg3 : Memref sig .tc .vmem S2048x64 .f32) (harg3 : arg3.IsWhole)
    (arg4 : Memref sig .tc .vmem S2x2048x64 .bf16) (harg4 : arg4.IsWhole)
    (x0 : Vec F S2048x128 .f32) (x1 : Vec F S2048x64 .f32) (x2 : Vec F S2048x64 .f32) (K : PUnit → sProp 𝕄) :
    iprop(owns (c : Thread nD τ) arg1 fullShare x0
        ∗ owns (c : Thread nD τ) arg2 fullShare x1
        ∗ owns (c : Thread nD τ) arg3 fullShare x2
        ∗ (∃ d, owns (c : Thread nD τ) arg4 fullShare d)
        ∗ (iprop(owns (c : Thread nD τ) arg1 fullShare x0
            ∗ owns (c : Thread nD τ) arg2 fullShare x1
            ∗ owns (c : Thread nD τ) arg3 fullShare x2
            ∗ owns (c : Thread nD τ) arg4 fullShare (out1_3 x0 x1 x2)) -∗ K ⟨⟩))
      ⊢ wp frame (wpE (defs₀ (F := F)) Variants.none c none) E (cc1__rope_kv_pair_kernel i arg1 harg1 arg2 harg2 arg3 harg3 arg4 harg4) K := by
  simp only [cc1__rope_kv_pair_kernel_eq_skeleton]; unfold cc1__rope_kv_pair_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _ _)

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' buffers hold their blocks, so the triple applies; the invariant and what the
    core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Fr

end
-- ==== Proof.KFrBody2.lean ====
/-
  Region 2's kernel body (the attention cell of one query tile and one pair of heads) as a triple: on whole staging
  buffers holding the query columns, the cosine and sine rows, the rotated keys, the values and the mask rows it runs to
  the end, faults nowhere, leaves the inputs as they were, the weights buffer at the two heads' probabilities and the
  context buffer at the two heads' contexts; and from it the pipeline's body obligation at every grid point.
-/
import proofs.«162642_j16423954940491_2_alg».proof.Proof.KFrDefs

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Input window 0's current staging buffer holds its block at every point, fetched there or not: where it was not
    fetched the block index has not moved, and the body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_0 (c : Dev nD) (t : Fin cfg2.N) (d) : (dat2 V c).before 0 t d = iblk2 V c 0 t :=
  before2_0_of V (dat2 V c) (A_eq2 V c 0) (after2_0 V c) t d

/-- Input window 1's current staging buffer holds its block at every point, fetched there or not: where it was not
    fetched the block index has not moved, and the body leaves the block in place. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_1 (c : Dev nD) (t : Fin cfg2.N) (d) : (dat2 V c).before 1 t d = iblk2 V c 1 t :=
  before2_1_of V (dat2 V c) (A_eq2 V c 1) (after2_1 V c) t d

/-- Input window 2's current staging buffer holds its block at every point, fetched there or not: where it was not
    fetched the block index has not moved, and the body leaves the block in place. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_2 (c : Dev nD) (t : Fin cfg2.N) (d) : (dat2 V c).before 2 t d = iblk2 V c 2 t :=
  before2_2_of V (dat2 V c) (A_eq2 V c 2) (after2_2 V c) t d

/-- Input window 3's current staging buffer holds its block at every point, fetched there or not: where it was not
    fetched the block index has not moved, and the body leaves the block in place. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
theorem before2_3 (c : Dev nD) (t : Fin cfg2.N) (d) : (dat2 V c).before 3 t d = iblk2 V c 3 t :=
  before2_3_of V (dat2 V c) (A_eq2 V c 3) (after2_3 V c) t d

/-- Input window 4's current staging buffer holds its block at every point, fetched there or not: where it was not
    fetched the block index has not moved, and the body leaves the block in place. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)
theorem before2_4 (c : Dev nD) (t : Fin cfg2.N) (d) : (dat2 V c).before 4 t d = iblk2 V c 4 t :=
  before2_4_of V (dat2 V c) (A_eq2 V c 4) (after2_4 V c) t d

/-- Input window 5's current staging buffer holds its block at every point, fetched there or not: where it was not
    fetched the block index has not moved, and the body leaves the block in place. -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)
theorem before2_5 (c : Dev nD) (t : Fin cfg2.N) (d) : (dat2 V c).before 5 t d = iblk2 V c 5 t :=
  before2_5_of V (dat2 V c) (A_eq2 V c 5) (after2_5 V c) t d

/-- The body's stores into output window 6's buffer tile it, so they cover it. -/
theorem cover2_6 (p0 : Vec F S1x256x2048 .f32) (p1 : Vec F S1x256x2048 .f32) (y : S2x256x2048.Idx) :
    ∃ pc ∈ ([⟨rW1, p0⟩, ⟨rW0, p1⟩] : List (View.Piece (Elt F) S2x256x2048 .f32)), y ∈ pc.1.set :=
  View.cover_of_tiled [⟨rW1, p0⟩, ⟨rW0, p1⟩] S1x256x2048.size (by rfl) y

/-- The body's stores into output window 7's buffer tile it, so they cover it. -/
theorem cover2_7 (p0 : Vec F S256x128 .bf16) (y : S256x128.Idx) :
    ∃ pc ∈ ([⟨rQ, p0⟩] : List (View.Piece (Elt F) S256x128 .bf16)), y ∈ pc.1.set :=
  View.cover_of_tiled [⟨rQ, p0⟩] S256x128.size (by rfl) y

set_option maxHeartbeats 4000000 in
/-- The body's triple: on whole staging buffers, the inputs' holding `x0 …` and the outputs' anything, the kernel runs to
    the continuation with the inputs' as they were and each output's at its function of the inputs. -/
theorem sound_kernel2 (c : Dev nD) (E : Set ℕ) (i : grid2.Coords)
    (arg2 : Memref sig .tc .vmem S256x128 .f32) (harg2 : arg2.IsWhole)
    (arg3 : Memref sig .tc .vmem S256x64 .f32) (harg3 : arg3.IsWhole)
    (arg4 : Memref sig .tc .vmem S256x64 .f32) (harg4 : arg4.IsWhole)
    (arg5 : Memref sig .tc .vmem S1x2048x64 .bf16) (harg5 : arg5.IsWhole)
    (arg6 : Memref sig .tc .vmem S1x2048x64 .bf16) (harg6 : arg6.IsWhole)
    (arg7 : Memref sig .tc .vmem S256x2048 .f32) (harg7 : arg7.IsWhole)
    (arg8 : Memref sig .tc .vmem S2x256x2048 .f32) (harg8 : arg8.IsWhole)
    (arg9 : Memref sig .tc .vmem S256x128 .bf16) (harg9 : arg9.IsWhole)
    (x0 : Vec F S256x128 .f32) (x1 : Vec F S256x64 .f32) (x2 : Vec F S256x64 .f32) (x3 : Vec F S1x2048x64 .bf16) (x4 : Vec F S1x2048x64 .bf16) (x5 : Vec F S256x2048 .f32) (K : PUnit → sProp 𝕄) :
    iprop(owns (c : Thread nD τ) arg2 fullShare x0
        ∗ owns (c : Thread nD τ) arg3 fullShare x1
        ∗ owns (c : Thread nD τ) arg4 fullShare x2
        ∗ owns (c : Thread nD τ) arg5 fullShare x3
        ∗ owns (c : Thread nD τ) arg6 fullShare x4
        ∗ owns (c : Thread nD τ) arg7 fullShare x5
        ∗ (∃ d, owns (c : Thread nD τ) arg8 fullShare d)
        ∗ (∃ d, owns (c : Thread nD τ) arg9 fullShare d)
        ∗ (iprop(owns (c : Thread nD τ) arg2 fullShare x0
            ∗ owns (c : Thread nD τ) arg3 fullShare x1
            ∗ owns (c : Thread nD τ) arg4 fullShare x2
            ∗ owns (c : Thread nD τ) arg5 fullShare x3
            ∗ owns (c : Thread nD τ) arg6 fullShare x4
            ∗ owns (c : Thread nD τ) arg7 fullShare x5
            ∗ owns (c : Thread nD τ) arg8 fullShare (out2_6 x0 x1 x2 x3 x5)
            ∗ owns (c : Thread nD τ) arg9 fullShare (out2_7 x0 x1 x2 x3 x4 x5)) -∗ K ⟨⟩))
      ⊢ wp frame (wpE (defs₀ (F := F)) Variants.none c none) E (cc2_attn_kernel i arg2 harg2 arg3 harg3 arg4 harg4 arg5 harg5 arg6 harg6 arg7 harg7 arg8 harg8 arg9 harg9) K := by
  simp only [cc2_attn_kernel_eq_skeleton]; unfold cc2_attn_kernel_skel
  simp only [k2_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (cover2_6 _ _)
  iexists _; isplitr
  swap; · iexact H7
  ipureintro
  exact View.read_writes_eq_canon _ _ _ (cover2_7 _)

/-- What the body is called with at point `t`, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t))

/-- The body at any point: the inputs' buffers hold their blocks, so the triple applies; the invariant and what the
    core owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel2 c Set.univ _ _ _ _ _ _ _ _ _ _ _ _ _ _ _ _ _ (iblk2 V c 0 t) (iblk2 V c 1 t) (iblk2 V c 2 t) (iblk2 V c 3 t) (iblk2 V c 4 t) (iblk2 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The pipeline's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Fr

end
-- ==== Proof.KFrBody3.lean ====
/-
  Region 3's kernel body (one 512 × 512 tile of the output projection) as a triple: on whole staging buffers holding the
  context block and the weight block it runs to the end, faults nowhere, leaves the inputs as they were and the output
  buffer at the product tile; and from it the pipeline's body obligation at every grid point.
-/
import proofs.«162642_j16423954940491_2_alg».proof.Proof.KFrDefs

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Input window 0's current staging buffer holds its block at every point, fetched there or not: where it was not
    fetched the block index has not moved, and the body leaves the block in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_0 (c : Dev nD) (t : Fin cfg3.N) (d) : (dat3 V c).before 0 t d = iblk3 V c 0 t :=
  before3_0_of V (dat3 V c) (A_eq3 V c 0) (after3_0 V c) t d

/-- Input window 1's current staging buffer holds its block at every point, fetched there or not: where it was not
    fetched the block index has not moved, and the body leaves the block in place. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
theorem before3_1 (c : Dev nD) (t : Fin cfg3.N) (d) : (dat3 V c).before 1 t d = iblk3 V c 1 t :=
  before3_1_of V (dat3 V c) (A_eq3 V c 1) (after3_1 V c) t d

/-- The body's stores into output window 2's buffer tile it, so they cover it. -/
theorem cover3_2 (p0 : Vec F S512x512 .f32) (y : S512x512.Idx) :
    ∃ pc ∈ ([⟨rO, p0⟩] : List (View.Piece (Elt F) S512x512 .f32)), y ∈ pc.1.set :=
  View.cover_of_tiled [⟨rO, p0⟩] S512x512.size (by rfl) y

set_option maxHeartbeats 4000000 in
/-- The body's triple: on whole staging buffers, the inputs' holding `x0 …` and the outputs' anything, the kernel runs to
    the continuation with the inputs' as they were and each output's at its function of the inputs. -/
theorem sound_kernel3 (c : Dev nD) (E : Set ℕ) (i : grid3.Coords)
    (arg2 : Memref sig .tc .vmem S512x2048 .bf16) (harg2 : arg2.IsWhole)
    (arg3 : Memref sig .tc .vmem S512x2048 .f32) (harg3 : arg3.IsWhole)
    (arg4 : Memref sig .tc .vmem S512x512 .f32) (harg4 : arg4.IsWhole)
    (x0 : Vec F S512x2048 .bf16) (x1 : Vec F S512x2048 .f32) (K : PUnit → sProp 𝕄) :
    iprop(owns (c : Thread nD τ) arg2 fullShare x0
        ∗ owns (c : Thread nD τ) arg3 fullShare x1
        ∗ (∃ d, owns (c : Thread nD τ) arg4 fullShare d)
        ∗ (iprop(owns (c : Thread nD τ) arg2 fullShare x0
            ∗ owns (c : Thread nD τ) arg3 fullShare x1
            ∗ owns (c : Thread nD τ) arg4 fullShare (out3_2 x0 x1)) -∗ K ⟨⟩))
      ⊢ wp frame (wpE (defs₀ (F := F)) Variants.none c none) E (cc3__mm_kernel i arg2 harg2 arg3 harg3 arg4 harg4) K := by
  simp only [cc3__mm_kernel_eq_skeleton]; unfold cc3__mm_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover3_2 _)

/-- What the body is called with at point `t`, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t))

/-- The body at any point: the inputs' buffers hold their blocks, so the triple applies; the invariant and what the
    core owes pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).Φ t.succ = (dat3 V c).Φ t.castSucc from rfl,
    show (dat3 V c).owesAt () t.succ = (dat3 V c).owesAt () t.castSucc from rfl,
    after3_0, after3_1, after3_2]
  iintro ⟨HΦ, Ho, ⟨%d0, H0⟩, ⟨%d1, H1⟩, ⟨%d2, H2⟩⟩
  iapply (sound_kernel3 c Set.univ _ _ _ _ _ _ _ (iblk3 V c 0 t) (iblk3 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation, at every point. -/
theorem body_obligation3 (c : Dev nD) : BodyObligation (dat3 (F := F) V c) (defs₀ (F := F)) Variants.none () Set.univ := fun t => by
  rw [bigSep_W3, bigSep_W3]
  exact sound_body3 V c t

end Cert.Kernel.Fr

end
-- ==== Proof.KFrRun.lean ====
/-
  The attention program's run, from the launch to the return, as eight segments: four stretches of host operations
  and the four launched kernels. The buffer contents at every segment boundary are a fold from the launch memory: a
  host stretch applies its operations; a region leaves each of its output arrays at what its grid points wrote back and
  every other buffer as it found it. Every weakly fair execution terminates, faults nowhere, and ends with EVERY unscoped
  buffer at the last boundary's contents: the arguments as launched (the frame), the two results at the fold's terms.
-/
import proofs.«162642_j16423954940491_2_alg».proof.Proof.KFrFold
import proofs.«162642_j16423954940491_2_alg».proof.Proof.KFrBody0
import proofs.«162642_j16423954940491_2_alg».proof.Proof.KFrBody1
import proofs.«162642_j16423954940491_2_alg».proof.Proof.KFrBody2
import proofs.«162642_j16423954940491_2_alg».proof.Proof.KFrBody3

import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data family and the thread state -/

/-- No pipeline has a prefetched table. -/
abbrev adm : (p : Fin 4) → (pcfgs (F := F) p).Adm := fun p => (cfgs p).toPCfg_adm
/-- Every pipeline's proof data, each at its region's entry contents. -/
def pdats : (p : Fin 4) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
  | ⟨3, _⟩ => fun c => dat3 (V6 m ρ) c
abbrev 𝒱₀ : Variants := Variants.none
/-- No core owes another anything. -/
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- A host stretch as a segment over the unscoped references from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state, without what is owed: every unscoped buffer at `W8`, the generator register at some state. -/
abbrev Tₙ (c : Dev nD) : sProp 𝕄 := iprop(StableHlo.held (c : Thread nD τ) (Pipeline.ucRefs τ sig) (W8 m ρ c) ∗ ∃ r, prngReg c r)

/-! ## The regions as segments -/

set_option backward.isDefEq.respectTransparency.types false in
/-- Region 0 over the thread state: entered from every unscoped buffer at `W1`, left at `W2`. Its arrays are split out
    of the unscoped buffers and put back at the exit contents; the generator register goes into the pipeline's invariant
    and comes out; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W3`, left at `W4`. Its arrays are split out
    of the unscoped buffers and put back at the exit contents; the generator register goes into the pipeline's invariant
    and comes out; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at `W5`, left at `W6`. Its arrays are split out
    of the unscoped buffers and put back at the exit contents; the generator register goes into the pipeline's invariant
    and comes out; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered from every unscoped buffer at `W6`, left at `W7`. Its arrays are split out
    of the unscoped buffers and put back at the exit contents; the generator register goes into the pipeline's invariant
    and comes out; nothing is owed; the kernel has no semaphore of its own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V6 m ρ) c).loose
  hwaits := Pipeline.hwaits_of_owed_zero _ _ _ _ L lv 3 fun _ _ => rfl
  pre c := iprop(StableHlo.held (c : Thread nD τ) (Pipeline.ucRefs τ sig) (W6 m ρ c) ∗ R c)
  post c := iprop(StableHlo.held (c : Thread nD τ) (Pipeline.ucRefs τ sig) (W7 m ρ c) ∗ R c)
  X c := iprop(∃ r, prngReg c r)
  Y c := iprop(∃ r, prngReg c r)
  Z c := Pipeline.unscopedRest (Ix := Unit) (Name := ℕ) (U := UR sig nD τ) (Lvl := ℕ) spec3 c (V6 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V6 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V6 m ρ c) (V7 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The run -/

/-- The program's eight segments in order. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .region (reg3 m ρ),
    .host (hseg hostOps4 hostOps4_sub hostOps4_fresh (W7 m ρ)) ]
/-- The program IS the run of its segments. -/
theorem main_run (c : Dev nD) : main (F := F) c = Pipeline.Seg.run (segs m ρ) := (main_chain c).trans (by chain_rfl)

set_option backward.isDefEq.respectTransparency.types false in
/-- From any memory with zero counters every weakly fair execution of the program terminates, nothing faulting, and
    every final memory holds every unscoped buffer at the last boundary's contents `W8`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W8 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl,
      fun c => by
        show iprop(StableHlo.held (c : Thread nD τ) (Pipeline.ucRefs τ sig) (W8 m ρ c) ∗ R c)
          ⊢ iprop(Tₙ m ρ c ∗ ∃ W, owes (c : Thread nD τ) (0 : CellTallies nD τ sig Unit) W)
        iintro ⟨Hh, Hp, Ho⟩
        isplitl [Hh Hp]
        · isplitl [Hh]; · iexact Hh
          iexact Hp
        iexact Ho⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c => h c)

/-- THE FRAME: the program runs to the end, faults nowhere, and its eight argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c =>
    ⟨(h c _ (mem_uc main_arg0 (by decide))).trans (W8_main_arg0 m ρ c),
     (h c _ (mem_uc main_arg1 (by decide))).trans (W8_main_arg1 m ρ c),
     (h c _ (mem_uc main_arg2 (by decide))).trans (W8_main_arg2 m ρ c),
     (h c _ (mem_uc main_arg3 (by decide))).trans (W8_main_arg3 m ρ c),
     (h c _ (mem_uc main_arg4 (by decide))).trans (W8_main_arg4 m ρ c),
     (h c _ (mem_uc main_arg5 (by decide))).trans (W8_main_arg5 m ρ c),
     (h c _ (mem_uc main_arg6 (by decide))).trans (W8_main_arg6 m ρ c),
     (h c _ (mem_uc main_arg7 (by decide))).trans (W8_main_arg7 m ρ c)⟩) (run_all m ρ)

end Cert.Kernel.Fr

end
-- ==== Proof.FrDefs.lean ====
/-
  The four launched kernels of the attention program, each at the buffer contents `V` its region is entered with:
  the block every window shows at a grid point, what the kernel body leaves in each output window's staging
  buffer as a function of the input blocks, and the pipeline's proof data built from these.

  Region 0 multiplies a 512-row block of the hidden states by a 512-row block of the stacked projection weights;
  region 1 rotates two key heads (128 columns of the key projection) with the cosine and sine tables; region 2 is
  the attention cell of one 256-row query tile and one pair of query heads (rotated queries against the rotated keys,
  scaled, masked, softmax, then against the values); region 3 multiplies a 512-row block of the context by a 512-row
  block of the output weights.
-/
import proofs.«162642_j16423954940491_2_alg».proof.Proof.Gen.KernelIdeal.Launch
import proofs.«162642_j16423954940491_2_alg».proof.Proof.Gen.KernelIdeal.Skeleton
import proofs.«162642_j16423954940491_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

variable (V : (c : Dev nD) → (b : Ref sig .tc) → Buf (Elt F) ((c : Thread nD τ).loc b))

/-! ## Region 0: a block of the stacked projection -/

/-- Window `w`'s block at point `t` of region 0, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- A whole 512 × 2048 staging buffer, and a whole 512 × 512 one. -/
abbrev rA : Rect S512x2048 := Rect.unit (s := S512x2048) ![0, 0] S512x2048.size inb_S512x2048_S512x2048_0_0
abbrev rO : Rect S512x512 := Rect.unit (s := S512x512) ![0, 0] S512x512.size inb_S512x512_S512x512_0_0

/-- The output tile after the body: one store of the product of the two input blocks. -/
def out0_2 (x0 : Vec F S512x2048 .f32) (x1 : Vec F S512x2048 .f32) : Vec F S512x512 .f32 :=
  View.canon [⟨rO, k0_pay1 (View.ld x0 rA) (View.ld x1 rA)⟩]

/-- The proof data of region 0 on core `c`: inputs stay at their blocks, the output tile is `out0_2` of them. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-! ## Region 1: two key heads rotated -/

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev rK : Rect S2048x128 := Rect.unit (s := S2048x128) ![0, 0] S2048x128.size inb_S2048x128_S2048x128_0_0
abbrev rT : Rect S2048x64 := Rect.unit (s := S2048x64) ![0, 0] S2048x64.size inb_S2048x64_S2048x64_0_0
/-- The two heads' slabs of the 2 × 2048 × 64 output buffer. -/
abbrev rH0 : Rect S2x2048x64 := Rect.unit (s := S2x2048x64) ![0, 0, 0] S1x2048x64.size inb_S2x2048x64_S1x2048x64_0_0_0
abbrev rH1 : Rect S2x2048x64 := Rect.unit (s := S2x2048x64) ![1, 0, 0] S1x2048x64.size inb_S2x2048x64_S1x2048x64_1_0_0

/-- The output buffer after the body: the second head's slab stored last, the first head's first. -/
def out1_3 (x0 : Vec F S2048x128 .f32) (x1 : Vec F S2048x64 .f32) (x2 : Vec F S2048x64 .f32) : Vec F S2x2048x64 .bf16 :=
  View.canon [⟨rH1, k1_pay5 (View.ld x0 rK) (View.ld x1 rT) (View.ld x2 rT)⟩,
    ⟨rH0, k1_pay4 (View.ld x0 rK) (View.ld x1 rT) (View.ld x2 rT)⟩]

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

/-! ## Region 2: the attention cell -/

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev rQ : Rect S256x128 := Rect.unit (s := S256x128) ![0, 0] S256x128.size inb_S256x128_S256x128_0_0
abbrev rC : Rect S256x64 := Rect.unit (s := S256x64) ![0, 0] S256x64.size inb_S256x64_S256x64_0_0
abbrev rKV : Rect S1x2048x64 := Rect.unit (s := S1x2048x64) ![0, 0, 0] S1x2048x64.size inb_S1x2048x64_S1x2048x64_0_0_0
abbrev rM : Rect S256x2048 := Rect.unit (s := S256x2048) ![0, 0] S256x2048.size inb_S256x2048_S256x2048_0_0
/-- The two heads' slabs of the 2 × 256 × 2048 weights buffer. -/
abbrev rW0 : Rect S2x256x2048 := Rect.unit (s := S2x256x2048) ![0, 0, 0] S1x256x2048.size inb_S2x256x2048_S1x256x2048_0_0_0
abbrev rW1 : Rect S2x256x2048 := Rect.unit (s := S2x256x2048) ![1, 0, 0] S1x256x2048.size inb_S2x256x2048_S1x256x2048_1_0_0

section
variable (x0 : Vec F S256x128 .f32) (x1 : Vec F S256x64 .f32) (x2 : Vec F S256x64 .f32)
  (x3 : Vec F S1x2048x64 .bf16) (x4 : Vec F S1x2048x64 .bf16) (x5 : Vec F S256x2048 .f32)

/-- The first head's masked scores, their row maxima, and the second head's rotated queries: what the first part of
    the body hands to the second, from the six input blocks. -/
abbrev p2_keys : FVec F S2048x64 .bf16 := k2_pay9 (View.ld x3 rKV)
abbrev p2_vals : FVec F S2048x64 .bf16 := k2_pay10 (View.ld x4 rKV)
abbrev p2_mask : FVec F S256x2048 .f32 := k2_pay11 (View.ld x5 rM)
abbrev p2_q1 : FVec F S256x64 .bf16 := k2_pay12 (View.ld x0 rQ) (View.ld x1 rC) (View.ld x2 rC)
abbrev p2_sc0 : FVec F S256x2048 .f32 := k2_pay13 (View.ld x0 rQ) (View.ld x1 rC) (View.ld x2 rC) (View.ld x3 rKV) (View.ld x5 rM)
abbrev p2_mx0 : FVec F S256 .f32 := k2_pay14 (View.ld x0 rQ) (View.ld x1 rC) (View.ld x2 rC) (View.ld x3 rKV) (View.ld x5 rM)

/-- The weights buffer after the body: the second head's probabilities stored last, the first head's first. -/
def out2_6 : Vec F S2x256x2048 .f32 :=
  View.canon [⟨rW1, k2_pay4 (p2_keys x3) (p2_mask x5) (p2_q1 x0 x1 x2)⟩,
    ⟨rW0, k2_pay3 (p2_sc0 x0 x1 x2 x3 x5) (p2_mx0 x0 x1 x2 x3 x5) (k2_pay15 (F := F))⟩]

/-- The context buffer after the body: the two heads' contexts side by side, one store. -/
def out2_7 : Vec F S256x128 .bf16 :=
  View.canon [⟨rQ, k2_pay5 (p2_keys x3) (p2_vals x4) (p2_mask x5) (p2_q1 x0 x1 x2) (p2_sc0 x0 x1 x2 x3 x5)
    (p2_mx0 x0 x1 x2 x3 x5) (k2_pay15 (F := F))⟩]
end

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => out2_6 (iblk2 V c 0 t) (iblk2 V c 1 t) (iblk2 V c 2 t) (iblk2 V c 3 t) (iblk2 V c 5 t)
    | ⟨7, _⟩ => out2_7 (iblk2 V c 0 t) (iblk2 V c 1 t) (iblk2 V c 2 t) (iblk2 V c 3 t) (iblk2 V c 4 t) (iblk2 V c 5 t)
  Φ _ := Pipeline.ΦA spec2 c
  q _ := fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t =
    out2_6 (iblk2 V c 0 t) (iblk2 V c 1 t) (iblk2 V c 2 t) (iblk2 V c 3 t) (iblk2 V c 5 t) := by dsimp only [dat2]
theorem after2_7 (c : Dev nD) (t : Fin cfg2.N) : (dat2 V c).after 7 t =
    out2_7 (iblk2 V c 0 t) (iblk2 V c 1 t) (iblk2 V c 2 t) (iblk2 V c 3 t) (iblk2 V c 4 t) (iblk2 V c 5 t) := by dsimp only [dat2]

/-! ## Region 3: a block of the output projection -/

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The output tile after the body: one store of the product of the context block and the weight block. -/
def out3_2 (x0 : Vec F S512x2048 .bf16) (x1 : Vec F S512x2048 .f32) : Vec F S512x512 .f32 :=
  View.canon [⟨rO, k3_pay1 (View.ld x0 rA) (View.ld x1 rA)⟩]

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3_2 (iblk3 V c 0 t) (iblk3 V c 1 t)
  Φ _ := Pipeline.ΦA spec3 c
  q _ := fullShare
  owed _ := 0

theorem A_eq3 (c : Dev nD) (w : Fin cfg3.W) : (dat3 V c).A w = V c (Pipeline.arrRef spec3 w) := by
  dsimp only [dat3]
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = out3_2 (iblk3 V c 0 t) (iblk3 V c 1 t) := by dsimp only [dat3]

end Cert.KernelIdeal.Fr

end
-- ==== Proof.FrFold.lean ====
/-
  The buffer contents at every segment boundary of the attention program's run, as a fold from the launch memory: a
  stretch of host operations applies them; a launched region leaves each of its output arrays at what its grid points
  wrote back and every other buffer as it found it. Read back through the fold, every argument array ends as launched.
-/
import proofs.«162642_j16423954940491_2_alg».proof.Proof.FrDefs
import proofs.«162642_j16423954940491_2_alg».proof.Proof.Gen.KernelIdeal.Regions

import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- Core `c`'s buffers at launch. -/
abbrev W0 : Dev nD → Valuation τ sig (Elt F) := fun c b => (s₀ m ρ).mem ((c : Dev nD), b)

/-- After the host stretch `hostOps0`. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h

/-- At region 0's exit: its arrays at what the pipeline leaves (inputs as entered, each output's write-backs folded),
    every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references. -/
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the host stretch `hostOps1`. -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h

/-- At region 1's exit: its arrays at what the pipeline leaves (inputs as entered, each output's write-backs folded),
    every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- The same read at the TensorCore's references. -/
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After the host stretch `hostOps2`. -/
abbrev W5 : Dev nD → Valuation τ sig (Elt F) := fun c => StableHlo.after hostOps2 (W4 m ρ c)
abbrev V5 : (c : Dev nD) → (b : Ref sig .tc) → Buf (Elt F) ((c : Thread nD τ).loc b) := fun c b => W5 m ρ c b
theorem W5_of (c : Dev nD) (r : Ref sig .tc) (h : r ∉ hostOps2_W) : W5 m ρ c (Proc.devRef .tc r) = W4 m ρ c (Proc.devRef .tc r) :=
  StableHlo.after_of_writes_sub hostOps2 _ hostOps2_writes h

/-- At region 2's exit: its arrays at what the pipeline leaves (inputs as entered, each output's write-backs folded),
    every other buffer as entered. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
/-- The same read at the TensorCore's references. -/
abbrev V6 : (c : Dev nD) → (b : Ref sig .tc) → Buf (Elt F) ((c : Thread nD τ).loc b) := fun c b => W6 m ρ c b
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

/-- At region 3's exit: its arrays at what the pipeline leaves (inputs as entered, each output's write-backs folded),
    every other buffer as entered. -/
def W7 (c : Dev nD) : Valuation τ sig (Elt F) :=
  Pipeline.withArrays spec3 c (W6 m ρ c) fun w => (dat3 (V6 m ρ) c).arrAt w cfg3.N
theorem W7_arr (c : Dev nD) (w : Fin cfg3.W) :
    W7 m ρ c (Proc.devRef .tc (Pipeline.arrRef spec3 w)) = (dat3 (V6 m ρ) c).arrAt w cfg3.N := by
  unfold W7; exact Pipeline.withArrays_arr spec3 launch3.win.arr_inj c _ _ w
theorem W7_of_ne (c : Dev nD) (b : Ref sig .tc) (hb : ∀ w, Pipeline.arrRef spec3 w ≠ b) :
    W7 m ρ c (Proc.devRef .tc b) = W6 m ρ c (Proc.devRef .tc b) := by
  unfold W7; exact Pipeline.withArrays_of_ne spec3 c _ _ b hb
/-- The same read at the TensorCore's references. -/
abbrev V7 : (c : Dev nD) → (b : Ref sig .tc) → Buf (Elt F) ((c : Thread nD τ).loc b) := fun c b => W7 m ρ c b
theorem hF3 (c : Dev nD) (w : Fin cfg3.W) : (dat3 (V6 m ρ) c).arrAt w cfg3.N = V7 m ρ c (Pipeline.arrRef spec3 w) :=
  (W7_arr m ρ c w).symm
theorem hrest3 (c : Dev nD) : ∀ b, b ∉ Finset.univ.image (Pipeline.arrRef spec3) → V7 m ρ c b = V6 m ρ c b :=
  fun b hb => W7_of_ne m ρ c b fun w e => hb (Finset.mem_image.mpr ⟨w, Finset.mem_univ _, e⟩)

/-- After the host stretch `hostOps4`. -/
abbrev W8 : Dev nD → Valuation τ sig (Elt F) := fun c => StableHlo.after hostOps4 (W7 m ρ c)
abbrev V8 : (c : Dev nD) → (b : Ref sig .tc) → Buf (Elt F) ((c : Thread nD τ).loc b) := fun c b => W8 m ρ c b
theorem W8_of (c : Dev nD) (r : Ref sig .tc) (h : r ∉ hostOps4_W) : W8 m ρ c (Proc.devRef .tc r) = W7 m ρ c (Proc.devRef .tc r) :=
  StableHlo.after_of_writes_sub hostOps4 _ hostOps4_writes h

/-! ## The arguments end as launched -/

/-- `main_arg0` ends as launched: no host operation writes it and no region's output window is on it. -/
theorem W8_main_arg0 (c : Dev nD) : W8 m ρ c (Proc.devRef .tc main_arg0) = m ((c : Thread nD τ).loc main_arg0) :=
  calc W8 m ρ c (Proc.devRef .tc main_arg0)
    _ = W7 m ρ c (Proc.devRef .tc main_arg0) := W8_of m ρ c main_arg0 (by decide)
    _ = W6 m ρ c (Proc.devRef .tc main_arg0) := W7_of_ne m ρ c main_arg0 (by decide)
    _ = W5 m ρ c (Proc.devRef .tc main_arg0) := W6_of_ne m ρ c main_arg0 (by decide)
    _ = W4 m ρ c (Proc.devRef .tc main_arg0) := W5_of m ρ c main_arg0 (by decide)
    _ = W3 m ρ c (Proc.devRef .tc main_arg0) := W4_of_ne m ρ c main_arg0 (by decide)
    _ = W2 m ρ c (Proc.devRef .tc main_arg0) := W3_of m ρ c main_arg0 (by decide)
    _ = W1 m ρ c (Proc.devRef .tc main_arg0) := W2_of_ne m ρ c main_arg0 (by decide)
    _ = W0 m ρ c (Proc.devRef .tc main_arg0) := W1_of m ρ c main_arg0 (by decide)
    _ = m ((c : Thread nD τ).loc main_arg0) := rfl

/-- `main_arg1` ends as launched: no host operation writes it and no region's output window is on it. -/
theorem W8_main_arg1 (c : Dev nD) : W8 m ρ c (Proc.devRef .tc main_arg1) = m ((c : Thread nD τ).loc main_arg1) :=
  calc W8 m ρ c (Proc.devRef .tc main_arg1)
    _ = W7 m ρ c (Proc.devRef .tc main_arg1) := W8_of m ρ c main_arg1 (by decide)
    _ = W6 m ρ c (Proc.devRef .tc main_arg1) := W7_of_ne m ρ c main_arg1 (by decide)
    _ = W5 m ρ c (Proc.devRef .tc main_arg1) := W6_of_ne m ρ c main_arg1 (by decide)
    _ = W4 m ρ c (Proc.devRef .tc main_arg1) := W5_of m ρ c main_arg1 (by decide)
    _ = W3 m ρ c (Proc.devRef .tc main_arg1) := W4_of_ne m ρ c main_arg1 (by decide)
    _ = W2 m ρ c (Proc.devRef .tc main_arg1) := W3_of m ρ c main_arg1 (by decide)
    _ = W1 m ρ c (Proc.devRef .tc main_arg1) := W2_of_ne m ρ c main_arg1 (by decide)
    _ = W0 m ρ c (Proc.devRef .tc main_arg1) := W1_of m ρ c main_arg1 (by decide)
    _ = m ((c : Thread nD τ).loc main_arg1) := rfl

/-- `main_arg2` ends as launched: no host operation writes it and no region's output window is on it. -/
theorem W8_main_arg2 (c : Dev nD) : W8 m ρ c (Proc.devRef .tc main_arg2) = m ((c : Thread nD τ).loc main_arg2) :=
  calc W8 m ρ c (Proc.devRef .tc main_arg2)
    _ = W7 m ρ c (Proc.devRef .tc main_arg2) := W8_of m ρ c main_arg2 (by decide)
    _ = W6 m ρ c (Proc.devRef .tc main_arg2) := W7_of_ne m ρ c main_arg2 (by decide)
    _ = W5 m ρ c (Proc.devRef .tc main_arg2) := W6_of_ne m ρ c main_arg2 (by decide)
    _ = W4 m ρ c (Proc.devRef .tc main_arg2) := W5_of m ρ c main_arg2 (by decide)
    _ = W3 m ρ c (Proc.devRef .tc main_arg2) := W4_of_ne m ρ c main_arg2 (by decide)
    _ = W2 m ρ c (Proc.devRef .tc main_arg2) := W3_of m ρ c main_arg2 (by decide)
    _ = W1 m ρ c (Proc.devRef .tc main_arg2) := W2_of_ne m ρ c main_arg2 (by decide)
    _ = W0 m ρ c (Proc.devRef .tc main_arg2) := W1_of m ρ c main_arg2 (by decide)
    _ = m ((c : Thread nD τ).loc main_arg2) := rfl

/-- `main_arg3` ends as launched: no host operation writes it and no region's output window is on it. -/
theorem W8_main_arg3 (c : Dev nD) : W8 m ρ c (Proc.devRef .tc main_arg3) = m ((c : Thread nD τ).loc main_arg3) :=
  calc W8 m ρ c (Proc.devRef .tc main_arg3)
    _ = W7 m ρ c (Proc.devRef .tc main_arg3) := W8_of m ρ c main_arg3 (by decide)
    _ = W6 m ρ c (Proc.devRef .tc main_arg3) := W7_of_ne m ρ c main_arg3 (by decide)
    _ = W5 m ρ c (Proc.devRef .tc main_arg3) := W6_of_ne m ρ c main_arg3 (by decide)
    _ = W4 m ρ c (Proc.devRef .tc main_arg3) := W5_of m ρ c main_arg3 (by decide)
    _ = W3 m ρ c (Proc.devRef .tc main_arg3) := W4_of_ne m ρ c main_arg3 (by decide)
    _ = W2 m ρ c (Proc.devRef .tc main_arg3) := W3_of m ρ c main_arg3 (by decide)
    _ = W1 m ρ c (Proc.devRef .tc main_arg3) := W2_of_ne m ρ c main_arg3 (by decide)
    _ = W0 m ρ c (Proc.devRef .tc main_arg3) := W1_of m ρ c main_arg3 (by decide)
    _ = m ((c : Thread nD τ).loc main_arg3) := rfl

/-- `main_arg4` ends as launched: no host operation writes it and no region's output window is on it. -/
theorem W8_main_arg4 (c : Dev nD) : W8 m ρ c (Proc.devRef .tc main_arg4) = m ((c : Thread nD τ).loc main_arg4) :=
  calc W8 m ρ c (Proc.devRef .tc main_arg4)
    _ = W7 m ρ c (Proc.devRef .tc main_arg4) := W8_of m ρ c main_arg4 (by decide)
    _ = W6 m ρ c (Proc.devRef .tc main_arg4) := W7_of_ne m ρ c main_arg4 (by decide)
    _ = W5 m ρ c (Proc.devRef .tc main_arg4) := W6_of_ne m ρ c main_arg4 (by decide)
    _ = W4 m ρ c (Proc.devRef .tc main_arg4) := W5_of m ρ c main_arg4 (by decide)
    _ = W3 m ρ c (Proc.devRef .tc main_arg4) := W4_of_ne m ρ c main_arg4 (by decide)
    _ = W2 m ρ c (Proc.devRef .tc main_arg4) := W3_of m ρ c main_arg4 (by decide)
    _ = W1 m ρ c (Proc.devRef .tc main_arg4) := W2_of_ne m ρ c main_arg4 (by decide)
    _ = W0 m ρ c (Proc.devRef .tc main_arg4) := W1_of m ρ c main_arg4 (by decide)
    _ = m ((c : Thread nD τ).loc main_arg4) := rfl

/-- `main_arg5` ends as launched: no host operation writes it and no region's output window is on it. -/
theorem W8_main_arg5 (c : Dev nD) : W8 m ρ c (Proc.devRef .tc main_arg5) = m ((c : Thread nD τ).loc main_arg5) :=
  calc W8 m ρ c (Proc.devRef .tc main_arg5)
    _ = W7 m ρ c (Proc.devRef .tc main_arg5) := W8_of m ρ c main_arg5 (by decide)
    _ = W6 m ρ c (Proc.devRef .tc main_arg5) := W7_of_ne m ρ c main_arg5 (by decide)
    _ = W5 m ρ c (Proc.devRef .tc main_arg5) := W6_of_ne m ρ c main_arg5 (by decide)
    _ = W4 m ρ c (Proc.devRef .tc main_arg5) := W5_of m ρ c main_arg5 (by decide)
    _ = W3 m ρ c (Proc.devRef .tc main_arg5) := W4_of_ne m ρ c main_arg5 (by decide)
    _ = W2 m ρ c (Proc.devRef .tc main_arg5) := W3_of m ρ c main_arg5 (by decide)
    _ = W1 m ρ c (Proc.devRef .tc main_arg5) := W2_of_ne m ρ c main_arg5 (by decide)
    _ = W0 m ρ c (Proc.devRef .tc main_arg5) := W1_of m ρ c main_arg5 (by decide)
    _ = m ((c : Thread nD τ).loc main_arg5) := rfl

/-- `main_arg6` ends as launched: no host operation writes it and no region's output window is on it. -/
theorem W8_main_arg6 (c : Dev nD) : W8 m ρ c (Proc.devRef .tc main_arg6) = m ((c : Thread nD τ).loc main_arg6) :=
  calc W8 m ρ c (Proc.devRef .tc main_arg6)
    _ = W7 m ρ c (Proc.devRef .tc main_arg6) := W8_of m ρ c main_arg6 (by decide)
    _ = W6 m ρ c (Proc.devRef .tc main_arg6) := W7_of_ne m ρ c main_arg6 (by decide)
    _ = W5 m ρ c (Proc.devRef .tc main_arg6) := W6_of_ne m ρ c main_arg6 (by decide)
    _ = W4 m ρ c (Proc.devRef .tc main_arg6) := W5_of m ρ c main_arg6 (by decide)
    _ = W3 m ρ c (Proc.devRef .tc main_arg6) := W4_of_ne m ρ c main_arg6 (by decide)
    _ = W2 m ρ c (Proc.devRef .tc main_arg6) := W3_of m ρ c main_arg6 (by decide)
    _ = W1 m ρ c (Proc.devRef .tc main_arg6) := W2_of_ne m ρ c main_arg6 (by decide)
    _ = W0 m ρ c (Proc.devRef .tc main_arg6) := W1_of m ρ c main_arg6 (by decide)
    _ = m ((c : Thread nD τ).loc main_arg6) := rfl

/-- `main_arg7` ends as launched: no host operation writes it and no region's output window is on it. -/
theorem W8_main_arg7 (c : Dev nD) : W8 m ρ c (Proc.devRef .tc main_arg7) = m ((c : Thread nD τ).loc main_arg7) :=
  calc W8 m ρ c (Proc.devRef .tc main_arg7)
    _ = W7 m ρ c (Proc.devRef .tc main_arg7) := W8_of m ρ c main_arg7 (by decide)
    _ = W6 m ρ c (Proc.devRef .tc main_arg7) := (W7_arr m ρ c 1).trans (((dat3 (V6 m ρ) c).arrAt_in 1 rfl _).trans (A_eq3 (V6 m ρ) c 1))
    _ = W5 m ρ c (Proc.devRef .tc main_arg7) := W6_of_ne m ρ c main_arg7 (by decide)
    _ = W4 m ρ c (Proc.devRef .tc main_arg7) := W5_of m ρ c main_arg7 (by decide)
    _ = W3 m ρ c (Proc.devRef .tc main_arg7) := W4_of_ne m ρ c main_arg7 (by decide)
    _ = W2 m ρ c (Proc.devRef .tc main_arg7) := W3_of m ρ c main_arg7 (by decide)
    _ = W1 m ρ c (Proc.devRef .tc main_arg7) := W2_of_ne m ρ c main_arg7 (by decide)
    _ = W0 m ρ c (Proc.devRef .tc main_arg7) := W1_of m ρ c main_arg7 (by decide)
    _ = m ((c : Thread nD τ).loc main_arg7) := rfl

end Cert.KernelIdeal.Fr

end
-- ==== Proof.FrBody0.lean ====
/-
  Region 0's kernel body (one 512 × 512 tile of the stacked projection) as a triple: on whole staging buffers holding the
  two input blocks it runs to the end, faults nowhere, leaves the inputs as they were and the output buffer at the
  product tile; and from it the pipeline's body obligation at every grid point.
-/
import proofs.«162642_j16423954940491_2_alg».proof.Proof.FrDefs

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Input window 0's current staging buffer holds its block at every point, fetched there or not: where it was not
    fetched the block index has not moved, and the body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_0 (c : Dev nD) (t : Fin cfg0.N) (d) : (dat0 V c).before 0 t d = iblk0 V c 0 t :=
  before0_0_of V (dat0 V c) (A_eq0 V c 0) (after0_0 V c) t d

/-- Input window 1's current staging buffer holds its block at every point, fetched there or not: where it was not
    fetched the block index has not moved, and the body leaves the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_1 (c : Dev nD) (t : Fin cfg0.N) (d) : (dat0 V c).before 1 t d = iblk0 V c 1 t :=
  before0_1_of V (dat0 V c) (A_eq0 V c 1) (after0_1 V c) t d

/-- The one store of the body covers the output buffer. -/
theorem cover0_2 (p0 : Vec F S512x512 .f32) (y : S512x512.Idx) :
    ∃ pc ∈ ([⟨rO, p0⟩] : List (View.Piece (Elt F) S512x512 .f32)), y ∈ pc.1.set :=
  View.cover_of_tiled [⟨rO, p0⟩] S512x512.size (by rfl) y

set_option maxHeartbeats 1000000 in
/-- The body's triple: inputs read, output stored whole. -/
theorem sound_kernel0 (c : Dev nD) (E : Set ℕ) (i : grid0.Coords)
    (arg2 : Memref sig .tc .vmem S512x2048 .f32) (harg2 : arg2.IsWhole) (arg3 : Memref sig .tc .vmem S512x2048 .f32) (harg3 : arg3.IsWhole)
    (arg4 : Memref sig .tc .vmem S512x512 .f32) (harg4 : arg4.IsWhole)
    (x0 : Vec F S512x2048 .f32) (x1 : Vec F S512x2048 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1
            ∗ owns (c : Thread nD τ) arg4 fullShare (out0_2 x0 x1)) -∗ K ⟨⟩))
      ⊢ wp frame (wpE (defs₀ (F := F)) Variants.none c none) E (cc0__mm_kernel i arg2 harg2 arg3 harg3 arg4 harg4) K := by
  simp only [cc0__mm_kernel_eq_skeleton]; unfold cc0__mm_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' buffers hold their blocks, so the triple applies; the invariant and what the
    core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Fr

end
-- ==== Proof.FrBody1.lean ====
/-
  Region 1's kernel body (two key heads rotated) as a triple: on whole staging buffers holding the key columns and the
  cosine and sine tables it runs to the end, faults nowhere, leaves the inputs as they were and the output buffer at the
  two rotated heads; and from it the pipeline's body obligation at every grid point.
-/
import proofs.«162642_j16423954940491_2_alg».proof.Proof.FrDefs

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Input window 0's current staging buffer holds its block at every point, fetched there or not: where it was not
    fetched the block index has not moved, and the body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_0 (c : Dev nD) (t : Fin cfg1.N) (d) : (dat1 V c).before 0 t d = iblk1 V c 0 t :=
  before1_0_of V (dat1 V c) (A_eq1 V c 0) (after1_0 V c) t d

/-- Input window 1's current staging buffer holds its block at every point, fetched there or not: where it was not
    fetched the block index has not moved, and the body leaves the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_1 (c : Dev nD) (t : Fin cfg1.N) (d) : (dat1 V c).before 1 t d = iblk1 V c 1 t :=
  before1_1_of V (dat1 V c) (A_eq1 V c 1) (after1_1 V c) t d

/-- Input window 2's current staging buffer holds its block at every point, fetched there or not: where it was not
    fetched the block index has not moved, and the body leaves the block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_2 (c : Dev nD) (t : Fin cfg1.N) (d) : (dat1 V c).before 2 t d = iblk1 V c 2 t :=
  before1_2_of V (dat1 V c) (A_eq1 V c 2) (after1_2 V c) t d

/-- The body's stores into output window 3's buffer tile it, so they cover it. -/
theorem cover1_3 (p0 : Vec F S1x2048x64 .bf16) (p1 : Vec F S1x2048x64 .bf16) (y : S2x2048x64.Idx) :
    ∃ pc ∈ ([⟨rH1, p0⟩, ⟨rH0, p1⟩] : List (View.Piece (Elt F) S2x2048x64 .bf16)), y ∈ pc.1.set :=
  View.cover_of_tiled [⟨rH1, p0⟩, ⟨rH0, p1⟩] S1x2048x64.size (by rfl) y

set_option maxHeartbeats 4000000 in
/-- The body's triple: on whole staging buffers, the inputs' holding `x0 …` and the outputs' anything, the kernel runs to
    the continuation with the inputs' as they were and each output's at its function of the inputs. -/
theorem sound_kernel1 (c : Dev nD) (E : Set ℕ) (i : grid1.Coords)
    (arg1 : Memref sig .tc .vmem S2048x128 .f32) (harg1 : arg1.IsWhole)
    (arg2 : Memref sig .tc .vmem S2048x64 .f32) (harg2 : arg2.IsWhole)
    (arg3 : Memref sig .tc .vmem S2048x64 .f32) (harg3 : arg3.IsWhole)
    (arg4 : Memref sig .tc .vmem S2x2048x64 .bf16) (harg4 : arg4.IsWhole)
    (x0 : Vec F S2048x128 .f32) (x1 : Vec F S2048x64 .f32) (x2 : Vec F S2048x64 .f32) (K : PUnit → sProp 𝕄) :
    iprop(owns (c : Thread nD τ) arg1 fullShare x0
        ∗ owns (c : Thread nD τ) arg2 fullShare x1
        ∗ owns (c : Thread nD τ) arg3 fullShare x2
        ∗ (∃ d, owns (c : Thread nD τ) arg4 fullShare d)
        ∗ (iprop(owns (c : Thread nD τ) arg1 fullShare x0
            ∗ owns (c : Thread nD τ) arg2 fullShare x1
            ∗ owns (c : Thread nD τ) arg3 fullShare x2
            ∗ owns (c : Thread nD τ) arg4 fullShare (out1_3 x0 x1 x2)) -∗ K ⟨⟩))
      ⊢ wp frame (wpE (defs₀ (F := F)) Variants.none c none) E (cc1__rope_kv_pair_kernel i arg1 harg1 arg2 harg2 arg3 harg3 arg4 harg4) K := by
  simp only [cc1__rope_kv_pair_kernel_eq_skeleton]; unfold cc1__rope_kv_pair_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _ _)

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' buffers hold their blocks, so the triple applies; the invariant and what the
    core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Fr

end
-- ==== Proof.FrBody2.lean ====
/-
  Region 2's kernel body (the attention cell of one query tile and one pair of heads) as a triple: on whole staging
  buffers holding the query columns, the cosine and sine rows, the rotated keys, the values and the mask rows it runs to
  the end, faults nowhere, leaves the inputs as they were, the weights buffer at the two heads' probabilities and the
  context buffer at the two heads' contexts; and from it the pipeline's body obligation at every grid point.
-/
import proofs.«162642_j16423954940491_2_alg».proof.Proof.FrDefs

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Input window 0's current staging buffer holds its block at every point, fetched there or not: where it was not
    fetched the block index has not moved, and the body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_0 (c : Dev nD) (t : Fin cfg2.N) (d) : (dat2 V c).before 0 t d = iblk2 V c 0 t :=
  before2_0_of V (dat2 V c) (A_eq2 V c 0) (after2_0 V c) t d

/-- Input window 1's current staging buffer holds its block at every point, fetched there or not: where it was not
    fetched the block index has not moved, and the body leaves the block in place. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_1 (c : Dev nD) (t : Fin cfg2.N) (d) : (dat2 V c).before 1 t d = iblk2 V c 1 t :=
  before2_1_of V (dat2 V c) (A_eq2 V c 1) (after2_1 V c) t d

/-- Input window 2's current staging buffer holds its block at every point, fetched there or not: where it was not
    fetched the block index has not moved, and the body leaves the block in place. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_2 (c : Dev nD) (t : Fin cfg2.N) (d) : (dat2 V c).before 2 t d = iblk2 V c 2 t :=
  before2_2_of V (dat2 V c) (A_eq2 V c 2) (after2_2 V c) t d

/-- Input window 3's current staging buffer holds its block at every point, fetched there or not: where it was not
    fetched the block index has not moved, and the body leaves the block in place. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
theorem before2_3 (c : Dev nD) (t : Fin cfg2.N) (d) : (dat2 V c).before 3 t d = iblk2 V c 3 t :=
  before2_3_of V (dat2 V c) (A_eq2 V c 3) (after2_3 V c) t d

/-- Input window 4's current staging buffer holds its block at every point, fetched there or not: where it was not
    fetched the block index has not moved, and the body leaves the block in place. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)
theorem before2_4 (c : Dev nD) (t : Fin cfg2.N) (d) : (dat2 V c).before 4 t d = iblk2 V c 4 t :=
  before2_4_of V (dat2 V c) (A_eq2 V c 4) (after2_4 V c) t d

/-- Input window 5's current staging buffer holds its block at every point, fetched there or not: where it was not
    fetched the block index has not moved, and the body leaves the block in place. -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)
theorem before2_5 (c : Dev nD) (t : Fin cfg2.N) (d) : (dat2 V c).before 5 t d = iblk2 V c 5 t :=
  before2_5_of V (dat2 V c) (A_eq2 V c 5) (after2_5 V c) t d

/-- The body's stores into output window 6's buffer tile it, so they cover it. -/
theorem cover2_6 (p0 : Vec F S1x256x2048 .f32) (p1 : Vec F S1x256x2048 .f32) (y : S2x256x2048.Idx) :
    ∃ pc ∈ ([⟨rW1, p0⟩, ⟨rW0, p1⟩] : List (View.Piece (Elt F) S2x256x2048 .f32)), y ∈ pc.1.set :=
  View.cover_of_tiled [⟨rW1, p0⟩, ⟨rW0, p1⟩] S1x256x2048.size (by rfl) y

/-- The body's stores into output window 7's buffer tile it, so they cover it. -/
theorem cover2_7 (p0 : Vec F S256x128 .bf16) (y : S256x128.Idx) :
    ∃ pc ∈ ([⟨rQ, p0⟩] : List (View.Piece (Elt F) S256x128 .bf16)), y ∈ pc.1.set :=
  View.cover_of_tiled [⟨rQ, p0⟩] S256x128.size (by rfl) y

set_option maxHeartbeats 4000000 in
/-- The body's triple: on whole staging buffers, the inputs' holding `x0 …` and the outputs' anything, the kernel runs to
    the continuation with the inputs' as they were and each output's at its function of the inputs. -/
theorem sound_kernel2 (c : Dev nD) (E : Set ℕ) (i : grid2.Coords)
    (arg2 : Memref sig .tc .vmem S256x128 .f32) (harg2 : arg2.IsWhole)
    (arg3 : Memref sig .tc .vmem S256x64 .f32) (harg3 : arg3.IsWhole)
    (arg4 : Memref sig .tc .vmem S256x64 .f32) (harg4 : arg4.IsWhole)
    (arg5 : Memref sig .tc .vmem S1x2048x64 .bf16) (harg5 : arg5.IsWhole)
    (arg6 : Memref sig .tc .vmem S1x2048x64 .bf16) (harg6 : arg6.IsWhole)
    (arg7 : Memref sig .tc .vmem S256x2048 .f32) (harg7 : arg7.IsWhole)
    (arg8 : Memref sig .tc .vmem S2x256x2048 .f32) (harg8 : arg8.IsWhole)
    (arg9 : Memref sig .tc .vmem S256x128 .bf16) (harg9 : arg9.IsWhole)
    (x0 : Vec F S256x128 .f32) (x1 : Vec F S256x64 .f32) (x2 : Vec F S256x64 .f32) (x3 : Vec F S1x2048x64 .bf16) (x4 : Vec F S1x2048x64 .bf16) (x5 : Vec F S256x2048 .f32) (K : PUnit → sProp 𝕄) :
    iprop(owns (c : Thread nD τ) arg2 fullShare x0
        ∗ owns (c : Thread nD τ) arg3 fullShare x1
        ∗ owns (c : Thread nD τ) arg4 fullShare x2
        ∗ owns (c : Thread nD τ) arg5 fullShare x3
        ∗ owns (c : Thread nD τ) arg6 fullShare x4
        ∗ owns (c : Thread nD τ) arg7 fullShare x5
        ∗ (∃ d, owns (c : Thread nD τ) arg8 fullShare d)
        ∗ (∃ d, owns (c : Thread nD τ) arg9 fullShare d)
        ∗ (iprop(owns (c : Thread nD τ) arg2 fullShare x0
            ∗ owns (c : Thread nD τ) arg3 fullShare x1
            ∗ owns (c : Thread nD τ) arg4 fullShare x2
            ∗ owns (c : Thread nD τ) arg5 fullShare x3
            ∗ owns (c : Thread nD τ) arg6 fullShare x4
            ∗ owns (c : Thread nD τ) arg7 fullShare x5
            ∗ owns (c : Thread nD τ) arg8 fullShare (out2_6 x0 x1 x2 x3 x5)
            ∗ owns (c : Thread nD τ) arg9 fullShare (out2_7 x0 x1 x2 x3 x4 x5)) -∗ K ⟨⟩))
      ⊢ wp frame (wpE (defs₀ (F := F)) Variants.none c none) E (cc2_attn_kernel i arg2 harg2 arg3 harg3 arg4 harg4 arg5 harg5 arg6 harg6 arg7 harg7 arg8 harg8 arg9 harg9) K := by
  simp only [cc2_attn_kernel_eq_skeleton]; unfold cc2_attn_kernel_skel
  simp only [k2_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (cover2_6 _ _)
  iexists _; isplitr
  swap; · iexact H7
  ipureintro
  exact View.read_writes_eq_canon _ _ _ (cover2_7 _)

/-- What the body is called with at point `t`, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t))

/-- The body at any point: the inputs' buffers hold their blocks, so the triple applies; the invariant and what the
    core owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel2 c Set.univ _ _ _ _ _ _ _ _ _ _ _ _ _ _ _ _ _ (iblk2 V c 0 t) (iblk2 V c 1 t) (iblk2 V c 2 t) (iblk2 V c 3 t) (iblk2 V c 4 t) (iblk2 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The pipeline's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Fr

end
-- ==== Proof.FrBody3.lean ====
/-
  Region 3's kernel body (one 512 × 512 tile of the output projection) as a triple: on whole staging buffers holding the
  context block and the weight block it runs to the end, faults nowhere, leaves the inputs as they were and the output
  buffer at the product tile; and from it the pipeline's body obligation at every grid point.
-/
import proofs.«162642_j16423954940491_2_alg».proof.Proof.FrDefs

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Input window 0's current staging buffer holds its block at every point, fetched there or not: where it was not
    fetched the block index has not moved, and the body leaves the block in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_0 (c : Dev nD) (t : Fin cfg3.N) (d) : (dat3 V c).before 0 t d = iblk3 V c 0 t :=
  before3_0_of V (dat3 V c) (A_eq3 V c 0) (after3_0 V c) t d

/-- Input window 1's current staging buffer holds its block at every point, fetched there or not: where it was not
    fetched the block index has not moved, and the body leaves the block in place. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
theorem before3_1 (c : Dev nD) (t : Fin cfg3.N) (d) : (dat3 V c).before 1 t d = iblk3 V c 1 t :=
  before3_1_of V (dat3 V c) (A_eq3 V c 1) (after3_1 V c) t d

/-- The body's stores into output window 2's buffer tile it, so they cover it. -/
theorem cover3_2 (p0 : Vec F S512x512 .f32) (y : S512x512.Idx) :
    ∃ pc ∈ ([⟨rO, p0⟩] : List (View.Piece (Elt F) S512x512 .f32)), y ∈ pc.1.set :=
  View.cover_of_tiled [⟨rO, p0⟩] S512x512.size (by rfl) y

set_option maxHeartbeats 4000000 in
/-- The body's triple: on whole staging buffers, the inputs' holding `x0 …` and the outputs' anything, the kernel runs to
    the continuation with the inputs' as they were and each output's at its function of the inputs. -/
theorem sound_kernel3 (c : Dev nD) (E : Set ℕ) (i : grid3.Coords)
    (arg2 : Memref sig .tc .vmem S512x2048 .bf16) (harg2 : arg2.IsWhole)
    (arg3 : Memref sig .tc .vmem S512x2048 .f32) (harg3 : arg3.IsWhole)
    (arg4 : Memref sig .tc .vmem S512x512 .f32) (harg4 : arg4.IsWhole)
    (x0 : Vec F S512x2048 .bf16) (x1 : Vec F S512x2048 .f32) (K : PUnit → sProp 𝕄) :
    iprop(owns (c : Thread nD τ) arg2 fullShare x0
        ∗ owns (c : Thread nD τ) arg3 fullShare x1
        ∗ (∃ d, owns (c : Thread nD τ) arg4 fullShare d)
        ∗ (iprop(owns (c : Thread nD τ) arg2 fullShare x0
            ∗ owns (c : Thread nD τ) arg3 fullShare x1
            ∗ owns (c : Thread nD τ) arg4 fullShare (out3_2 x0 x1)) -∗ K ⟨⟩))
      ⊢ wp frame (wpE (defs₀ (F := F)) Variants.none c none) E (cc3__mm_kernel i arg2 harg2 arg3 harg3 arg4 harg4) K := by
  simp only [cc3__mm_kernel_eq_skeleton]; unfold cc3__mm_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover3_2 _)

/-- What the body is called with at point `t`, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t))

/-- The body at any point: the inputs' buffers hold their blocks, so the triple applies; the invariant and what the
    core owes pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).Φ t.succ = (dat3 V c).Φ t.castSucc from rfl,
    show (dat3 V c).owesAt () t.succ = (dat3 V c).owesAt () t.castSucc from rfl,
    after3_0, after3_1, after3_2]
  iintro ⟨HΦ, Ho, ⟨%d0, H0⟩, ⟨%d1, H1⟩, ⟨%d2, H2⟩⟩
  iapply (sound_kernel3 c Set.univ _ _ _ _ _ _ _ (iblk3 V c 0 t) (iblk3 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation, at every point. -/
theorem body_obligation3 (c : Dev nD) : BodyObligation (dat3 (F := F) V c) (defs₀ (F := F)) Variants.none () Set.univ := fun t => by
  rw [bigSep_W3, bigSep_W3]
  exact sound_body3 V c t

end Cert.KernelIdeal.Fr

end
-- ==== Proof.FrRun.lean ====
/-
  The attention program's run, from the launch to the return, as eight segments: four stretches of host operations
  and the four launched kernels. The buffer contents at every segment boundary are a fold from the launch memory: a
  host stretch applies its operations; a region leaves each of its output arrays at what its grid points wrote back and
  every other buffer as it found it. Every weakly fair execution terminates, faults nowhere, and ends with EVERY unscoped
  buffer at the last boundary's contents: the arguments as launched (the frame), the two results at the fold's terms.
-/
import proofs.«162642_j16423954940491_2_alg».proof.Proof.FrFold
import proofs.«162642_j16423954940491_2_alg».proof.Proof.FrBody0
import proofs.«162642_j16423954940491_2_alg».proof.Proof.FrBody1
import proofs.«162642_j16423954940491_2_alg».proof.Proof.FrBody2
import proofs.«162642_j16423954940491_2_alg».proof.Proof.FrBody3

import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data family and the thread state -/

/-- No pipeline has a prefetched table. -/
abbrev adm : (p : Fin 4) → (pcfgs (F := F) p).Adm := fun p => (cfgs p).toPCfg_adm
/-- Every pipeline's proof data, each at its region's entry contents. -/
def pdats : (p : Fin 4) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
  | ⟨3, _⟩ => fun c => dat3 (V6 m ρ) c
abbrev 𝒱₀ : Variants := Variants.none
/-- No core owes another anything. -/
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- A host stretch as a segment over the unscoped references from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state, without what is owed: every unscoped buffer at `W8`, the generator register at some state. -/
abbrev Tₙ (c : Dev nD) : sProp 𝕄 := iprop(StableHlo.held (c : Thread nD τ) (Pipeline.ucRefs τ sig) (W8 m ρ c) ∗ ∃ r, prngReg c r)

/-! ## The regions as segments -/

set_option backward.isDefEq.respectTransparency.types false in
/-- Region 0 over the thread state: entered from every unscoped buffer at `W1`, left at `W2`. Its arrays are split out
    of the unscoped buffers and put back at the exit contents; the generator register goes into the pipeline's invariant
    and comes out; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W3`, left at `W4`. Its arrays are split out
    of the unscoped buffers and put back at the exit contents; the generator register goes into the pipeline's invariant
    and comes out; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at `W5`, left at `W6`. Its arrays are split out
    of the unscoped buffers and put back at the exit contents; the generator register goes into the pipeline's invariant
    and comes out; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered from every unscoped buffer at `W6`, left at `W7`. Its arrays are split out
    of the unscoped buffers and put back at the exit contents; the generator register goes into the pipeline's invariant
    and comes out; nothing is owed; the kernel has no semaphore of its own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V6 m ρ) c).loose
  hwaits := Pipeline.hwaits_of_owed_zero _ _ _ _ L lv 3 fun _ _ => rfl
  pre c := iprop(StableHlo.held (c : Thread nD τ) (Pipeline.ucRefs τ sig) (W6 m ρ c) ∗ R c)
  post c := iprop(StableHlo.held (c : Thread nD τ) (Pipeline.ucRefs τ sig) (W7 m ρ c) ∗ R c)
  X c := iprop(∃ r, prngReg c r)
  Y c := iprop(∃ r, prngReg c r)
  Z c := Pipeline.unscopedRest (Ix := Unit) (Name := ℕ) (U := UR sig nD τ) (Lvl := ℕ) spec3 c (V6 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V6 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V6 m ρ c) (V7 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The run -/

/-- The program's eight segments in order. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .region (reg3 m ρ),
    .host (hseg hostOps4 hostOps4_sub hostOps4_fresh (W7 m ρ)) ]
/-- The program IS the run of its segments. -/
theorem main_run (c : Dev nD) : main (F := F) c = Pipeline.Seg.run (segs m ρ) := (main_chain c).trans (by chain_rfl)

set_option backward.isDefEq.respectTransparency.types false in
/-- From any memory with zero counters every weakly fair execution of the program terminates, nothing faulting, and
    every final memory holds every unscoped buffer at the last boundary's contents `W8`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W8 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl,
      fun c => by
        show iprop(StableHlo.held (c : Thread nD τ) (Pipeline.ucRefs τ sig) (W8 m ρ c) ∗ R c)
          ⊢ iprop(Tₙ m ρ c ∗ ∃ W, owes (c : Thread nD τ) (0 : CellTallies nD τ sig Unit) W)
        iintro ⟨Hh, Hp, Ho⟩
        isplitl [Hh Hp]
        · isplitl [Hh]; · iexact Hh
          iexact Hp
        iexact Ho⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c => h c)

/-- THE FRAME: the program runs to the end, faults nowhere, and its eight argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c =>
    ⟨(h c _ (mem_uc main_arg0 (by decide))).trans (W8_main_arg0 m ρ c),
     (h c _ (mem_uc main_arg1 (by decide))).trans (W8_main_arg1 m ρ c),
     (h c _ (mem_uc main_arg2 (by decide))).trans (W8_main_arg2 m ρ c),
     (h c _ (mem_uc main_arg3 (by decide))).trans (W8_main_arg3 m ρ c),
     (h c _ (mem_uc main_arg4 (by decide))).trans (W8_main_arg4 m ρ c),
     (h c _ (mem_uc main_arg5 (by decide))).trans (W8_main_arg5 m ρ c),
     (h c _ (mem_uc main_arg6 (by decide))).trans (W8_main_arg6 m ρ c),
     (h c _ (mem_uc main_arg7 (by decide))).trans (W8_main_arg7 m ρ c)⟩) (run_all m ρ)

end Cert.KernelIdeal.Fr

end
-- ==== Proof.Spec.lean ====
/-
  The attention layer as ONE function of its eight argument arrays, over the extended reals.

  Arrays are read as curried functions over literal index types: the hidden states `X s k` (2048 positions by 2048
  features), the rotary tables `C s d`, `Sn s d` (2048 by 64), the additive mask `M s t` (2048 by 2048), and the four
  weight matrices `Wq n k`, `Wk n k`, `Wv n k`, `Wo j n` (output feature first, contracted feature second).

  * a projection is a row of `X` against a row of a weight matrix, summed over the 2048 features;
  * query head `h` (of 32) owns features `64 h … 64 h + 63`; key/value head `g` (of 8) likewise, and query head `h`
    attends to key/value head `h / 4`;
  * the rotary embedding of a 64-vector `x` at a position is `x d · cos d + rot x d · sin d` with
    `rot x d = −x (d + 32)` for `d < 32` and `x (d − 32)` otherwise;
  * a score is the rotated query against the rotated key over the 64 lanes, times one eighth, plus the mask;
  * a row of scores is normalised by the softmax: `exp (r t − max r)` over the sum of these;
  * the context of head `h` is the probabilities against the values of head `h / 4`, and the output is the
    context (heads laid side by side) against `Wo`.
-/
import Idealize.ShloMosaic.PureOps.Ideal
import Idealize.ShloMosaic.Lib.ValueIdx

noncomputable section

namespace Cert.Spec

open Idealize.ShloMosaic

/-- Row `s` of `X` against row `j` of `W`. -/
def proj {n : Nat} (X : Fin 2048 → Fin 2048 → EReal) (W : Fin n → Fin 2048 → EReal) (s : Fin 2048) (j : Fin n) : EReal :=
  ∑ k : Fin 2048, X s k * W j k

/-- The half-rotation of a 64-vector: the upper half negated in front of the lower half. -/
def rot (x : Fin 64 → EReal) (d : Fin 64) : EReal :=
  if h : d.val < 32 then -(x ⟨d.val + 32, by omega⟩) else x ⟨d.val - 32, by omega⟩

/-- The rotary embedding of a 64-vector `x` with the position's cosines `c` and sines `sn`. -/
def rope (x c sn : Fin 64 → EReal) (d : Fin 64) : EReal := x d * c d + rot x d * sn d

/-- Lane `d` of query head `h` among the 2048 query features. -/
def lane32 (h : Fin 32) (d : Fin 64) : Fin 2048 := ⟨h.val * 64 + d.val, by omega⟩
/-- Lane `d` of key/value head `g` among the 512 key (or value) features. -/
def lane8 (g : Fin 8) (d : Fin 64) : Fin 512 := ⟨g.val * 64 + d.val, by omega⟩
/-- The key/value head a query head attends to. -/
def grp (h : Fin 32) : Fin 8 := ⟨h.val / 4, by omega⟩
/-- The head and the lane of one of the 2048 context features. -/
def headOf (n : Fin 2048) : Fin 32 := ⟨n.val / 64, by omega⟩
def laneOf (n : Fin 2048) : Fin 64 := ⟨n.val % 64, by omega⟩

/-- One eighth, as the float word both programs carry. -/
def eighth : EReal := Ideal.ofBits .f32 0x3E000000#32

/-- The largest entry of a row (the lattice's bottom for no entries; a row here has 2048). -/
def rowmax (r : Fin 2048 → EReal) : EReal := Finset.univ.sup r

/-- The softmax of a row at an entry. -/
def soft (r : Fin 2048 → EReal) (t : Fin 2048) : EReal :=
  Ideal.div (Ideal.exp (r t - rowmax r)) (∑ t' : Fin 2048, Ideal.exp (r t' - rowmax r))

/-! ## The attention cell, over an already projected query array and already rotated keys -/

/-- The rotated key (or any 512-feature array `k t n` split into 8 heads) of head `g` at position `t`. -/
def ropeK (k : Fin 2048 → Fin 512 → EReal) (C Sn : Fin 2048 → Fin 64 → EReal) (g : Fin 8) (t : Fin 2048) (d : Fin 64) : EReal :=
  rope (fun d' => k t (lane8 g d')) (C t) (Sn t) d

/-- The masked, scaled score of query position `s` against key position `t` in head `h`: the query features `q s n`
    rotated on the fly, against rotated keys `K g t d`. -/
def cellScore (q : Fin 2048 → Fin 2048 → EReal) (C Sn : Fin 2048 → Fin 64 → EReal)
    (K : Fin 8 → Fin 2048 → Fin 64 → EReal) (M : Fin 2048 → Fin 2048 → EReal) (h : Fin 32) (s t : Fin 2048) : EReal :=
  (∑ d : Fin 64, rope (fun d' => q s (lane32 h d')) (C s) (Sn s) d * K (grp h) t d) * eighth + M s t

/-- The attention weight of head `h`, query `s`, key `t`. -/
def cellProb (q : Fin 2048 → Fin 2048 → EReal) (C Sn : Fin 2048 → Fin 64 → EReal)
    (K : Fin 8 → Fin 2048 → Fin 64 → EReal) (M : Fin 2048 → Fin 2048 → EReal) (h : Fin 32) (s t : Fin 2048) : EReal :=
  soft (cellScore q C Sn K M h s) t

/-- Context feature `n` (head `n / 64`, lane `n % 64`) at position `s`: the weights against the values `Vv g t d`. -/
def cellCtx (q : Fin 2048 → Fin 2048 → EReal) (C Sn : Fin 2048 → Fin 64 → EReal)
    (K : Fin 8 → Fin 2048 → Fin 64 → EReal) (M : Fin 2048 → Fin 2048 → EReal)
    (Vv : Fin 8 → Fin 2048 → Fin 64 → EReal) (s : Fin 2048) (n : Fin 2048) : EReal :=
  ∑ t : Fin 2048, cellProb q C Sn K M (headOf n) s t * Vv (grp (headOf n)) t (laneOf n)

/-! ## The whole layer -/

section
variable (X : Fin 2048 → Fin 2048 → EReal) (C Sn : Fin 2048 → Fin 64 → EReal) (M : Fin 2048 → Fin 2048 → EReal)
  (Wq : Fin 2048 → Fin 2048 → EReal) (Wk Wv : Fin 512 → Fin 2048 → EReal) (Wo : Fin 2048 → Fin 2048 → EReal)

/-- The values of key/value head `g` at position `t`. -/
def vals (g : Fin 8) (t : Fin 2048) (d : Fin 64) : EReal := proj X Wv t (lane8 g d)
/-- The attention weights: the second result, at `[0, h, s, t]`. -/
def prob (h : Fin 32) (s t : Fin 2048) : EReal :=
  cellProb (proj X Wq) C Sn (ropeK (proj X Wk) C Sn) M h s t
/-- The layer's output: the first result, at `[0, s, j]`. -/
def out (s : Fin 2048) (j : Fin 2048) : EReal :=
  ∑ n : Fin 2048, cellCtx (proj X Wq) C Sn (ropeK (proj X Wk) C Sn) M (vals X Wv) s n * Wo j n
end

/-! ## Arrays as curried functions, and the two results as arrays -/

def rd2 {n0 n1 : Nat} (a : (⟨2, ![n0, n1]⟩ : Shape).Idx → EReal) (i : Fin n0) (j : Fin n1) : EReal := a (ValueIdx.ix2 i j)
def rd3 {n0 n1 : Nat} (a : (⟨3, ![1, n0, n1]⟩ : Shape).Idx → EReal) (i : Fin n0) (j : Fin n1) : EReal :=
  a (ValueIdx.ix3 (0 : Fin 1) i j)
def rd4 {n0 n1 : Nat} (a : (⟨4, ![1, 1, n0, n1]⟩ : Shape).Idx → EReal) (i : Fin n0) (j : Fin n1) : EReal :=
  a (ValueIdx.ix4 (0 : Fin 1) (0 : Fin 1) i j)

section
variable (a0 : (⟨3, ![1, 2048, 2048]⟩ : Shape).Idx → EReal) (a1 a2 : (⟨3, ![1, 2048, 64]⟩ : Shape).Idx → EReal)
  (a3 : (⟨4, ![1, 1, 2048, 2048]⟩ : Shape).Idx → EReal) (a4 : (⟨2, ![2048, 2048]⟩ : Shape).Idx → EReal)
  (a5 a6 : (⟨2, ![512, 2048]⟩ : Shape).Idx → EReal) (a7 : (⟨2, ![2048, 2048]⟩ : Shape).Idx → EReal)

/-- The first result array `[1, 2048, 2048]` as a function of the eight argument arrays. -/
def res0 : (⟨3, ![1, 2048, 2048]⟩ : Shape).Idx → EReal := fun i =>
  out (rd3 a0) (rd3 a1) (rd3 a2) (rd4 a3) (rd2 a4) (rd2 a5) (rd2 a6) (rd2 a7) (i 1) (i 2)
/-- The second result array `[1, 32, 2048, 2048]` as a function of the argument arrays. -/
def res1 : (⟨4, ![1, 32, 2048, 2048]⟩ : Shape).Idx → EReal := fun i =>
  prob (rd3 a0) (rd3 a1) (rd3 a2) (rd4 a3) (rd2 a4) (rd2 a5) (i 1) (i 2) (i 3)
end

end Cert.Spec

end
-- ==== Proof.ValHost.lean ====
/-
  The host operations between the launched kernels, read at an index, over the boundary contents of the run:
  the hidden states with their unit axis dropped; the three weight matrices stacked along their rows; the three column
  ranges of the stacked projection; the rotary tables and the mask with their unit axes dropped; the value projection
  split into heads with the head axis moved in front; and the two results with a unit axis added in front.
-/
import proofs.«162642_j16423954940491_2_alg».proof.Proof.FrFold
import proofs.«162642_j16423954940491_2_alg».proof.Proof.Spec
import Idealize.ShloMosaic.Lib.ValueIdx
import Idealize.ShloMosaic.Lib.Pipeline.Value
import Idealize.ShloMosaic.Lib.ValueLayout
import Idealize.ShloMosaic.Lib.StableHlo.Run

noncomputable section

namespace Cert.KernelIdeal.KBridge

open Idealize.ShloMosaic Idealize.ShloMosaic.TcCoe Idealize.SL.Sem
open Cert.KernelIdeal Cert.KernelIdeal.Gen Cert.KernelIdeal.Fr Idealize.ShloMosaic.ValueIdx

variable (m : (ℓ : Loc nD τ sig) → Buf (Elt Ideal) ℓ) (ρ : Dev nD → PrngReg) (c : Dev nD)

/-! ## A buffer nothing has written yet still holds its launch contents -/

theorem W2_launch (r : Ref sig .tc) (h0 : r ∉ hostOps0_W) (h1 : ∀ w, Pipeline.arrRef spec0 w ≠ r) :
    W2 (F := Ideal) m ρ c (Proc.devRef .tc r) = m ((c : Thread nD τ).loc r) :=
  (W2_of_ne m ρ c r h1).trans ((W1_of m ρ c r h0).trans rfl)

theorem W6_launch (r : Ref sig .tc) (h0 : r ∉ hostOps0_W) (h1 : ∀ w, Pipeline.arrRef spec0 w ≠ r)
    (h2 : r ∉ hostOps1_W) (h3 : ∀ w, Pipeline.arrRef spec1 w ≠ r) (h4 : r ∉ hostOps2_W) (h5 : ∀ w, Pipeline.arrRef spec2 w ≠ r) :
    W6 (F := Ideal) m ρ c (Proc.devRef .tc r) = m ((c : Thread nD τ).loc r) :=
  (W6_of_ne m ρ c r h5).trans ((W5_of m ρ c r h4).trans ((W4_of_ne m ρ c r h3).trans ((W3_of m ρ c r h2).trans (W2_launch m ρ c r h0 h1))))

/-- What the second host stretch wrote is still there when the attention region is entered. -/
theorem W5_of_W3 (r : Ref sig .tc) (h3 : ∀ w, Pipeline.arrRef spec1 w ≠ r) (h4 : r ∉ hostOps2_W) :
    W5 (F := Ideal) m ρ c (Proc.devRef .tc r) = W3 m ρ c (Proc.devRef .tc r) :=
  (W5_of m ρ c r h4).trans (W4_of_ne m ρ c r h3)

/-! ## The first host stretch -/

theorem W1_v0 : W1 (F := Ideal) m ρ c (Proc.devRef .tc main_v0)
    = shapeCast S2048x2048 (m ((c : Thread nD τ).loc main_arg0)) shapeCasts_S1x2048x2048_S2048x2048 := by
  show StableHlo.after hostOps0 _ _ = _
  after_results
  all_goals rfl

/-- The hidden states as the first kernel finds them. -/
theorem rd_v0 : Cert.Spec.rd2 (W1 (F := Ideal) m ρ c (Proc.devRef .tc main_v0)) = Cert.Spec.rd3 (m ((c : Thread nD τ).loc main_arg0)) := by
  funext s k
  exact (congrFun (W1_v0 m ρ c) (ix2 s k)).trans (shapeCast_1ab_ab_apply _ _ s k)

theorem W1_v1 : W1 (F := Ideal) m ρ c (Proc.devRef .tc main_v1)
    = concatenate S3072x2048 0 [⟨S2048x2048, m ((c : Thread nD τ).loc main_arg4)⟩, ⟨S512x2048, m ((c : Thread nD τ).loc main_arg5)⟩,
        ⟨S512x2048, m ((c : Thread nD τ).loc main_arg6)⟩] concatenates_S2048x2048_S512x2048_S512x2048_S3072x2048_d0 := by
  show StableHlo.after hostOps0 _ _ = _
  after_results
  all_goals rfl

/-- Rows 0 … 2047 of the stacked weights are the query weights. -/
theorem cat_q (n : Fin 2048) (k : Fin 2048) :
    Cert.Spec.rd2 (W1 (F := Ideal) m ρ c (Proc.devRef .tc main_v1)) (⟨n.val, by omega⟩ : Fin 3072) k
      = Cert.Spec.rd2 (m ((c : Thread nD τ).loc main_arg4)) n k := by
  refine (congrFun (W1_v1 m ρ c) (ix2 (⟨n.val, by omega⟩ : Fin 3072) k)).trans ?_
  exact concatenate_apply_piece 0 [⟨S2048x2048, m ((c : Thread nD τ).loc main_arg4)⟩, ⟨S512x2048, m ((c : Thread nD τ).loc main_arg5)⟩, ⟨S512x2048, m ((c : Thread nD τ).loc main_arg6)⟩] _ (ix2 (⟨n.val, by omega⟩ : Fin 3072) k) 0 (by show (0 : Nat) < 3; decide) S2048x2048 _ rfl rfl 0 rfl (ix2 n k)
    (fun b hb => by match b with | ⟨0, _⟩ => exact absurd rfl hb | ⟨1, _⟩ => rfl) (by show 0 + n.val = n.val; omega)

/-- Rows 2048 … 2559 are the key weights. -/
theorem cat_k (n : Fin 512) (k : Fin 2048) :
    Cert.Spec.rd2 (W1 (F := Ideal) m ρ c (Proc.devRef .tc main_v1)) (⟨2048 + n.val, by omega⟩ : Fin 3072) k
      = Cert.Spec.rd2 (m ((c : Thread nD τ).loc main_arg5)) n k := by
  refine (congrFun (W1_v1 m ρ c) (ix2 (⟨2048 + n.val, by omega⟩ : Fin 3072) k)).trans ?_
  exact concatenate_apply_piece 0 [⟨S2048x2048, m ((c : Thread nD τ).loc main_arg4)⟩, ⟨S512x2048, m ((c : Thread nD τ).loc main_arg5)⟩, ⟨S512x2048, m ((c : Thread nD τ).loc main_arg6)⟩] _ (ix2 (⟨2048 + n.val, by omega⟩ : Fin 3072) k) 1 (by show (1 : Nat) < 3; decide) S512x2048 _ rfl rfl 2048 rfl (ix2 n k)
    (fun b hb => by match b with | ⟨0, _⟩ => exact absurd rfl hb | ⟨1, _⟩ => rfl) (by rfl)

/-- Rows 2560 … 3071 are the value weights. -/
theorem cat_v (n : Fin 512) (k : Fin 2048) :
    Cert.Spec.rd2 (W1 (F := Ideal) m ρ c (Proc.devRef .tc main_v1)) (⟨2560 + n.val, by omega⟩ : Fin 3072) k
      = Cert.Spec.rd2 (m ((c : Thread nD τ).loc main_arg6)) n k := by
  refine (congrFun (W1_v1 m ρ c) (ix2 (⟨2560 + n.val, by omega⟩ : Fin 3072) k)).trans ?_
  exact concatenate_apply_piece 0 [⟨S2048x2048, m ((c : Thread nD τ).loc main_arg4)⟩, ⟨S512x2048, m ((c : Thread nD τ).loc main_arg5)⟩, ⟨S512x2048, m ((c : Thread nD τ).loc main_arg6)⟩] _ (ix2 (⟨2560 + n.val, by omega⟩ : Fin 3072) k) 2 (by show (2 : Nat) < 3; decide) S512x2048 _ rfl rfl 2560 rfl (ix2 n k)
    (fun b hb => by match b with | ⟨0, _⟩ => exact absurd rfl hb | ⟨1, _⟩ => rfl) (by rfl)

/-! ## The second host stretch -/

theorem W3_v3 : W3 (F := Ideal) m ρ c (Proc.devRef .tc main_v3)
    = extractStridedSlice S2048x2048 ![0, 0] (W2 (F := Ideal) m ρ c (Proc.devRef .tc main_v2)) slices_S2048x3072_S2048x2048_0_0 := by
  show StableHlo.after hostOps1 _ _ = _
  after_results
  all_goals rfl
theorem W3_v4 : W3 (F := Ideal) m ρ c (Proc.devRef .tc main_v4)
    = extractStridedSlice S2048x512 ![0, 2048] (W2 (F := Ideal) m ρ c (Proc.devRef .tc main_v2)) slices_S2048x3072_S2048x512_0_2048 := by
  show StableHlo.after hostOps1 _ _ = _
  after_results
  all_goals rfl
theorem W3_v5 : W3 (F := Ideal) m ρ c (Proc.devRef .tc main_v5)
    = extractStridedSlice S2048x512 ![0, 2560] (W2 (F := Ideal) m ρ c (Proc.devRef .tc main_v2)) slices_S2048x3072_S2048x512_0_2560 := by
  show StableHlo.after hostOps1 _ _ = _
  after_results
  all_goals rfl

/-- The query columns of the stacked projection. -/
theorem rd_v3 (s : Fin 2048) (n : Fin 2048) :
    Cert.Spec.rd2 (W3 (F := Ideal) m ρ c (Proc.devRef .tc main_v3)) s n
      = Cert.Spec.rd2 (W2 (F := Ideal) m ρ c (Proc.devRef .tc main_v2)) s (⟨n.val, by omega⟩ : Fin 3072) :=
  (congrFun (W3_v3 m ρ c) (ix2 s n)).trans (slice2_axis1_apply 0 _ _ s n _ (by show n.val = 0 + n.val; omega))
/-- The key columns. -/
theorem rd_v4 (s : Fin 2048) (n : Fin 512) :
    Cert.Spec.rd2 (W3 (F := Ideal) m ρ c (Proc.devRef .tc main_v4)) s n
      = Cert.Spec.rd2 (W2 (F := Ideal) m ρ c (Proc.devRef .tc main_v2)) s (⟨2048 + n.val, by omega⟩ : Fin 3072) :=
  (congrFun (W3_v4 m ρ c) (ix2 s n)).trans (slice2_axis1_apply 2048 _ _ s n _ rfl)
/-- The value columns. -/
theorem rd_v5 (s : Fin 2048) (n : Fin 512) :
    Cert.Spec.rd2 (W3 (F := Ideal) m ρ c (Proc.devRef .tc main_v5)) s n
      = Cert.Spec.rd2 (W2 (F := Ideal) m ρ c (Proc.devRef .tc main_v2)) s (⟨2560 + n.val, by omega⟩ : Fin 3072) :=
  (congrFun (W3_v5 m ρ c) (ix2 s n)).trans (slice2_axis1_apply 2560 _ _ s n _ rfl)

theorem W3_v6 : W3 (F := Ideal) m ρ c (Proc.devRef .tc main_v6)
    = shapeCast S2048x64 (W2 (F := Ideal) m ρ c (Proc.devRef .tc main_arg1)) shapeCasts_S1x2048x64_S2048x64 := by
  show StableHlo.after hostOps1 _ _ = _
  after_results
  all_goals rfl
theorem W3_v7 : W3 (F := Ideal) m ρ c (Proc.devRef .tc main_v7)
    = shapeCast S2048x64 (W2 (F := Ideal) m ρ c (Proc.devRef .tc main_arg2)) shapeCasts_S1x2048x64_S2048x64 := by
  show StableHlo.after hostOps1 _ _ = _
  after_results
  all_goals rfl
theorem W3_v8 : W3 (F := Ideal) m ρ c (Proc.devRef .tc main_v8)
    = shapeCast S2048x2048 (W2 (F := Ideal) m ρ c (Proc.devRef .tc main_arg3)) shapeCasts_S1x1x2048x2048_S2048x2048 := by
  show StableHlo.after hostOps1 _ _ = _
  after_results
  all_goals rfl

/-- The cosine table as the kernels find it. -/
theorem rd_v6 : Cert.Spec.rd2 (W3 (F := Ideal) m ρ c (Proc.devRef .tc main_v6)) = Cert.Spec.rd3 (m ((c : Thread nD τ).loc main_arg1)) := by
  funext s d
  refine (congrFun (W3_v6 m ρ c) (ix2 s d)).trans ((shapeCast_1ab_ab_apply _ _ s d).trans ?_)
  exact congrFun (W2_launch m ρ c main_arg1 (by decide) (by decide)) _
/-- The sine table. -/
theorem rd_v7 : Cert.Spec.rd2 (W3 (F := Ideal) m ρ c (Proc.devRef .tc main_v7)) = Cert.Spec.rd3 (m ((c : Thread nD τ).loc main_arg2)) := by
  funext s d
  refine (congrFun (W3_v7 m ρ c) (ix2 s d)).trans ((shapeCast_1ab_ab_apply _ _ s d).trans ?_)
  exact congrFun (W2_launch m ρ c main_arg2 (by decide) (by decide)) _
/-- The mask. -/
theorem rd_v8 : Cert.Spec.rd2 (W3 (F := Ideal) m ρ c (Proc.devRef .tc main_v8)) = Cert.Spec.rd4 (m ((c : Thread nD τ).loc main_arg3)) := by
  funext s t
  refine (congrFun (W3_v8 m ρ c) (ix2 s t)).trans ((shapeCast_apply _ _ _ (ix4 (0 : Fin 1) (0 : Fin 1) s t) ?_).trans ?_)
  · rw [Shape.rowMajor_val_four, Shape.rowMajor_val_two]
    show ((0 * 1 + 0) * 2048 + s.val) * 2048 + t.val = s.val * 2048 + t.val
    omega
  · exact congrFun (W2_launch m ρ c main_arg3 (by decide) (by decide)) _

/-! ## The third host stretch -/

theorem W5_v12 : W5 (F := Ideal) m ρ c (Proc.devRef .tc main_v12)
    = (truncf (F := Ideal) .bf16 (transpose S8x2048x64 [1, 0, 2] (shapeCast S2048x8x64 (W4 (F := Ideal) m ρ c (Proc.devRef .tc main_v5) : FVec Ideal S2048x512 .f32) shapeCasts_S2048x512_S2048x8x64)
        transposes_S2048x8x64_S8x2048x64_1_0_2 : FVec Ideal S8x2048x64 .f32) bitsLt_bf16_f32 : FVec Ideal S8x2048x64 .bf16) := by
  show StableHlo.after hostOps2 _ _ = _
  after_results
  all_goals rfl

/-- The values of head `g` at position `t`, lane `d`, are column `64 g + d` of the value projection at row `t`. -/
theorem rd_v12 (g : Fin 8) (t : Fin 2048) (d : Fin 64) :
    (W5 (F := Ideal) m ρ c (Proc.devRef .tc main_v12) : S8x2048x64.Idx → EReal) (ix3 g t d)
      = Cert.Spec.rd2 (W3 (F := Ideal) m ρ c (Proc.devRef .tc main_v5)) t (Cert.Spec.lane8 g d) := by
  refine (congrFun (W5_v12 m ρ c) (ix3 g t d)).trans ?_
  show (transpose S8x2048x64 [1, 0, 2] (shapeCast S2048x8x64 (W4 (F := Ideal) m ρ c (Proc.devRef .tc main_v5) : FVec Ideal S2048x512 .f32) shapeCasts_S2048x512_S2048x8x64)
    transposes_S2048x8x64_S8x2048x64_1_0_2 : FVec Ideal S8x2048x64 .f32) (ix3 g t d) = _
  refine (transpose_apply (s := S2048x8x64) (t := S8x2048x64) [1, 0, 2] _ transposes_S2048x8x64_S8x2048x64_1_0_2 (ix3 g t d) (ix3 t g d)
    (fun b => by match b with | ⟨0, _⟩ => rfl | ⟨1, _⟩ => rfl | ⟨2, _⟩ => rfl)).trans ?_
  refine (shapeCast_apply _ _ _ (ix2 t (Cert.Spec.lane8 g d)) ?_).trans ?_
  · rw [Shape.rowMajor_val_three, Shape.rowMajor_val_two]
    show t.val * 512 + (g.val * 64 + d.val) = (t.val * 8 + g.val) * 64 + d.val
    omega
  · exact congrFun (W4_of_ne m ρ c main_v5 (by decide)) _

/-! ## The last host stretch -/

theorem W8_v15 : W8 (F := Ideal) m ρ c (Proc.devRef .tc main_v15)
    = broadcastInDim S1x2048x2048 ![1, 2] bcast_S2048x2048_S1x2048x2048_1_2 (W7 (F := Ideal) m ρ c (Proc.devRef .tc main_v14)) := by
  show StableHlo.after hostOps4 _ _ = _
  after_results
  all_goals rfl
theorem W8_v16 : W8 (F := Ideal) m ρ c (Proc.devRef .tc main_v16)
    = broadcastInDim S1x32x2048x2048 ![1, 2, 3] bcast_S32x2048x2048_S1x32x2048x2048_1_2_3 (W7 (F := Ideal) m ρ c (Proc.devRef .tc main_v13_0)) := by
  show StableHlo.after hostOps4 _ _ = _
  after_results
  all_goals rfl

/-- The first result is the output projection with a unit axis in front. -/
theorem rd_v15 (u : Fin 1) (s j : Fin 2048) :
    (W8 (F := Ideal) m ρ c (Proc.devRef .tc main_v15) : S1x2048x2048.Idx → EReal) (ix3 u s j)
      = Cert.Spec.rd2 (W7 (F := Ideal) m ρ c (Proc.devRef .tc main_v14)) s j :=
  (congrFun (W8_v15 m ρ c) (ix3 u s j)).trans
    (broadcastInDim_apply (s := S2048x2048) (t := S1x2048x2048) ![1, 2] bcast_S2048x2048_S1x2048x2048_1_2 _ (ix3 u s j) (ix2 s j)
      (fun a => by match a with | ⟨0, _⟩ => rfl | ⟨1, _⟩ => rfl))
/-- The second result is the attention weights with a unit axis in front. -/
theorem rd_v16 (u : Fin 1) (h : Fin 32) (s t : Fin 2048) :
    (W8 (F := Ideal) m ρ c (Proc.devRef .tc main_v16) : S1x32x2048x2048.Idx → EReal) (ix4 u h s t)
      = (W6 (F := Ideal) m ρ c (Proc.devRef .tc main_v13_0) : S32x2048x2048.Idx → EReal) (ix3 h s t) :=
  (congrFun (W8_v16 m ρ c) (ix4 u h s t)).trans
    ((broadcastInDim_apply (s := S32x2048x2048) (t := S1x32x2048x2048) ![1, 2, 3] bcast_S32x2048x2048_S1x32x2048x2048_1_2_3 _ (ix4 u h s t) (ix3 h s t)
      (fun a => by match a with | ⟨0, _⟩ => rfl | ⟨1, _⟩ => rfl | ⟨2, _⟩ => rfl)).trans
      (congrFun (W7_of_ne m ρ c main_v13_0 (by decide)) _))

end Cert.KernelIdeal.KBridge

end
-- ==== Proof.ValMM.lean ====
/-
  The two tiled matrix products of the attention program, each read as ONE function of the two arrays its region
  finds: the stacked query/key/value projection (region 0: a 2048 × 2048 array of hidden states against the
  3072 × 2048 stacked weights, in 512 × 512 output tiles over a 4 × 6 grid) and the output projection (region 3: the
  2048 × 2048 context against the 2048 × 2048 output weights, 4 × 4 tiles).

  Each grid point multiplies a 512-row block of the first array by a 512-row block of the second along their common
  second axis (2048 long, never cut), so entry (r, n) of a tile is row r of the first block against row n of the second,
  summed over the 2048 features; the narrowing of the operands to bf16 is the identity on extended reals and the
  accumulator is the zero tile. A tile at block index (p, q) sits at rows 512 p … and columns 512 q … of the result,
  its first operand at rows 512 p … of the first array and its second at rows 512 q … of the second, so the tile is
  the restriction of one whole-array function; the tiles cover the result, which therefore ends holding that function.
-/
import proofs.«162642_j16423954940491_2_alg».proof.Proof.FrDefs
import proofs.«162642_j16423954940491_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.KVal

open Idealize.ShloMosaic Idealize.ShloMosaic.TcCoe Idealize.SL.Sem
open Idealize.ShloMosaic.Pipeline (Dat)
open Cert.KernelIdeal Cert.KernelIdeal.Gen Cert.KernelIdeal.Fr Idealize.ShloMosaic.ValueIdx

/-- Two zero offsets, however spelt. -/
theorem hz2 : (![0, 0] : Fin 2 → Nat) = fun _ => 0 := funext fun a => by fin_cases a <;> rfl

/-- A product of two 512 × 2048 blocks along their second axes, into the zero tile, at an entry: row a of the
    first against row b of the second. -/
theorem mm_apply {φ₁ φ₂ : FTy} (A : FVec Ideal S512x2048 φ₁) (B : FVec Ideal S512x2048 φ₂) (a b : Fin 512) :
    matmul dot_S512x2048_S512x2048_S512x512_1_1_0_0_n_n none A B (constant (F := Ideal) S512x512 .f32 0x00000000#32) (ix2 a b)
      = ∑ k : Fin 2048, A (ix2 a k) * B (ix2 b k) := by
  show FloatOps.matmul _ none A B _ (ix2 a b) = _
  rw [Ideal.matmul_constant_zero_apply,
    ← Equiv.sum_comp (contrEquiv1 dot_S512x2048_S512x2048_S512x512_1_1_0_0_n_n 2048 rfl rfl).symm]
  refine Finset.sum_congr rfl fun k _ => ?_
  have c2 := contrEquiv1_symm_val dot_S512x2048_S512x2048_S512x512_1_1_0_0_n_n 2048 rfl rfl k
  have l2 : dot_S512x2048_S512x2048_S512x512_1_1_0_0_n_n.lhsIdx (ix2 a b) ((contrEquiv1 _ 2048 rfl rfl).symm k) = ix2 a k := by
    funext ax; apply Fin.ext
    match ax with
    | ⟨0, _⟩ => simp [DotDims.lhsIdx, dot_S512x2048_S512x2048_S512x512_1_1_0_0_n_n]; rfl
    | ⟨1, _⟩ => simp [DotDims.lhsIdx, dot_S512x2048_S512x2048_S512x512_1_1_0_0_n_n]; exact c2
  have r2 : dot_S512x2048_S512x2048_S512x512_1_1_0_0_n_n.rhsIdx (ix2 a b) ((contrEquiv1 _ 2048 rfl rfl).symm k) = ix2 b k := by
    funext ax; apply Fin.ext
    match ax with
    | ⟨0, _⟩ => simp [DotDims.rhsIdx, dot_S512x2048_S512x2048_S512x512_1_1_0_0_n_n]; rfl
    | ⟨1, _⟩ => simp [DotDims.rhsIdx, dot_S512x2048_S512x2048_S512x512_1_1_0_0_n_n]; exact c2
  rw [l2, r2]

variable (V : (c : Dev nD) → (b : Ref sig .tc) → Buf (Elt Ideal) ((c : Thread nD τ).loc b))

/-- The first projection's payload at an entry of its tile: row a of the first block against row b of the second
    (the shape casts are to the same shape and the narrowing to bf16 is the identity on extended reals). -/
theorem pay0_apply (x0 x1 : Vec Ideal S512x2048 .f32) (a b : Fin 512) :
    k0_pay1 (F := Ideal) x0 x1 (ix2 a b) = ∑ k : Fin 2048, x0 (ix2 a k) * x1 (ix2 b k) := by
  unfold k0_pay1
  refine (mm_apply _ _ a b).trans (Finset.sum_congr rfl fun k _ => ?_)
  rw [truncf_apply, truncf_apply, shapeCast_self, shapeCast_self]

/-- The same at any entry of the tile, the two coordinates named as numbers below 512. -/
theorem pay0_at (x0 x1 : Vec Ideal S512x2048 .f32) (y : S512x512.Idx) :
    k0_pay1 (F := Ideal) x0 x1 y
      = ∑ k : Fin 2048, x0 (ix2 (⟨(y 0).val, idx2_lt0 y⟩ : Fin 512) k) * x1 (ix2 (⟨(y 1).val, idx2_lt1 y⟩ : Fin 512) k) := by
  obtain ⟨a, b, rfl⟩ : ∃ (a b : Fin 512), y = ix2 a b := ⟨y 0, y 1, eq_ix2 y⟩
  exact pay0_apply x0 x1 a b

/-- The stacked projection as one function of the two arrays region 0 finds: position i₀ against stacked weight row i₁. -/
def G0 (c : Dev nD) : S2048x3072.Idx → EReal := fun i =>
  Cert.Spec.proj (Cert.Spec.rd2 (V c main_v0)) (Cert.Spec.rd2 (V c main_v1))
    (⟨(i 0).val, idx2_lt0 i⟩ : Fin 2048) (⟨(i 1).val, idx2_lt1 i⟩ : Fin 3072)

/-- The index maps of region 0 over its 4 × 6 grid: the hidden-state block follows the output's row block, the weight
    block the output's column block, both span the whole contracted axis. -/
theorem idx_facts0 : ∀ t : Fin cfg0.N, win0_0.index t (0 : Fin 2) = win0_2.index t (0 : Fin 2)
    ∧ win0_0.index t (1 : Fin 2) = 0
    ∧ win0_1.index t (0 : Fin 2) = win0_2.index t (1 : Fin 2)
    ∧ win0_1.index t (1 : Fin 2) = 0
    ∧ win0_2.index t (0 : Fin 2) ≤ 3 ∧ win0_2.index t (1 : Fin 2) ≤ 5 :=
  (by decide +kernel : ∀ t : Fin grid0.N, _)

/-- Every one of the 4 × 6 output tiles is some grid point's. -/
theorem idx_onto0 : ∀ (q0 : Fin 4) (q1 : Fin 6), ∃ t : Fin cfg0.N, win0_2.index t = ![q0.val, q1.val] :=
  (by decide +kernel : ∀ (q0 : Fin 4) (q1 : Fin 6), ∃ t : Fin grid0.N, win0_2.index t = ![q0.val, q1.val])

/-- An input block of region 0 at a point, read at an entry, is its array at the block's offset plus the entry. -/
theorem iblk0_0_apply (c : Dev nD) (t : Fin cfg0.N) (x : S512x2048.Idx) (i : S2048x2048.Idx)
    (h0 : (i 0).val = win0_0.index t 0 * 512 + (x 0).val) (h1 : (i 1).val = win0_0.index t 1 * 2048 + (x 1).val) :
    (iblk0 V c 0 t : Vec Ideal S512x2048 .f32) x = (V c main_v0 : S2048x2048.Idx → EReal) i := by
  unfold iblk0
  rw [View.read_apply]
  show V c main_v0 _ = V c main_v0 _
  congr 1
  funext a
  apply Fin.ext
  match a with
  | ⟨0, _⟩ => show win0_0.index t 0 * 512 + 1 * (x 0).val = (i 0).val; omega
  | ⟨1, _⟩ => show win0_0.index t 1 * 2048 + 1 * (x 1).val = (i 1).val; omega

/-- The weight block likewise. -/
theorem iblk0_1_apply (c : Dev nD) (t : Fin cfg0.N) (x : S512x2048.Idx) (i : S3072x2048.Idx)
    (h0 : (i 0).val = win0_1.index t 0 * 512 + (x 0).val) (h1 : (i 1).val = win0_1.index t 1 * 2048 + (x 1).val) :
    (iblk0 V c 1 t : Vec Ideal S512x2048 .f32) x = (V c main_v1 : S3072x2048.Idx → EReal) i := by
  unfold iblk0
  rw [View.read_apply]
  show V c main_v1 _ = V c main_v1 _
  congr 1
  funext a
  apply Fin.ext
  match a with
  | ⟨0, _⟩ => show win0_1.index t 0 * 512 + 1 * (x 0).val = (i 0).val; omega
  | ⟨1, _⟩ => show win0_1.index t 1 * 2048 + 1 * (x 1).val = (i 1).val; omega

/-- What point t writes back is tile t of the stacked projection. -/
theorem flushed0 (c : Dev nD) (t : Fin cfg0.N) :
    (dat0 (F := Ideal) V c).flushed 2 t = ((cfg0.win 2).blk t).view.read (Elt Ideal) (G0 V c) := by
  show (cfg0.win 2).cut (grid0.coords t) ((dat0 (F := Ideal) V c).after 2 t) = _
  rw [after0_2]
  unfold out0_2
  rw [View.canon_unit_zero hz2]
  simp only [View.ld_unit_zero (S := S512x2048) hz2]
  obtain ⟨e0, e1, e2, e3, e4, e5⟩ := idx_facts0 t
  funext y
  show k0_pay1 (F := Ideal) (iblk0 V c 0 t) (iblk0 V c 1 t) y = G0 V c (((cfg0.win 2).blk t).view.emb y)
  refine (pay0_at _ _ y).trans ?_
  unfold G0 Cert.Spec.proj Cert.Spec.rd2
  refine Finset.sum_congr rfl fun k _ => ?_
  have hy0 : (y 0).val < 512 := (y 0).isLt
  have hy1 : (y 1).val < 512 := (y 1).isLt
  have E0 : ((((cfg0.win 2).blk t).view.emb y) 0).val = win0_2.index t (0 : Fin 2) * 512 + 1 * (y 0).val := rfl
  have E1 : ((((cfg0.win 2).blk t).view.emb y) 1).val = win0_2.index t (1 : Fin 2) * 512 + 1 * (y 1).val := rfl
  refine congrArg₂ (· * ·) ?_ ?_
  · refine iblk0_0_apply V c t _ _ ?_ ?_
    · show win0_2.index t (0 : Fin 2) * 512 + 1 * (y 0).val = win0_0.index t 0 * 512 + (y 0).val; omega
    · show k.val = win0_0.index t 1 * 2048 + k.val; omega
  · refine iblk0_1_apply V c t _ _ ?_ ?_
    · show win0_2.index t (1 : Fin 2) * 512 + 1 * (y 1).val = win0_1.index t 0 * 512 + (y 1).val; omega
    · show k.val = win0_1.index t 1 * 2048 + k.val; omega

/-- An index of the stacked projection is in point t's tile iff each coordinate is in the tile's range. -/
theorem mem_blk0 (t : Fin cfg0.N) (i : S2048x3072.Idx) :
    i ∈ ((cfg0.win 2).blk t).view.set ↔ ∀ a : Fin 2, win0_2.index t a * S512x512.size a ≤ (i a).val ∧ (i a).val < win0_2.index t a * S512x512.size a + S512x512.size a := by
  show i ∈ ((View.whole main_v2).slice (win0_2.rect t)).set ↔ _
  rw [View.set_slice_whole, Rect.mem_set_unit]
  exact Iff.rfl

/-- The 4 × 6 tiles cover the array: entry (r, n) is in tile (r / 512, n / 512). -/
theorem cover0 (i : S2048x3072.Idx) : ∃ t : Fin cfg0.N, (cfg0.win 2).flush t = true ∧ i ∈ ((cfg0.win 2).blk t).view.set := by
  have hi0 : (i 0).val < 2048 := (i 0).isLt
  have hi1 : (i 1).val < 3072 := (i 1).isLt
  obtain ⟨t, ht⟩ := idx_onto0 ⟨(i 0).val / 512, by omega⟩ ⟨(i 1).val / 512, by omega⟩
  have q0 : win0_2.index t (0 : Fin 2) = (i 0).val / 512 := congrFun ht 0
  have q1 : win0_2.index t (1 : Fin 2) = (i 1).val / 512 := congrFun ht 1
  refine ⟨t, flush0_2 t, ?_⟩
  rw [mem_blk0]
  intro a
  match a with
  | ⟨0, _⟩ => show win0_2.index t (0 : Fin 2) * 512 ≤ (i 0).val ∧ (i 0).val < win0_2.index t (0 : Fin 2) * 512 + 512; omega
  | ⟨1, _⟩ => show win0_2.index t (1 : Fin 2) * 512 ≤ (i 1).val ∧ (i 1).val < win0_2.index t (1 : Fin 2) * 512 + 512; omega

/-- Region 0 leaves the stacked projection in its output array. -/
theorem final0_fun (c : Dev nD) : (dat0 (F := Ideal) V c).arrAt 2 cfg0.N = G0 V c :=
  (dat0 (F := Ideal) V c).arrAt_eq_of_cover 2 (G0 V c) (fun t _ => flushed0 V c t) (cover0)

/-- Entry (s, j) of the stacked projection: hidden-state row s against stacked weight row j. -/
theorem final0 (c : Dev nD) (s : Fin 2048) (j : Fin 3072) :
    (dat0 (F := Ideal) V c).arrAt 2 cfg0.N (ix2 s j)
      = Cert.Spec.proj (Cert.Spec.rd2 (V c main_v0)) (Cert.Spec.rd2 (V c main_v1)) s j := by
  rw [final0_fun]
  rfl

/-! ## Region 3: the output projection -/

/-- The output projection's payload at an entry of its tile: row a of the context block (already bf16) against row b
    of the weight block. -/
theorem pay3_apply (x0 : Vec Ideal S512x2048 .bf16) (x1 : Vec Ideal S512x2048 .f32) (a b : Fin 512) :
    k3_pay1 (F := Ideal) x0 x1 (ix2 a b) = ∑ k : Fin 2048, x0 (ix2 a k) * x1 (ix2 b k) := by
  unfold k3_pay1
  refine (mm_apply _ _ a b).trans (Finset.sum_congr rfl fun k _ => ?_)
  rw [truncf_apply, shapeCast_self]

/-- The same at any entry of the tile, the two coordinates named as numbers below 512. -/
theorem pay3_at (x0 : Vec Ideal S512x2048 .bf16) (x1 : Vec Ideal S512x2048 .f32) (y : S512x512.Idx) :
    k3_pay1 (F := Ideal) x0 x1 y
      = ∑ k : Fin 2048, x0 (ix2 (⟨(y 0).val, idx2_lt0 y⟩ : Fin 512) k) * x1 (ix2 (⟨(y 1).val, idx2_lt1 y⟩ : Fin 512) k) := by
  obtain ⟨a, b, rfl⟩ : ∃ (a b : Fin 512), y = ix2 a b := ⟨y 0, y 1, eq_ix2 y⟩
  exact pay3_apply x0 x1 a b

/-- The output projection as one function of the two arrays region 3 finds: context row i₀ against output weight row i₁. -/
def G3 (c : Dev nD) : S2048x2048.Idx → EReal := fun i =>
  Cert.Spec.proj (Cert.Spec.rd2 (V c main_v13_1)) (Cert.Spec.rd2 (V c main_arg7))
    (⟨(i 0).val, idx2_lt0 i⟩ : Fin 2048) (⟨(i 1).val, idx2_lt1 i⟩ : Fin 2048)

/-- The index maps of region 3 over its 4 × 4 grid: the context block follows the output's row block, the weight
    block the output's column block, both span the whole contracted axis. -/
theorem idx_facts3 : ∀ t : Fin cfg3.N, win3_0.index t (0 : Fin 2) = win3_2.index t (0 : Fin 2)
    ∧ win3_0.index t (1 : Fin 2) = 0
    ∧ win3_1.index t (0 : Fin 2) = win3_2.index t (1 : Fin 2)
    ∧ win3_1.index t (1 : Fin 2) = 0
    ∧ win3_2.index t (0 : Fin 2) ≤ 3 ∧ win3_2.index t (1 : Fin 2) ≤ 3 :=
  (by decide +kernel : ∀ t : Fin grid3.N, _)

/-- Every one of the 4 × 4 output tiles is some grid point's. -/
theorem idx_onto3 : ∀ (q0 : Fin 4) (q1 : Fin 4), ∃ t : Fin cfg3.N, win3_2.index t = ![q0.val, q1.val] :=
  (by decide +kernel : ∀ (q0 : Fin 4) (q1 : Fin 4), ∃ t : Fin grid3.N, win3_2.index t = ![q0.val, q1.val])

/-- An input block of region 3 at a point, read at an entry, is its array at the block's offset plus the entry. -/
theorem iblk3_0_apply (c : Dev nD) (t : Fin cfg3.N) (x : S512x2048.Idx) (i : S2048x2048.Idx)
    (h0 : (i 0).val = win3_0.index t 0 * 512 + (x 0).val) (h1 : (i 1).val = win3_0.index t 1 * 2048 + (x 1).val) :
    (iblk3 V c 0 t : Vec Ideal S512x2048 .bf16) x = (V c main_v13_1 : S2048x2048.Idx → EReal) i := by
  unfold iblk3
  rw [View.read_apply]
  show V c main_v13_1 _ = V c main_v13_1 _
  congr 1
  funext a
  apply Fin.ext
  match a with
  | ⟨0, _⟩ => show win3_0.index t 0 * 512 + 1 * (x 0).val = (i 0).val; omega
  | ⟨1, _⟩ => show win3_0.index t 1 * 2048 + 1 * (x 1).val = (i 1).val; omega

/-- The weight block likewise. -/
theorem iblk3_1_apply (c : Dev nD) (t : Fin cfg3.N) (x : S512x2048.Idx) (i : S2048x2048.Idx)
    (h0 : (i 0).val = win3_1.index t 0 * 512 + (x 0).val) (h1 : (i 1).val = win3_1.index t 1 * 2048 + (x 1).val) :
    (iblk3 V c 1 t : Vec Ideal S512x2048 .f32) x = (V c main_arg7 : S2048x2048.Idx → EReal) i := by
  unfold iblk3
  rw [View.read_apply]
  show V c main_arg7 _ = V c main_arg7 _
  congr 1
  funext a
  apply Fin.ext
  match a with
  | ⟨0, _⟩ => show win3_1.index t 0 * 512 + 1 * (x 0).val = (i 0).val; omega
  | ⟨1, _⟩ => show win3_1.index t 1 * 2048 + 1 * (x 1).val = (i 1).val; omega

/-- What point t writes back is tile t of the output projection. -/
theorem flushed3 (c : Dev nD) (t : Fin cfg3.N) :
    (dat3 (F := Ideal) V c).flushed 2 t = ((cfg3.win 2).blk t).view.read (Elt Ideal) (G3 V c) := by
  show (cfg3.win 2).cut (grid3.coords t) ((dat3 (F := Ideal) V c).after 2 t) = _
  rw [after3_2]
  unfold out3_2
  rw [View.canon_unit_zero hz2]
  simp only [View.ld_unit_zero (S := S512x2048) hz2]
  obtain ⟨e0, e1, e2, e3, e4, e5⟩ := idx_facts3 t
  funext y
  show k3_pay1 (F := Ideal) (iblk3 V c 0 t) (iblk3 V c 1 t) y = G3 V c (((cfg3.win 2).blk t).view.emb y)
  refine (pay3_at _ _ y).trans ?_
  unfold G3 Cert.Spec.proj Cert.Spec.rd2
  refine Finset.sum_congr rfl fun k _ => ?_
  have hy0 : (y 0).val < 512 := (y 0).isLt
  have hy1 : (y 1).val < 512 := (y 1).isLt
  have E0 : ((((cfg3.win 2).blk t).view.emb y) 0).val = win3_2.index t (0 : Fin 2) * 512 + 1 * (y 0).val := rfl
  have E1 : ((((cfg3.win 2).blk t).view.emb y) 1).val = win3_2.index t (1 : Fin 2) * 512 + 1 * (y 1).val := rfl
  refine congrArg₂ (· * ·) ?_ ?_
  · refine iblk3_0_apply V c t _ _ ?_ ?_
    · show win3_2.index t (0 : Fin 2) * 512 + 1 * (y 0).val = win3_0.index t 0 * 512 + (y 0).val; omega
    · show k.val = win3_0.index t 1 * 2048 + k.val; omega
  · refine iblk3_1_apply V c t _ _ ?_ ?_
    · show win3_2.index t (1 : Fin 2) * 512 + 1 * (y 1).val = win3_1.index t 0 * 512 + (y 1).val; omega
    · show k.val = win3_1.index t 1 * 2048 + k.val; omega

/-- An index of the output projection is in point t's tile iff each coordinate is in the tile's range. -/
theorem mem_blk3 (t : Fin cfg3.N) (i : S2048x2048.Idx) :
    i ∈ ((cfg3.win 2).blk t).view.set ↔ ∀ a : Fin 2, win3_2.index t a * S512x512.size a ≤ (i a).val ∧ (i a).val < win3_2.index t a * S512x512.size a + S512x512.size a := by
  show i ∈ ((View.whole main_v14).slice (win3_2.rect t)).set ↔ _
  rw [View.set_slice_whole, Rect.mem_set_unit]
  exact Iff.rfl

/-- The 4 × 4 tiles cover the array: entry (r, n) is in tile (r / 512, n / 512). -/
theorem cover3 (i : S2048x2048.Idx) : ∃ t : Fin cfg3.N, (cfg3.win 2).flush t = true ∧ i ∈ ((cfg3.win 2).blk t).view.set := by
  have hi0 : (i 0).val < 2048 := (i 0).isLt
  have hi1 : (i 1).val < 2048 := (i 1).isLt
  obtain ⟨t, ht⟩ := idx_onto3 ⟨(i 0).val / 512, by omega⟩ ⟨(i 1).val / 512, by omega⟩
  have q0 : win3_2.index t (0 : Fin 2) = (i 0).val / 512 := congrFun ht 0
  have q1 : win3_2.index t (1 : Fin 2) = (i 1).val / 512 := congrFun ht 1
  refine ⟨t, flush3_2 t, ?_⟩
  rw [mem_blk3]
  intro a
  match a with
  | ⟨0, _⟩ => show win3_2.index t (0 : Fin 2) * 512 ≤ (i 0).val ∧ (i 0).val < win3_2.index t (0 : Fin 2) * 512 + 512; omega
  | ⟨1, _⟩ => show win3_2.index t (1 : Fin 2) * 512 ≤ (i 1).val ∧ (i 1).val < win3_2.index t (1 : Fin 2) * 512 + 512; omega

/-- Region 3 leaves the output projection in its output array. -/
theorem final3_fun (c : Dev nD) : (dat3 (F := Ideal) V c).arrAt 2 cfg3.N = G3 V c :=
  (dat3 (F := Ideal) V c).arrAt_eq_of_cover 2 (G3 V c) (fun t _ => flushed3 V c t) (cover3)

/-- Entry (s, j) of the output projection: context row s against output weight row j. -/
theorem final3 (c : Dev nD) (s : Fin 2048) (j : Fin 2048) :
    (dat3 (F := Ideal) V c).arrAt 2 cfg3.N (ix2 s j)
      = Cert.Spec.proj (Cert.Spec.rd2 (V c main_v13_1)) (Cert.Spec.rd2 (V c main_arg7)) s j := by
  rw [final3_fun]
  rfl

end Cert.KernelIdeal.KVal

end
-- ==== Proof.ValRope.lean ====
/-
  The key rotation of the attention program (region 1) read as ONE function of the three arrays its region finds: the
  2048 × 512 key projection and the 2048 × 64 cosine and sine tables.

  A grid point p (of 4) takes columns 128 p … 128 p + 127 of the key projection — the 64 features of key head 2 p and the
  64 of head 2 p + 1 — and the whole tables, and stores into slab h (of 2) of its 2 × 2048 × 64 output block the rotary
  embedding of head 2 p + h: at position t and lane d, x d · cos d + r d · sin d, where x is the head's 64 features at t
  and r is x's upper half subtracted from zero set in front of its lower half. On extended reals 0 − a = −a, so r is the
  half rotation of the specification, and the narrowing to bf16 is the identity. Block p sits at heads 2 p, 2 p + 1 of the
  8 × 2048 × 64 result, so each block is the restriction of one whole-array function; the four blocks cover the result.
-/
import proofs.«162642_j16423954940491_2_alg».proof.Proof.FrDefs
import proofs.«162642_j16423954940491_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.KVal

open Idealize.ShloMosaic Idealize.ShloMosaic.TcCoe Idealize.SL.Sem
open Idealize.ShloMosaic.Pipeline (Dat)
open Cert.KernelIdeal Cert.KernelIdeal.Gen Cert.KernelIdeal.Fr Idealize.ShloMosaic.ValueIdx

/-- Two zero offsets, however spelt. -/
theorem hz2_rope : (![0, 0] : Fin 2 → Nat) = fun _ => 0 := funext fun a => by fin_cases a <;> rfl

/-- Rotary embeddings agree when their three rows and the lane do. -/
theorem rope_congr {x x' c c' s s' : Fin 64 → EReal} {d d' : Fin 64} (hx : ∀ e, x e = x' e) (hc : ∀ e, c e = c' e)
    (hs : ∀ e, s e = s' e) (hd : d = d') : Cert.Spec.rope x c s d = Cert.Spec.rope x' c' s' d' := by
  rw [funext hx, funext hc, funext hs, hd]

/-- The half rotation as the kernel builds it from a 2048 × 64 array u: the upper 32 lanes subtracted from a zero splat, set
    in front of the lower 32 lanes. At position t and lane d it is the half rotation of row t of u. -/
theorem rotHalf_apply (u : FVec Ideal S2048x64 .f32) (z : Ideal .f32) (hz : z = 0)
    (h32 : S2048x64.Slices ![0, 32] S2048x32) (h0 : S2048x64.Slices ![0, 0] S2048x32)
    (hc : Shape.Concatenates [S2048x32, S2048x32] S2048x64 1) (t : Fin 2048) (d : Fin 64) :
    concatenate S2048x64 1 [⟨S2048x32, subf (broadcast S2048x32 z) (extractStridedSlice S2048x32 ![0, 32] u h32)⟩,
        ⟨S2048x32, extractStridedSlice S2048x32 ![0, 0] u h0⟩] hc (ix2 t d)
      = Cert.Spec.rot (fun d' => u (ix2 t d')) d := by
  unfold Cert.Spec.rot
  by_cases h : d.val < 32
  · rw [dif_pos h]
    refine (concatenate_pair_apply_left (t := S2048x64) (s₁ := S2048x32) (s₂ := S2048x32) (1 : Fin 2) _ _ hc (ix2 t d) rfl (ix2 t (⟨d.val, h⟩ : Fin 32)) (fun b => ?_)).trans ?_
    · match b with
      | ⟨0, _⟩ => rfl
      | ⟨1, _⟩ => rfl
    · rw [subf_apply, broadcast_apply, hz, zero_sub]
      refine congrArg Neg.neg ?_
      refine extractStridedSlice_apply ![0, 32] u h32 _ (ix2 t (⟨d.val + 32, by omega⟩ : Fin 64)) (fun a => ?_)
      match a with
      | ⟨0, _⟩ => show t.val = 0 + t.val; omega
      | ⟨1, _⟩ => show d.val + 32 = 32 + d.val; omega
  · rw [dif_neg h]
    have hd : d.val < 64 := d.isLt
    refine (concatenate_pair_apply_right (t := S2048x64) (s₁ := S2048x32) (s₂ := S2048x32) (1 : Fin 2) _ _ hc (ix2 t d) rfl rfl (ix2 t (⟨d.val - 32, by omega⟩ : Fin 32)) (fun b hb => ?_) ?_).trans ?_
    · match b with
      | ⟨0, _⟩ => rfl
      | ⟨1, _⟩ => exact absurd rfl hb
    · show d.val - 32 + 32 = d.val; omega
    · refine extractStridedSlice_apply ![0, 0] u h0 _ (ix2 t (⟨d.val - 32, by omega⟩ : Fin 64)) (fun a => ?_)
      match a with
      | ⟨0, _⟩ => show t.val = 0 + t.val; omega
      | ⟨1, _⟩ => show d.val - 32 = 0 + (d.val - 32); omega

/-- The 64 columns from column o on of the 2048 × 128 key block, at (t, d): column o + d. -/
theorem head_apply (x0 : Vec Ideal S2048x128 .f32) (o : Nat) (ho : o + 64 ≤ 128) (hs : S2048x128.ShapeCasts S2048x128)
    (hsl : S2048x128.Slices ![0, o] S2048x64) (t : Fin 2048) (d : Fin 64) :
    extractStridedSlice S2048x64 ![0, o] (shapeCast S2048x128 x0 hs) hsl (ix2 t d)
      = x0 (ix2 t (⟨o + d.val, by have := d.isLt; omega⟩ : Fin 128)) := by
  refine (extractStridedSlice_apply ![0, o] _ hsl (ix2 t d) (ix2 t (⟨o + d.val, by have := d.isLt; omega⟩ : Fin 128)) (fun a => ?_)).trans
    (congrFun (shapeCast_self x0 hs) _)
  match a with
  | ⟨0, _⟩ => show t.val = 0 + t.val; omega
  | ⟨1, _⟩ => rfl

/-- A result stored with a leading unit axis reads, at (0, t, d), the 2048 × 64 value at (t, d). -/
theorem addUnit_apply {α : Type} (v : S2048x64.Idx → α) (h : S2048x64.ShapeCasts S1x2048x64) (t : Fin 2048) (d : Fin 64) :
    shapeCast S1x2048x64 v h (ix3 (0 : Fin 1) t d) = v (ix2 t d) :=
  (shapeCast_addUnit_apply ![2048, 64] v h (ix3 (0 : Fin 1) t d)).trans
    (congrArg v (funext fun a => by match a with | ⟨0, _⟩ => rfl | ⟨1, _⟩ => rfl))

/-- The first head's payload at (0, t, d): the rotary embedding of columns 0 … 63 of row t of the key block with row t of
    the cosine and sine tables. -/
theorem pay4_apply (x0 : Vec Ideal S2048x128 .f32) (x1 x2 : Vec Ideal S2048x64 .f32) (t : Fin 2048) (d : Fin 64) :
    k1_pay4 (F := Ideal) x0 x1 x2 (ix3 (0 : Fin 1) t d)
      = Cert.Spec.rope (fun d' => x0 (ix2 t (⟨0 + d'.val, by have := d'.isLt; omega⟩ : Fin 128))) (fun d' => x1 (ix2 t d'))
          (fun d' => x2 (ix2 t d')) d := by
  unfold k1_pay4 k1_pay1 k1_pay2 k1_pay3
  refine (addUnit_apply _ _ t d).trans ?_
  unfold Cert.Spec.rope
  show (_ * _ + _ * _ : EReal) = _
  refine congrArg₂ (· + ·) (congrArg₂ (· * ·) ?_ ?_) (congrArg₂ (· * ·) ?_ ?_)
  · exact head_apply x0 0 (by omega) _ _ t d
  · exact congrFun (shapeCast_self x1 _) _
  · refine (rotHalf_apply _ _ Ideal.ofBits_zero_f32 _ _ _ t d).trans ?_
    exact congrArg (fun f => Cert.Spec.rot f d) (funext fun d' => head_apply x0 0 (by omega) _ _ t d')
  · exact congrFun (shapeCast_self x2 _) _

/-- The second head's payload at (0, t, d): the same of columns 64 … 127. -/
theorem pay5_apply (x0 : Vec Ideal S2048x128 .f32) (x1 x2 : Vec Ideal S2048x64 .f32) (t : Fin 2048) (d : Fin 64) :
    k1_pay5 (F := Ideal) x0 x1 x2 (ix3 (0 : Fin 1) t d)
      = Cert.Spec.rope (fun d' => x0 (ix2 t (⟨64 + d'.val, by have := d'.isLt; omega⟩ : Fin 128))) (fun d' => x1 (ix2 t d'))
          (fun d' => x2 (ix2 t d')) d := by
  unfold k1_pay5 k1_pay1 k1_pay2 k1_pay3
  refine (addUnit_apply _ _ t d).trans ?_
  unfold Cert.Spec.rope
  show (_ * _ + _ * _ : EReal) = _
  refine congrArg₂ (· + ·) (congrArg₂ (· * ·) ?_ ?_) (congrArg₂ (· * ·) ?_ ?_)
  · exact head_apply x0 64 (by omega) _ _ t d
  · exact congrFun (shapeCast_self x1 _) _
  · refine (rotHalf_apply _ _ Ideal.ofBits_zero_f32 _ _ _ t d).trans ?_
    exact congrArg (fun f => Cert.Spec.rot f d) (funext fun d' => head_apply x0 64 (by omega) _ _ t d')
  · exact congrFun (shapeCast_self x2 _) _

variable (V : (c : Dev nD) → (b : Ref sig .tc) → Buf (Elt Ideal) ((c : Thread nD τ).loc b))

/-- The coordinates of a rank-3 index are below the extents, spelt as the numbers themselves. -/
theorem idx3_lt0 {n0 n1 n2 : Nat} (j : (⟨3, ![n0, n1, n2]⟩ : Shape).Idx) : (j 0).val < n0 := (j 0).isLt
theorem idx3_lt1 {n0 n1 n2 : Nat} (j : (⟨3, ![n0, n1, n2]⟩ : Shape).Idx) : (j 1).val < n1 := (j 1).isLt
theorem idx3_lt2 {n0 n1 n2 : Nat} (j : (⟨3, ![n0, n1, n2]⟩ : Shape).Idx) : (j 2).val < n2 := (j 2).isLt

/-- Two stores, the later one not reaching an index under the earlier one: the earlier store's payload is read there. -/
theorem canon_pair_snd {Val : EltTy → Type} [∀ e, Nonempty (Val e)] {S : Shape} {e : EltTy} (r1 r0 : Rect S)
    (w1 : r1.shape.Idx → Val e) (w0 : r0.shape.Idx → Val e) (x : r0.shape.Idx) (hn : r0.emb x ∉ r1.set) :
    View.canon [⟨r1, w1⟩, ⟨r0, w0⟩] (r0.emb x) = w0 x := by
  rw [View.canon_cons_of_not_mem _ _ hn, View.canon_cons_emb]

/-- The output buffer of region 1 after the body, at (h, t, d): slab h is the rotary embedding of columns 64 h … 64 h + 63 of
    row t of the key block. The second slab is stored last and the first slab's store does not reach it. -/
theorem out1_apply (x0 : Vec Ideal S2048x128 .f32) (x1 x2 : Vec Ideal S2048x64 .f32) (h : Fin 2) (t : Fin 2048) (d : Fin 64) :
    out1_3 (F := Ideal) x0 x1 x2 (ix3 h t d)
      = Cert.Spec.rope (fun d' => x0 (ix2 t (⟨h.val * 64 + d'.val, by have := d'.isLt; have := h.isLt; omega⟩ : Fin 128)))
          (fun d' => x1 (ix2 t d')) (fun d' => x2 (ix2 t d')) d := by
  unfold out1_3
  simp only [View.ld_unit_zero (S := S2048x128) hz2_rope, View.ld_unit_zero (S := S2048x64) hz2_rope]
  match h with
  | ⟨1, _⟩ =>
    have e : ix3 (⟨1, by omega⟩ : Fin 2) t d = rH1.emb (ix3 (0 : Fin 1) t d) := by
      funext a; apply Fin.ext; rw [Rect.emb_apply]
      match a with
      | ⟨0, _⟩ => show 1 = 1 + 1 * 0; omega
      | ⟨1, _⟩ => show t.val = 0 + 1 * t.val; omega
      | ⟨2, _⟩ => show d.val = 0 + 1 * d.val; omega
    rw [e, View.canon_cons_emb]
    refine (pay5_apply x0 x1 x2 t d).trans (rope_congr (fun e => ?_) (fun _ => rfl) (fun _ => rfl) rfl)
    exact congrArg x0 (congrArg (ix2 t) (Fin.ext (by show 64 + e.val = 1 * 64 + e.val; omega)))
  | ⟨0, _⟩ =>
    have hn : rH0.emb (ix3 (0 : Fin 1) t d) ∉ rH1.set := by
      rw [Rect.mem_set_unit]
      intro hh
      have h1 := (hh 0).1
      rw [Rect.emb_apply] at h1
      change 1 ≤ 0 + 1 * 0 at h1
      omega
    have e : ix3 (⟨0, by omega⟩ : Fin 2) t d = rH0.emb (ix3 (0 : Fin 1) t d) := by
      funext a; apply Fin.ext; rw [Rect.emb_apply]
      match a with
      | ⟨0, _⟩ => show 0 = 0 + 1 * 0; omega
      | ⟨1, _⟩ => show t.val = 0 + 1 * t.val; omega
      | ⟨2, _⟩ => show d.val = 0 + 1 * d.val; omega
    rw [e]
    refine (canon_pair_snd (Val := Elt Ideal) rH1 rH0 _ _ (ix3 (0 : Fin 1) t d) hn).trans ?_
    refine (pay4_apply x0 x1 x2 t d).trans (rope_congr (fun e => ?_) (fun _ => rfl) (fun _ => rfl) rfl)
    exact congrArg x0 (congrArg (ix2 t) (Fin.ext (by show 0 + e.val = 0 * 64 + e.val; omega)))

/-- The same at any index of the buffer, its coordinates named as numbers. -/
theorem out1_at (x0 : Vec Ideal S2048x128 .f32) (x1 x2 : Vec Ideal S2048x64 .f32) (y : S2x2048x64.Idx) :
    out1_3 (F := Ideal) x0 x1 x2 y
      = Cert.Spec.rope (fun d' => x0 (ix2 (⟨(y 1).val, idx3_lt1 y⟩ : Fin 2048)
            (⟨(y 0).val * 64 + d'.val, by have := d'.isLt; have := idx3_lt0 y; omega⟩ : Fin 128)))
          (fun d' => x1 (ix2 (⟨(y 1).val, idx3_lt1 y⟩ : Fin 2048) d'))
          (fun d' => x2 (ix2 (⟨(y 1).val, idx3_lt1 y⟩ : Fin 2048) d')) (⟨(y 2).val, idx3_lt2 y⟩ : Fin 64) := by
  obtain ⟨h, t, d, rfl⟩ : ∃ (h : Fin 2) (t : Fin 2048) (d : Fin 64), y = ix3 h t d := ⟨y 0, y 1, y 2, eq_ix3 y⟩
  exact out1_apply x0 x1 x2 h t d

/-- The rotated keys as one function of the three arrays region 1 finds: head i₀, position i₁, lane i₂. -/
def G1 (c : Dev nD) : S8x2048x64.Idx → EReal := fun i =>
  Cert.Spec.rope
    (fun d' => Cert.Spec.rd2 (V c main_v4) (⟨(i 1).val, idx3_lt1 i⟩ : Fin 2048) (Cert.Spec.lane8 (⟨(i 0).val, idx3_lt0 i⟩ : Fin 8) d'))
    (fun d' => Cert.Spec.rd2 (V c main_v6) (⟨(i 1).val, idx3_lt1 i⟩ : Fin 2048) d')
    (fun d' => Cert.Spec.rd2 (V c main_v7) (⟨(i 1).val, idx3_lt1 i⟩ : Fin 2048) d') (⟨(i 2).val, idx3_lt2 i⟩ : Fin 64)

/-- The index maps of region 1 over its 4 points: the key block is the column block of the output's head pair, the two
    tables are whole, the output block is the head pair. -/
theorem idx_facts1 : ∀ t : Fin cfg1.N, win1_0.index t (0 : Fin 2) = 0
    ∧ win1_0.index t (1 : Fin 2) = win1_3.index t (0 : Fin 3)
    ∧ win1_1.index t (0 : Fin 2) = 0 ∧ win1_1.index t (1 : Fin 2) = 0
    ∧ win1_2.index t (0 : Fin 2) = 0 ∧ win1_2.index t (1 : Fin 2) = 0
    ∧ win1_3.index t (1 : Fin 3) = 0 ∧ win1_3.index t (2 : Fin 3) = 0 ∧ win1_3.index t (0 : Fin 3) ≤ 3 :=
  (by decide +kernel : ∀ t : Fin grid1.N, _)

/-- Every one of the 4 head pairs is some grid point's. -/
theorem idx_onto1 : ∀ (q0 : Fin 4), ∃ t : Fin cfg1.N, win1_3.index t = ![q0.val, 0, 0] :=
  (by decide +kernel : ∀ (q0 : Fin 4), ∃ t : Fin grid1.N, win1_3.index t = ![q0.val, 0, 0])

/-- An input block of region 1 at a point, read at an entry, is its array at the block's offset plus the entry. -/
theorem iblk1_0_apply (c : Dev nD) (t : Fin cfg1.N) (x : S2048x128.Idx) (i : S2048x512.Idx)
    (h0 : (i 0).val = win1_0.index t 0 * 2048 + (x 0).val) (h1 : (i 1).val = win1_0.index t 1 * 128 + (x 1).val) :
    (iblk1 V c 0 t : Vec Ideal S2048x128 .f32) x = (V c main_v4 : S2048x512.Idx → EReal) i := by
  unfold iblk1
  rw [View.read_apply]
  show V c main_v4 _ = V c main_v4 _
  congr 1
  funext a
  apply Fin.ext
  match a with
  | ⟨0, _⟩ => show win1_0.index t 0 * 2048 + 1 * (x 0).val = (i 0).val; omega
  | ⟨1, _⟩ => show win1_0.index t 1 * 128 + 1 * (x 1).val = (i 1).val; omega

/-- The cosine table's block likewise. -/
theorem iblk1_1_apply (c : Dev nD) (t : Fin cfg1.N) (x : S2048x64.Idx) (i : S2048x64.Idx)
    (h0 : (i 0).val = win1_1.index t 0 * 2048 + (x 0).val) (h1 : (i 1).val = win1_1.index t 1 * 64 + (x 1).val) :
    (iblk1 V c 1 t : Vec Ideal S2048x64 .f32) x = (V c main_v6 : S2048x64.Idx → EReal) i := by
  unfold iblk1
  rw [View.read_apply]
  show V c main_v6 _ = V c main_v6 _
  congr 1
  funext a
  apply Fin.ext
  match a with
  | ⟨0, _⟩ => show win1_1.index t 0 * 2048 + 1 * (x 0).val = (i 0).val; omega
  | ⟨1, _⟩ => show win1_1.index t 1 * 64 + 1 * (x 1).val = (i 1).val; omega

/-- The sine table's block likewise. -/
theorem iblk1_2_apply (c : Dev nD) (t : Fin cfg1.N) (x : S2048x64.Idx) (i : S2048x64.Idx)
    (h0 : (i 0).val = win1_2.index t 0 * 2048 + (x 0).val) (h1 : (i 1).val = win1_2.index t 1 * 64 + (x 1).val) :
    (iblk1 V c 2 t : Vec Ideal S2048x64 .f32) x = (V c main_v7 : S2048x64.Idx → EReal) i := by
  unfold iblk1
  rw [View.read_apply]
  show V c main_v7 _ = V c main_v7 _
  congr 1
  funext a
  apply Fin.ext
  match a with
  | ⟨0, _⟩ => show win1_2.index t 0 * 2048 + 1 * (x 0).val = (i 0).val; omega
  | ⟨1, _⟩ => show win1_2.index t 1 * 64 + 1 * (x 1).val = (i 1).val; omega

/-- What point t writes back is head pair t of the rotated keys. -/
theorem flushed1 (c : Dev nD) (t : Fin cfg1.N) :
    (dat1 (F := Ideal) V c).flushed 3 t = ((cfg1.win 3).blk t).view.read (Elt Ideal) (G1 V c) := by
  show (cfg1.win 3).cut (grid1.coords t) ((dat1 (F := Ideal) V c).after 3 t) = _
  rw [after1_3]
  obtain ⟨e0, e1, e2, e3, e4, e5, e6, e7, e8⟩ := idx_facts1 t
  funext y
  show out1_3 (F := Ideal) (iblk1 V c 0 t) (iblk1 V c 1 t) (iblk1 V c 2 t) y = G1 V c (((cfg1.win 3).blk t).view.emb y)
  refine (out1_at _ _ _ y).trans ?_
  unfold G1 Cert.Spec.rd2 Cert.Spec.lane8
  have hy0 : (y 0).val < 2 := (y 0).isLt
  have hy1 : (y 1).val < 2048 := (y 1).isLt
  have hy2 : (y 2).val < 64 := (y 2).isLt
  refine rope_congr (fun e => ?_) (fun e => ?_) (fun e => ?_) (Fin.ext ?_)
  · refine iblk1_0_apply V c t _ _ ?_ ?_
    · show win1_3.index t (1 : Fin 3) * 2048 + 1 * (y 1).val = win1_0.index t 0 * 2048 + (y 1).val; omega
    · show (win1_3.index t (0 : Fin 3) * 2 + 1 * (y 0).val) * 64 + e.val = win1_0.index t 1 * 128 + ((y 0).val * 64 + e.val); omega
  · refine iblk1_1_apply V c t _ _ ?_ ?_
    · show win1_3.index t (1 : Fin 3) * 2048 + 1 * (y 1).val = win1_1.index t 0 * 2048 + (y 1).val; omega
    · show e.val = win1_1.index t 1 * 64 + e.val; omega
  · refine iblk1_2_apply V c t _ _ ?_ ?_
    · show win1_3.index t (1 : Fin 3) * 2048 + 1 * (y 1).val = win1_2.index t 0 * 2048 + (y 1).val; omega
    · show e.val = win1_2.index t 1 * 64 + e.val; omega
  · show (y 2).val = win1_3.index t (2 : Fin 3) * 64 + 1 * (y 2).val; omega

/-- An index of the rotated keys is in point t's head pair iff each coordinate is in the block's range. -/
theorem mem_blk1 (t : Fin cfg1.N) (i : S8x2048x64.Idx) :
    i ∈ ((cfg1.win 3).blk t).view.set ↔ ∀ a : Fin 3, win1_3.index t a * S2x2048x64.size a ≤ (i a).val ∧ (i a).val < win1_3.index t a * S2x2048x64.size a + S2x2048x64.size a := by
  show i ∈ ((View.whole main_v9).slice (win1_3.rect t)).set ↔ _
  rw [View.set_slice_whole, Rect.mem_set_unit]
  exact Iff.rfl

/-- The 4 head pairs cover the array: head g is in pair g / 2. -/
theorem cover1 (i : S8x2048x64.Idx) : ∃ t : Fin cfg1.N, (cfg1.win 3).flush t = true ∧ i ∈ ((cfg1.win 3).blk t).view.set := by
  have hi0 : (i 0).val < 8 := (i 0).isLt
  have hi1 : (i 1).val < 2048 := (i 1).isLt
  have hi2 : (i 2).val < 64 := (i 2).isLt
  obtain ⟨t, ht⟩ := idx_onto1 ⟨(i 0).val / 2, by omega⟩
  have q0 : win1_3.index t (0 : Fin 3) = (i 0).val / 2 := congrFun ht 0
  have q1 : win1_3.index t (1 : Fin 3) = 0 := congrFun ht 1
  have q2 : win1_3.index t (2 : Fin 3) = 0 := congrFun ht 2
  refine ⟨t, flush1_3 t, ?_⟩
  rw [mem_blk1]
  intro a
  match a with
  | ⟨0, _⟩ => show win1_3.index t (0 : Fin 3) * 2 ≤ (i 0).val ∧ (i 0).val < win1_3.index t (0 : Fin 3) * 2 + 2; omega
  | ⟨1, _⟩ => show win1_3.index t (1 : Fin 3) * 2048 ≤ (i 1).val ∧ (i 1).val < win1_3.index t (1 : Fin 3) * 2048 + 2048; omega
  | ⟨2, _⟩ => show win1_3.index t (2 : Fin 3) * 64 ≤ (i 2).val ∧ (i 2).val < win1_3.index t (2 : Fin 3) * 64 + 64; omega

/-- Region 1 leaves the rotated keys in its output array. -/
theorem final1_fun (c : Dev nD) : (dat1 (F := Ideal) V c).arrAt 3 cfg1.N = G1 V c :=
  (dat1 (F := Ideal) V c).arrAt_eq_of_cover 3 (G1 V c) (fun t _ => flushed1 V c t) (cover1)

/-- Entry (g, t, d) of the rotated keys: the rotary embedding of key head g's 64 features at position t, lane d. -/
theorem final1 (c : Dev nD) (g : Fin 8) (t : Fin 2048) (d : Fin 64) :
    (dat1 (F := Ideal) V c).arrAt 3 cfg1.N (ix3 g t d)
      = Cert.Spec.rope (fun d' => Cert.Spec.rd2 (V c main_v4) t (Cert.Spec.lane8 g d')) (fun d' => Cert.Spec.rd2 (V c main_v6) t d')
          (fun d' => Cert.Spec.rd2 (V c main_v7) t d') d := by
  rw [final1_fun]
  rfl

end Cert.KernelIdeal.KVal

end
-- ==== Proof.ValAttnRope.lean ====
/-
  The rotary embedding of a 256 × 64 block of query features, entry by entry.

  The body rotates a block `qs` with the position's cosines `c` and sines `s` as
  `qs · c + (0 − upper half of qs, in front of the lower half of qs) · s`. At row `r` and lane `d` this is the
  specification's `rope` of row `r` of the three blocks: in front (lanes below 32) the concatenation reads
  `0 − qs (d + 32)`, which is `−qs (d + 32)` over the extended reals, and behind it reads `qs (d − 32)`.
-/
import proofs.«162642_j16423954940491_2_alg».proof.Proof.FrDefs
import proofs.«162642_j16423954940491_2_alg».proof.Proof.Spec

import Idealize.ShloMosaic.Lib.ValueLayout
import Idealize.ShloMosaic.PureOps.Ideal.Laws

noncomputable section

namespace Cert.KernelIdeal.KVal2

open Idealize.ShloMosaic Cert.KernelIdeal Cert.KernelIdeal.Gen Cert.KernelIdeal.Fr Idealize.ShloMosaic.ValueIdx

/-- The body's rotary embedding of a block `qs` with cosines `c` and sines `s`, as the body spells it. -/
def ropeV (qs c s : FVec Ideal S256x64 .f32) : FVec Ideal S256x64 .f32 :=
  addf (mulf qs c)
    (mulf (concatenate S256x64 1
      [⟨S256x32, subf (broadcast S256x32 (Scalar.ofBits .f32 0x00000000#32))
          (extractStridedSlice S256x32 ![0, 32] qs slices_S256x64_o0_32_S256x32)⟩,
       ⟨S256x32, extractStridedSlice S256x32 ![0, 0] qs slices_S256x64_o0_0_S256x32⟩]
      concatenates_S256x32_S256x32_S256x64_d1) s)

/-- Entry `(r, d)` of the rotated block is the specification's rotary embedding of row `r`. -/
theorem ropeV_apply (qs c s : FVec Ideal S256x64 .f32) (r : Fin 256) (d : Fin 64) :
    ropeV qs c s (ix2 r d)
      = Cert.Spec.rope (fun d' => qs (ix2 r d')) (fun d' => c (ix2 r d')) (fun d' => s (ix2 r d')) d := by
  unfold ropeV Cert.Spec.rope
  rw [addf_apply, mulf_apply, mulf_apply]
  congr 2
  unfold Cert.Spec.rot
  by_cases h : d.val < 32
  · rw [dif_pos h]
    refine (concatenate_pair_apply_left (t := S256x64) (s₁ := S256x32) (s₂ := S256x32) (1 : Fin 2) _ _ concatenates_S256x32_S256x32_S256x64_d1 (ix2 r d) rfl
      (ix2 r (⟨d.val, h⟩ : Fin 32)) (fun b => by match b with | ⟨0, _⟩ => rfl | ⟨1, _⟩ => rfl)).trans ?_
    rw [subf_apply, broadcast_apply,
      slice2_axis1_apply 32 qs slices_S256x64_o0_32_S256x32 r (⟨d.val, h⟩ : Fin 32) (⟨d.val + 32, by omega⟩ : Fin 64)
        (Nat.add_comm _ _)]
    show Ideal.ofBits .f32 0x00000000#32 - _ = _
    rw [Ideal.ofBits_zero_f32, zero_sub]
  · rw [dif_neg h]
    have h' : 32 ≤ d.val := Nat.le_of_not_lt h
    have hd : d.val < 64 := d.isLt
    refine (concatenate_pair_apply_right (t := S256x64) (s₁ := S256x32) (s₂ := S256x32) (1 : Fin 2) _ _ concatenates_S256x32_S256x32_S256x64_d1 (ix2 r d) rfl rfl
      (ix2 r (⟨d.val - 32, by omega⟩ : Fin 32))
      (fun b hb => by
        match b with
        | ⟨0, _⟩ => rfl
        | ⟨1, _⟩ => exact absurd rfl hb)
      (by show d.val - 32 + 32 = d.val; omega)).trans ?_
    exact slice2_axis1_apply 0 qs slices_S256x64_o0_0_S256x32 r (⟨d.val - 32, by omega⟩ : Fin 32)
      (⟨d.val - 32, by omega⟩ : Fin 64) (Nat.zero_add _).symm

end Cert.KernelIdeal.KVal2

end
-- ==== Proof.ValAttnScore.lean ====
/-
  A score entry of the attention cell.

  The body multiplies a 256 × 64 block of rotated queries `qr` by a 2048 × 64 block of rotated keys `kk` over the 64
  lanes (both operands contracted on their second axis, into a zero accumulator), scales by the float word of one
  eighth and adds the mask block. Entry `(r, t)` is therefore `(∑ d, qr (r, d) · kk (t, d)) · eighth + mask (r, t)`:
  the contraction index of the product is one coordinate `d : Fin 64`, the left operand is read at `(r, d)` and the
  right one at `(t, d)`.
-/
import proofs.«162642_j16423954940491_2_alg».proof.Proof.FrDefs
import proofs.«162642_j16423954940491_2_alg».proof.Proof.Spec

import Idealize.ShloMosaic.Lib.ValueLayout
import Idealize.ShloMosaic.PureOps.Ideal.Laws

noncomputable section

namespace Cert.KernelIdeal.KVal2

open Idealize.ShloMosaic Cert.KernelIdeal Cert.KernelIdeal.Gen Cert.KernelIdeal.Fr Idealize.ShloMosaic.ValueIdx

/-- The masked, scaled scores of a block of rotated queries against a block of rotated keys, as the body spells them. -/
def scoreV (qr : FVec Ideal S256x64 .bf16) (kk : FVec Ideal S2048x64 .bf16) (mk : FVec Ideal S256x2048 .f32) :
    FVec Ideal S256x2048 .f32 :=
  addf (mulf (matmul dot_S256x64_S2048x64_S256x2048_1_1_0_0_n_n none qr kk (constant S256x2048 .f32 0x00000000#32))
    (broadcast S256x2048 (Scalar.ofBits .f32 0x3E000000#32))) mk

/-- The left operand of the product is read at the output's row … -/
theorem lhsQK_0 (j : S256x2048.Idx) (q : dot_S256x64_S2048x64_S256x2048_1_1_0_0_n_n.contr.Idx) :
    (dot_S256x64_S2048x64_S256x2048_1_1_0_0_n_n.lhsIdx j q 0).val = (j 0).val := by
  unfold DotDims.lhsIdx
  rw [dif_neg (show ¬(0 : Fin S256x64.rank) ∈ dot_S256x64_S2048x64_S256x2048_1_1_0_0_n_n.lhsBatch by decide),
    dif_pos (show (0 : Fin S256x64.rank) ∈ dot_S256x64_S2048x64_S256x2048_1_1_0_0_n_n.lhsNonContracting by decide)]
  rfl
/-- … and the contracted lane; -/
theorem lhsQK_1 (j : S256x2048.Idx) (q : dot_S256x64_S2048x64_S256x2048_1_1_0_0_n_n.contr.Idx) :
    (dot_S256x64_S2048x64_S256x2048_1_1_0_0_n_n.lhsIdx j q 1).val = (q ⟨0, by decide⟩).val :=
  dot_S256x64_S2048x64_S256x2048_1_1_0_0_n_n.lhsIdx_val_of_single rfl j q
/-- the right operand at the output's column, as its row, … -/
theorem rhsQK_0 (j : S256x2048.Idx) (q : dot_S256x64_S2048x64_S256x2048_1_1_0_0_n_n.contr.Idx) :
    (dot_S256x64_S2048x64_S256x2048_1_1_0_0_n_n.rhsIdx j q 0).val = (j 1).val := by
  unfold DotDims.rhsIdx
  rw [dif_neg (show ¬(0 : Fin S2048x64.rank) ∈ dot_S256x64_S2048x64_S256x2048_1_1_0_0_n_n.rhsBatch by decide),
    dif_pos (show (0 : Fin S2048x64.rank) ∈ dot_S256x64_S2048x64_S256x2048_1_1_0_0_n_n.rhsNonContracting by decide)]
  rfl
/-- … and the contracted lane. -/
theorem rhsQK_1 (j : S256x2048.Idx) (q : dot_S256x64_S2048x64_S256x2048_1_1_0_0_n_n.contr.Idx) :
    (dot_S256x64_S2048x64_S256x2048_1_1_0_0_n_n.rhsIdx j q 1).val = (q ⟨0, by decide⟩).val :=
  dot_S256x64_S2048x64_S256x2048_1_1_0_0_n_n.rhsIdx_val_of_single rfl j q

/-- The product of queries and keys at `(r, t)`: the sum over the 64 lanes. -/
theorem matmulQK_apply (qr : FVec Ideal S256x64 .bf16) (kk : FVec Ideal S2048x64 .bf16) (r : Fin 256) (t : Fin 2048) :
    matmul dot_S256x64_S2048x64_S256x2048_1_1_0_0_n_n none qr kk (constant (F := Ideal) S256x2048 .f32 0x00000000#32) (ix2 r t)
      = ∑ d : Fin 64, qr (ix2 r d) * kk (ix2 t d) := by
  simp only [matmul]
  rw [Ideal.matmul_constant_zero_apply,
    ← Equiv.sum_comp (contrEquiv1 dot_S256x64_S2048x64_S256x2048_1_1_0_0_n_n 64 rfl rfl).symm]
  refine Finset.sum_congr rfl fun k _ => ?_
  have hk := contrEquiv1_symm_val dot_S256x64_S2048x64_S256x2048_1_1_0_0_n_n 64 rfl rfl k
  have el : dot_S256x64_S2048x64_S256x2048_1_1_0_0_n_n.lhsIdx (ix2 r t)
      ((contrEquiv1 dot_S256x64_S2048x64_S256x2048_1_1_0_0_n_n 64 rfl rfl).symm k) = ix2 r k :=
    funext fun a => Fin.ext (by
      match a with
      | ⟨0, _⟩ => exact lhsQK_0 _ _
      | ⟨1, _⟩ => exact (lhsQK_1 _ _).trans hk)
  have er : dot_S256x64_S2048x64_S256x2048_1_1_0_0_n_n.rhsIdx (ix2 r t)
      ((contrEquiv1 dot_S256x64_S2048x64_S256x2048_1_1_0_0_n_n 64 rfl rfl).symm k) = ix2 t k :=
    funext fun a => Fin.ext (by
      match a with
      | ⟨0, _⟩ => exact rhsQK_0 _ _
      | ⟨1, _⟩ => exact (rhsQK_1 _ _).trans hk)
  rw [el, er]

/-- Entry `(r, t)` of the scores: the lane sum, times one eighth, plus the mask. -/
theorem scoreV_apply (qr : FVec Ideal S256x64 .bf16) (kk : FVec Ideal S2048x64 .bf16) (mk : FVec Ideal S256x2048 .f32)
    (r : Fin 256) (t : Fin 2048) :
    scoreV qr kk mk (ix2 r t) = (∑ d : Fin 64, qr (ix2 r d) * kk (ix2 t d)) * Cert.Spec.eighth + mk (ix2 r t) := by
  unfold scoreV
  rw [addf_apply, mulf_apply, broadcast_apply, matmulQK_apply]
  rfl

end Cert.KernelIdeal.KVal2

end
-- ==== Proof.ValAttnSoft.lean ====
/-
  A softmax row of the attention cell.

  The body takes the maximum of each of the 256 rows of a 256 × 2048 block of scores (a lane reduction started from the
  float word of minus infinity, then once more the maximum with a splat of that word), subtracts it from the row,
  exponentiates, sums each row (a lane reduction started from zero) and divides. Both row statistics travel as a
  256-vector recast to a 256 × 1 column and broadcast along the row, which at `(r, t)` reads the vector at `r`.
  Over the extended reals minus infinity is the bottom element, so the maximum with it is the identity and the fold
  of `max` from it over a row is the row's supremum: the block at `(r, t)` is the specification's `soft` of row `r`
  at `t`.
-/
import proofs.«162642_j16423954940491_2_alg».proof.Proof.FrDefs
import proofs.«162642_j16423954940491_2_alg».proof.Proof.Spec

import Idealize.ShloMosaic.Lib.ValueLayout
import Idealize.ShloMosaic.PureOps.Ideal.Laws

noncomputable section

namespace Cert.KernelIdeal.KVal2

open Idealize.ShloMosaic Cert.KernelIdeal Cert.KernelIdeal.Gen Cert.KernelIdeal.Fr Idealize.ShloMosaic.ValueIdx

/-! ## A 256-vector as a column broadcast along the rows -/

/-- A row statistic `v` recast to a column and broadcast over the 2048 entries of each row. -/
def colV (v : FVec Ideal S256 .f32) : FVec Ideal S256x2048 .f32 :=
  broadcastTo S256x2048 (shapeCast S256x1 v shapeCasts_S256_S256x1) broadcasts_S256x1_S256x2048

/-- At `(r, t)` it reads the statistic of row `r`. -/
theorem colV_apply (v : FVec Ideal S256 .f32) (r : Fin 256) (t : Fin 2048) : colV v (ix2 r t) = v (ix1 r) := by
  unfold colV
  refine (broadcastTo_apply _ broadcasts_S256x1_S256x2048 (ix2 r t) (ix2 r (0 : Fin 1)) (fun a => ?_)).trans ?_
  · match a with
    | ⟨0, _⟩ => show r.val = if (256 : Nat) = 1 then 0 else r.val; exact (if_neg (by decide)).symm
    | ⟨1, _⟩ => show (0 : Nat) = if (1 : Nat) = 1 then 0 else t.val; exact (if_pos rfl).symm
  · refine shapeCast_apply v shapeCasts_S256_S256x1 (ix2 r (0 : Fin 1)) (ix1 r) ?_
    rw [Shape.rowMajor_val_one, Shape.rowMajor_val_two]
    show r.val = r.val * 1 + 0
    omega

/-! ## The two lane reductions -/

/-- The sum of each row. -/
def rowSumV (x : FVec Ideal S256x2048 .f32) : FVec Ideal S256 .f32 :=
  multiReduction .add [1] S256 x 0x00000000#32 reduces_S256x2048_S256 (.inl rfl) rfl

theorem rowSumV_apply (x : FVec Ideal S256x2048 .f32) (r : Fin 256) :
    rowSumV x (ix1 r) = ∑ t : Fin 2048, x (ix2 r t) := by
  unfold rowSumV
  refine (Ideal.multiReduction_add_single x 0x00000000#32 reduces_S256x2048_S256 (.inl rfl) rfl (ix1 r)).trans ?_
  refine Finset.sum_congr rfl fun k _ => congrArg x (funext fun a => Fin.ext ?_)
  match a with
  | ⟨0, _⟩ => rfl
  | ⟨1, _⟩ => rfl

/-- The maximum of each row, folded from minus infinity. -/
def rowMaxV (x : FVec Ideal S256x2048 .f32) : FVec Ideal S256 .f32 :=
  multiReduction .maximumf [1] S256 x 0xFF800000#32 reduces_S256x2048_S256 (.inl rfl) rfl

/-- The float word of minus infinity is the bottom of the extended reals. -/
theorem ofBits_neg_inf : Ideal.ofBits .f32 0xFF800000#32 = (⊥ : EReal) := by simp [Ideal.ofBits, Ideal.ieee]

/-- A fold of `max` from the bottom over all of a finite type is the supremum. -/
theorem fold_max_bot_eq_sup {ι : Type} [Fintype ι] (g : ι → EReal) :
    (Finset.univ : Finset ι).fold max (⊥ : EReal) g = Finset.univ.sup g := by
  apply le_antisymm
  · rw [Finset.fold_max_le]
    exact ⟨bot_le, fun x hx => Finset.le_sup (f := g) hx⟩
  · refine Finset.sup_le fun x hx => ?_
    rw [Finset.le_fold_max]
    exact Or.inr ⟨x, hx, le_rfl⟩

theorem rowMaxV_apply (x : FVec Ideal S256x2048 .f32) (r : Fin 256) :
    rowMaxV x (ix1 r) = Cert.Spec.rowmax (fun t => x (ix2 r t)) := by
  unfold rowMaxV Cert.Spec.rowmax
  refine (Ideal.multiReduction_maximumf_single x 0xFF800000#32 reduces_S256x2048_S256 (.inl rfl) rfl (ix1 r)).trans ?_
  show (Finset.univ : Finset (Fin 2048)).fold max (Ideal.ofBits .f32 0xFF800000#32) _ = _
  rw [ofBits_neg_inf]
  refine (fold_max_bot_eq_sup _).trans ?_
  refine congrArg (Finset.univ.sup) (funext fun k => congrArg x (funext fun a => Fin.ext ?_))
  match a with
  | ⟨0, _⟩ => rfl
  | ⟨1, _⟩ => rfl

/-! ## The softmax of a block of scores -/

/-- The body's softmax payload is this tree of operations. -/
theorem pay1_eq (sc : FVec Ideal S256x2048 .f32) (mx b : FVec Ideal S256 .f32) :
    k2_pay1 sc mx b
      = divf (exp (subf sc (colV (maximumf b mx)))) (colV (rowSumV (exp (subf sc (colV (maximumf b mx)))))) := rfl

/-- The softmax of a block of scores `sc`: the payload at the block's own row maxima and the splat of minus infinity. -/
def softV (sc : FVec Ideal S256x2048 .f32) : FVec Ideal S256x2048 .f32 :=
  k2_pay1 sc (rowMaxV sc) (k2_pay15 (F := Ideal))

/-- The softmaxed block at `(r, t)` is the specification's softmax of row `r` at `t`. -/
theorem softV_apply (sc : FVec Ideal S256x2048 .f32) (r : Fin 256) (t : Fin 2048) :
    softV sc (ix2 r t) = Cert.Spec.soft (fun t' => sc (ix2 r t')) t := by
  have hm : ∀ t' : Fin 2048, colV (maximumf (k2_pay15 (F := Ideal)) (rowMaxV sc)) (ix2 r t')
      = Cert.Spec.rowmax (fun t'' => sc (ix2 r t'')) := fun t' => by
    rw [colV_apply, maximumf_apply, rowMaxV_apply]
    show max (Ideal.ofBits .f32 0xFF800000#32) _ = _
    rw [ofBits_neg_inf]
    exact max_eq_right bot_le
  have he : ∀ t' : Fin 2048, exp (subf sc (colV (maximumf (k2_pay15 (F := Ideal)) (rowMaxV sc)))) (ix2 r t')
      = Ideal.exp (sc (ix2 r t') - Cert.Spec.rowmax (fun t'' => sc (ix2 r t''))) := fun t' => by
    show Ideal.exp (subf sc _ (ix2 r t')) = _
    rw [subf_apply, hm]
  unfold softV Cert.Spec.soft
  rw [pay1_eq, divf_apply, colV_apply, rowSumV_apply, he]
  exact congrArg _ (Finset.sum_congr rfl fun t' _ => he t')

end Cert.KernelIdeal.KVal2

end
-- ==== Proof.ValAttnCtx.lean ====
/-
  A context entry of the attention cell.

  The body multiplies a 256 × 2048 block of attention weights `p` by the 2048 × 64 block of values `vv` over the 2048
  key positions (the weights contracted on their second axis, the values on their first, into a zero accumulator), so
  entry `(r, d)` is `∑ t, p (r, t) · vv (t, d)`; the format changes around the product are the identity on extended
  reals. The two heads' 256 × 64 contexts are then laid side by side along the lanes: lane `n` of the 128 reads the
  first head at `n` when `n < 64` and the second head at `n − 64` otherwise.
-/
import proofs.«162642_j16423954940491_2_alg».proof.Proof.FrDefs
import proofs.«162642_j16423954940491_2_alg».proof.Proof.Spec

import Idealize.ShloMosaic.Lib.ValueLayout
import Idealize.ShloMosaic.PureOps.Ideal.Laws

noncomputable section

namespace Cert.KernelIdeal.KVal2

open Idealize.ShloMosaic Cert.KernelIdeal Cert.KernelIdeal.Gen Cert.KernelIdeal.Fr Idealize.ShloMosaic.ValueIdx

/-- The weights against the values, as the body spells it. -/
def ctxV (p : FVec Ideal S256x2048 .f32) (vv : FVec Ideal S2048x64 .bf16) : FVec Ideal S256x64 .bf16 :=
  truncf .bf16 (matmul dot_S256x2048_S2048x64_S256x64_1_0_0_1_n_n none (truncf .bf16 p bitsLt_bf16_f32) vv
    (constant S256x64 .f32 0x00000000#32)) bitsLt_bf16_f32

/-- The left operand of the product is read at the output's row … -/
theorem lhsPV_0 (j : S256x64.Idx) (q : dot_S256x2048_S2048x64_S256x64_1_0_0_1_n_n.contr.Idx) :
    (dot_S256x2048_S2048x64_S256x64_1_0_0_1_n_n.lhsIdx j q 0).val = (j 0).val := by
  unfold DotDims.lhsIdx
  rw [dif_neg (show ¬(0 : Fin S256x2048.rank) ∈ dot_S256x2048_S2048x64_S256x64_1_0_0_1_n_n.lhsBatch by decide),
    dif_pos (show (0 : Fin S256x2048.rank) ∈ dot_S256x2048_S2048x64_S256x64_1_0_0_1_n_n.lhsNonContracting by decide)]
  rfl
/-- … and the contracted key position; -/
theorem lhsPV_1 (j : S256x64.Idx) (q : dot_S256x2048_S2048x64_S256x64_1_0_0_1_n_n.contr.Idx) :
    (dot_S256x2048_S2048x64_S256x64_1_0_0_1_n_n.lhsIdx j q 1).val = (q ⟨0, by decide⟩).val :=
  dot_S256x2048_S2048x64_S256x64_1_0_0_1_n_n.lhsIdx_val_of_single rfl j q
/-- the right operand at the contracted key position … -/
theorem rhsPV_0 (j : S256x64.Idx) (q : dot_S256x2048_S2048x64_S256x64_1_0_0_1_n_n.contr.Idx) :
    (dot_S256x2048_S2048x64_S256x64_1_0_0_1_n_n.rhsIdx j q 0).val = (q ⟨0, by decide⟩).val :=
  dot_S256x2048_S2048x64_S256x64_1_0_0_1_n_n.rhsIdx_val_of_single rfl j q
/-- … and the output's lane. -/
theorem rhsPV_1 (j : S256x64.Idx) (q : dot_S256x2048_S2048x64_S256x64_1_0_0_1_n_n.contr.Idx) :
    (dot_S256x2048_S2048x64_S256x64_1_0_0_1_n_n.rhsIdx j q 1).val = (j 1).val := by
  unfold DotDims.rhsIdx
  rw [dif_neg (show ¬(1 : Fin S2048x64.rank) ∈ dot_S256x2048_S2048x64_S256x64_1_0_0_1_n_n.rhsBatch by decide),
    dif_pos (show (1 : Fin S2048x64.rank) ∈ dot_S256x2048_S2048x64_S256x64_1_0_0_1_n_n.rhsNonContracting by decide)]
  rfl

/-- Entry `(r, d)` of the context: the sum over the 2048 key positions. -/
theorem ctxV_apply (p : FVec Ideal S256x2048 .f32) (vv : FVec Ideal S2048x64 .bf16) (r : Fin 256) (d : Fin 64) :
    ctxV p vv (ix2 r d) = ∑ t : Fin 2048, p (ix2 r t) * vv (ix2 t d) := by
  unfold ctxV
  rw [truncf_apply]
  simp only [matmul]
  rw [Ideal.matmul_constant_zero_apply,
    ← Equiv.sum_comp (contrEquiv1 dot_S256x2048_S2048x64_S256x64_1_0_0_1_n_n 2048 rfl rfl).symm]
  refine Finset.sum_congr rfl fun k _ => ?_
  have hk := contrEquiv1_symm_val dot_S256x2048_S2048x64_S256x64_1_0_0_1_n_n 2048 rfl rfl k
  have el : dot_S256x2048_S2048x64_S256x64_1_0_0_1_n_n.lhsIdx (ix2 r d)
      ((contrEquiv1 dot_S256x2048_S2048x64_S256x64_1_0_0_1_n_n 2048 rfl rfl).symm k) = ix2 r k :=
    funext fun a => Fin.ext (by
      match a with
      | ⟨0, _⟩ => exact lhsPV_0 _ _
      | ⟨1, _⟩ => exact (lhsPV_1 _ _).trans hk)
  have er : dot_S256x2048_S2048x64_S256x64_1_0_0_1_n_n.rhsIdx (ix2 r d)
      ((contrEquiv1 dot_S256x2048_S2048x64_S256x64_1_0_0_1_n_n 2048 rfl rfl).symm k) = ix2 k d :=
    funext fun a => Fin.ext (by
      match a with
      | ⟨0, _⟩ => exact (rhsPV_0 _ _).trans hk
      | ⟨1, _⟩ => exact rhsPV_1 _ _)
  rw [el, er]
  rfl

/-- Two heads' contexts side by side along the lanes. -/
def catV (a b : FVec Ideal S256x64 .bf16) : FVec Ideal S256x128 .bf16 :=
  concatenate S256x128 1 [⟨S256x64, a⟩, ⟨S256x64, b⟩] concatenates_S256x64_S256x64_S256x128_d1

/-- A lane below 64 reads the first head … -/
theorem catV_apply_lo (a b : FVec Ideal S256x64 .bf16) (r : Fin 256) (n : Fin 128) (h : n.val < 64) :
    catV a b (ix2 r n) = a (ix2 r (⟨n.val, h⟩ : Fin 64)) := by
  unfold catV
  exact concatenate_pair_apply_left (t := S256x128) (s₁ := S256x64) (s₂ := S256x64) (1 : Fin 2) _ _
    concatenates_S256x64_S256x64_S256x128_d1 (ix2 r n) rfl (ix2 r (⟨n.val, h⟩ : Fin 64))
    (fun b => by match b with | ⟨0, _⟩ => rfl | ⟨1, _⟩ => rfl)

/-- … and a lane from 64 on reads the second head, 64 lanes back. -/
theorem catV_apply_hi (a b : FVec Ideal S256x64 .bf16) (r : Fin 256) (n : Fin 128) (h : 64 ≤ n.val) :
    catV a b (ix2 r n) = b (ix2 r (⟨n.val - 64, by have := n.isLt; omega⟩ : Fin 64)) := by
  unfold catV
  exact concatenate_pair_apply_right (t := S256x128) (s₁ := S256x64) (s₂ := S256x64) (1 : Fin 2) _ _
    concatenates_S256x64_S256x64_S256x128_d1 (ix2 r n) rfl rfl (ix2 r (⟨n.val - 64, by have := n.isLt; omega⟩ : Fin 64))
    (fun b hb => by
      match b with
      | ⟨0, _⟩ => rfl
      | ⟨1, _⟩ => exact absurd rfl hb)
    (by show n.val - 64 + 64 = n.val; omega)

end Cert.KernelIdeal.KVal2

end
-- ==== Proof.ValAttnCell.lean ====
/-
  The attention cell of one grid point, entry by entry, from its six input blocks.

  At the point (query tile `qi`, head pair `hp`) the body sees rows `256 qi …` of the query features (lanes
  `128 hp …`, two heads of 64), of the rotary tables and of the mask, and all 2048 positions of key/value head
  `hp / 2`. Head `e` of the pair (query head `2 hp + e`, which attends to key/value head `(2 hp + e) / 4 = hp / 2`)
  has its queries in lanes `64 e …` of the block. Its rotated queries against the keys, scaled and masked, then
  normalised row by row, are the specification's attention weights of head `2 hp + e` at row `256 qi + r`; the
  weights against the values are its context, and the two heads' contexts side by side are features
  `128 hp + n` of the context array, feature `n'` belonging to head `n' / 64`, lane `n' % 64`.
-/
import proofs.«162642_j16423954940491_2_alg».proof.Proof.FrDefs
import proofs.«162642_j16423954940491_2_alg».proof.Proof.Spec
import proofs.«162642_j16423954940491_2_alg».proof.Proof.ValAttnRope
import proofs.«162642_j16423954940491_2_alg».proof.Proof.ValAttnScore
import proofs.«162642_j16423954940491_2_alg».proof.Proof.ValAttnSoft
import proofs.«162642_j16423954940491_2_alg».proof.Proof.ValAttnCtx
import Idealize.ShloMosaic.Lib.ValueLayout
import Idealize.ShloMosaic.PureOps.Ideal.Laws

noncomputable section

namespace Cert.KernelIdeal.KVal2

open Idealize.ShloMosaic Cert.KernelIdeal Cert.KernelIdeal.Gen Cert.KernelIdeal.Fr Idealize.ShloMosaic.ValueIdx

theorem hz2 : (![0, 0] : Fin 2 → Nat) = fun _ => 0 := funext fun a => by fin_cases a <;> rfl
theorem hz3 : (![0, 0, 0] : Fin 3 → Nat) = fun _ => 0 := funext fun a => by fin_cases a <;> rfl

/-! ## Where a block's entries sit in the arrays -/

/-- Row `r` of query tile `qi` among the 2048 positions. -/
def rowOf (qi : Fin 8) (r : Fin 256) : Fin 2048 := ⟨qi.val * 256 + r.val, by have := qi.isLt; have := r.isLt; omega⟩
/-- Lane `n` of head pair `hp` among the 2048 query (or context) features. -/
def featOf (hp : Fin 16) (n : Fin 128) : Fin 2048 := ⟨hp.val * 128 + n.val, by have := hp.isLt; have := n.isLt; omega⟩
/-- Head `e` of head pair `hp` among the 32 query heads. -/
def headOfPair (hp : Fin 16) (e : Fin 2) : Fin 32 := ⟨hp.val * 2 + e.val, by have := hp.isLt; have := e.isLt; omega⟩
/-- The key/value head both heads of pair `hp` attend to. -/
def kvOfPair (hp : Fin 16) : Fin 8 := ⟨hp.val / 2, by have := hp.isLt; omega⟩

section
variable (q : Fin 2048 → Fin 2048 → EReal) (C Sn : Fin 2048 → Fin 64 → EReal)
  (K : Fin 8 → Fin 2048 → Fin 64 → EReal) (M : Fin 2048 → Fin 2048 → EReal) (Vv : Fin 8 → Fin 2048 → Fin 64 → EReal)
variable (x0 : Vec Ideal S256x128 .f32) (x1 x2 : Vec Ideal S256x64 .f32)
  (x3 x4 : Vec Ideal S1x2048x64 .bf16) (x5 : Vec Ideal S256x2048 .f32)
variable (qi : Fin 8) (hp : Fin 16)

/-- The five input blocks the attention weights depend on are the blocks of the arrays `q`, `C`, `Sn`, `K`, `M` at the
    point `(qi, hp)`. -/
structure Reads : Prop where
  h0 : ∀ (r : Fin 256) (n : Fin 128), x0 (ix2 r n) = q (rowOf qi r) (featOf hp n)
  h1 : ∀ (r : Fin 256) (d : Fin 64), x1 (ix2 r d) = C (rowOf qi r) d
  h2 : ∀ (r : Fin 256) (d : Fin 64), x2 (ix2 r d) = Sn (rowOf qi r) d
  h3 : ∀ (t : Fin 2048) (d : Fin 64), x3 (ix3 (0 : Fin 1) t d) = K (kvOfPair hp) t d
  h5 : ∀ (r : Fin 256) (t : Fin 2048), x5 (ix2 r t) = M (rowOf qi r) t

/-! ## The rotated queries of one head of the pair -/

/-- The rotated queries of the head whose 64 lanes start at lane `o` of the 128-lane query block. -/
def qrotV (o : Nat) (h : S256x128.Slices ![0, o] S256x64) (x0 : Vec Ideal S256x128 .f32) (x1 x2 : Vec Ideal S256x64 .f32) :
    FVec Ideal S256x64 .bf16 :=
  truncf .bf16 (ropeV (extractStridedSlice S256x64 ![0, o] (k2_pay6 x0) h) (k2_pay7 x1) (k2_pay8 x2)) bitsLt_bf16_f32

theorem qrotV_apply (o : Nat) (h : S256x128.Slices ![0, o] S256x64) (ho : o + 64 ≤ 128) (r : Fin 256) (d : Fin 64) :
    qrotV o h x0 x1 x2 (ix2 r d)
      = Cert.Spec.rope (fun d' => x0 (ix2 r (⟨o + d'.val, by have := d'.isLt; omega⟩ : Fin 128)))
          (fun d' => x1 (ix2 r d')) (fun d' => x2 (ix2 r d')) d := by
  unfold qrotV
  rw [truncf_apply, ropeV_apply]
  have e0 : (fun d' : Fin 64 => extractStridedSlice S256x64 ![0, o] (k2_pay6 x0) h (ix2 r d'))
      = fun d' => x0 (ix2 r (⟨o + d'.val, by have := d'.isLt; omega⟩ : Fin 128)) := funext fun d' => by
    rw [slice2_axis1_apply o (k2_pay6 x0) h r d' (⟨o + d'.val, by have := d'.isLt; omega⟩ : Fin 128) rfl]
    unfold k2_pay6
    rw [shapeCast_self]
  have e1 : (fun d' : Fin 64 => k2_pay7 x1 (ix2 r d')) = fun d' => x1 (ix2 r d') := by
    unfold k2_pay7; rw [shapeCast_self]
  have e2 : (fun d' : Fin 64 => k2_pay8 x2 (ix2 r d')) = fun d' => x2 (ix2 r d') := by
    unfold k2_pay8; rw [shapeCast_self]
  rw [e0, e1, e2]

/-! ## The attention weights of one head of the pair -/

/-- The attention weights of the head whose queries start at lane `o`. -/
def probV (o : Nat) (h : S256x128.Slices ![0, o] S256x64) (x0 : Vec Ideal S256x128 .f32) (x1 x2 : Vec Ideal S256x64 .f32)
    (x3 : Vec Ideal S1x2048x64 .bf16) (x5 : Vec Ideal S256x2048 .f32) : FVec Ideal S256x2048 .f32 :=
  softV (scoreV (qrotV o h x0 x1 x2) (k2_pay9 x3) (k2_pay11 x5))

variable {q C Sn K M x0 x1 x2 x3 x5 qi hp}

/-- Entry `(r, t)` of head `e`'s weights is the specification's weight of head `2 hp + e`, row `256 qi + r`, key `t`. -/
theorem probV_apply (R : Reads q C Sn K M x0 x1 x2 x3 x5 qi hp) (o : Nat) (h : S256x128.Slices ![0, o] S256x64) (e : Fin 2)
    (ho : o = e.val * 64) (r : Fin 256) (t : Fin 2048) :
    probV o h x0 x1 x2 x3 x5 (ix2 r t) = Cert.Spec.cellProb q C Sn K M (headOfPair hp e) (rowOf qi r) t := by
  have he : e.val < 2 := e.isLt
  have ho' : o + 64 ≤ 128 := by omega
  unfold probV Cert.Spec.cellProb
  rw [softV_apply]
  refine congrArg (fun f => Cert.Spec.soft f t) (funext fun t' => ?_)
  rw [scoreV_apply]
  unfold Cert.Spec.cellScore
  have hM : k2_pay11 x5 (ix2 r t') = M (rowOf qi r) t' := by
    unfold k2_pay11; rw [shapeCast_self]; exact R.h5 r t'
  rw [hM]
  refine congrArg (fun z => z * Cert.Spec.eighth + M (rowOf qi r) t') (Finset.sum_congr rfl fun d _ => ?_)
  have hK : k2_pay9 x3 (ix2 t' d) = K (Cert.Spec.grp (headOfPair hp e)) t' d := by
    unfold k2_pay9
    rw [shapeCast_1ab_ab_apply, R.h3]
    refine congrArg (fun g => K g t' d) (Fin.ext ?_)
    show hp.val / 2 = (hp.val * 2 + e.val) / 4
    omega
  rw [hK, qrotV_apply x0 x1 x2 o h ho' r d]
  refine congrArg (fun z => z * K (Cert.Spec.grp (headOfPair hp e)) t' d) ?_
  have e0 : (fun d' : Fin 64 => x0 (ix2 r (⟨o + d'.val, by have := d'.isLt; omega⟩ : Fin 128)))
      = fun d' => q (rowOf qi r) (Cert.Spec.lane32 (headOfPair hp e) d') := funext fun d' =>
    (R.h0 r _).trans (congrArg (q (rowOf qi r)) (Fin.ext (by
      show hp.val * 128 + (o + d'.val) = (hp.val * 2 + e.val) * 64 + d'.val
      omega)))
  have e1 : (fun d' : Fin 64 => x1 (ix2 r d')) = C (rowOf qi r) := funext fun d' => R.h1 r d'
  have e2 : (fun d' : Fin 64 => x2 (ix2 r d')) = Sn (rowOf qi r) := funext fun d' => R.h2 r d'
  rw [e0, e1, e2]

/-! ## The payloads are these terms -/

theorem pay12_eq (x0 : Vec Ideal S256x128 .f32) (x1 x2 : Vec Ideal S256x64 .f32) :
    k2_pay12 (F := Ideal) x0 x1 x2 = qrotV 64 slices_S256x128_o0_64_S256x64 x0 x1 x2 := rfl
theorem pay13_eq (x0 : Vec Ideal S256x128 .f32) (x1 x2 : Vec Ideal S256x64 .f32) (x3 : Vec Ideal S1x2048x64 .bf16)
    (x5 : Vec Ideal S256x2048 .f32) :
    k2_pay13 (F := Ideal) x0 x1 x2 x3 x5
      = scoreV (qrotV 0 slices_S256x128_o0_0_S256x64 x0 x1 x2) (k2_pay9 x3) (k2_pay11 x5) := rfl
theorem pay14_eq (x0 : Vec Ideal S256x128 .f32) (x1 x2 : Vec Ideal S256x64 .f32) (x3 : Vec Ideal S1x2048x64 .bf16)
    (x5 : Vec Ideal S256x2048 .f32) :
    k2_pay14 (F := Ideal) x0 x1 x2 x3 x5 = rowMaxV (k2_pay13 x0 x1 x2 x3 x5) := rfl
theorem pay2_eq (v7 : FVec Ideal S2048x64 .bf16) (v11 : FVec Ideal S256x2048 .f32) (v31 : FVec Ideal S256x64 .bf16) :
    k2_pay2 (F := Ideal) v7 v11 v31 = softV (scoreV v31 v7 v11) := rfl

/-- The first head's weights, from the scores and row maxima the first part of the body hands on. -/
theorem head0_eq (x0 : Vec Ideal S256x128 .f32) (x1 x2 : Vec Ideal S256x64 .f32) (x3 : Vec Ideal S1x2048x64 .bf16)
    (x5 : Vec Ideal S256x2048 .f32) :
    k2_pay1 (k2_pay13 x0 x1 x2 x3 x5) (k2_pay14 x0 x1 x2 x3 x5) (k2_pay15 (F := Ideal))
      = probV 0 slices_S256x128_o0_0_S256x64 x0 x1 x2 x3 x5 := by
  rw [pay14_eq, pay13_eq]; rfl
/-- The second head's weights, from its rotated queries. -/
theorem head1_eq (x0 : Vec Ideal S256x128 .f32) (x1 x2 : Vec Ideal S256x64 .f32) (x3 : Vec Ideal S1x2048x64 .bf16)
    (x5 : Vec Ideal S256x2048 .f32) :
    k2_pay2 (k2_pay9 x3) (k2_pay11 x5) (k2_pay12 x0 x1 x2) = probV 64 slices_S256x128_o0_64_S256x64 x0 x1 x2 x3 x5 := by
  rw [pay2_eq, pay12_eq]; rfl
/-- The context payload: each head's weights against the values, side by side. -/
theorem pay5_eq (v7 v9 : FVec Ideal S2048x64 .bf16) (v11 : FVec Ideal S256x2048 .f32) (v31 : FVec Ideal S256x64 .bf16)
    (v35 : FVec Ideal S256x2048 .f32) (v36 v37 : FVec Ideal S256 .f32) :
    k2_pay5 (F := Ideal) v7 v9 v11 v31 v35 v36 v37 = catV (ctxV (k2_pay1 v35 v36 v37) v9) (ctxV (k2_pay2 v7 v11 v31) v9) := rfl

end

end Cert.KernelIdeal.KVal2

end
-- ==== Proof.ValAttnBlocks.lean ====
/-
  The six input blocks of the attention cell at a grid point, as blocks of the arrays the region is entered with.

  The grid is 8 query tiles by 16 head pairs. At a point, the weights window's block index is (head pair, query tile,
  0); the query and context windows are at (query tile, head pair); the rotary tables and the mask at (query tile, 0);
  the rotated keys and the values at (head pair / 2, 0, 0). These relations between the index maps are decided once
  over the 128 grid points. An element of a block sits in its array at block index × block size + its own coordinate
  on every axis, which gives each block as a read of its array at the rows, lanes and key/value head the attention
  cell's entry-by-entry lemmas name.
-/
import proofs.«162642_j16423954940491_2_alg».proof.Proof.FrDefs
import proofs.«162642_j16423954940491_2_alg».proof.Proof.Spec
import proofs.«162642_j16423954940491_2_alg».proof.Proof.ValAttnCell
import Idealize.ShloMosaic.Lib.ValueLayout
import Idealize.ShloMosaic.PureOps.Ideal.Laws

noncomputable section

namespace Cert.KernelIdeal.KVal2

open Idealize.ShloMosaic Cert.KernelIdeal Cert.KernelIdeal.Gen Cert.KernelIdeal.Fr Idealize.ShloMosaic.ValueIdx

open Idealize.ShloMosaic.Pipeline (Dat)
open Idealize.ShloMosaic.TcCoe

/-- The index maps of the eight windows at a grid point, all in terms of the weights window's. -/
theorem idx_facts2 : ∀ t : Fin cfg2.N,
    win2_0.index t (0 : Fin 2) = win2_6.index t (1 : Fin 3) ∧ win2_0.index t (1 : Fin 2) = win2_6.index t (0 : Fin 3)
    ∧ win2_1.index t (0 : Fin 2) = win2_6.index t (1 : Fin 3) ∧ win2_1.index t (1 : Fin 2) = 0
    ∧ win2_2.index t (0 : Fin 2) = win2_6.index t (1 : Fin 3) ∧ win2_2.index t (1 : Fin 2) = 0
    ∧ win2_3.index t (0 : Fin 3) = win2_6.index t (0 : Fin 3) / 2 ∧ win2_3.index t (1 : Fin 3) = 0 ∧ win2_3.index t (2 : Fin 3) = 0
    ∧ win2_4.index t (0 : Fin 3) = win2_6.index t (0 : Fin 3) / 2 ∧ win2_4.index t (1 : Fin 3) = 0 ∧ win2_4.index t (2 : Fin 3) = 0
    ∧ win2_5.index t (0 : Fin 2) = win2_6.index t (1 : Fin 3) ∧ win2_5.index t (1 : Fin 2) = 0
    ∧ win2_6.index t (0 : Fin 3) < 16 ∧ win2_6.index t (1 : Fin 3) < 8 ∧ win2_6.index t (2 : Fin 3) = 0
    ∧ win2_7.index t (0 : Fin 2) = win2_6.index t (1 : Fin 3) ∧ win2_7.index t (1 : Fin 2) = win2_6.index t (0 : Fin 3) :=
  (by decide +kernel : ∀ t : Fin grid2.N, _)

/-- Every (head pair, query tile) is some grid point's. -/
theorem idx_onto2 : ∀ (q0 : Fin 16) (q1 : Fin 8), ∃ t : Fin cfg2.N, win2_6.index t = ![q0.val, q1.val, 0] :=
  (by decide +kernel : ∀ (q0 : Fin 16) (q1 : Fin 8), ∃ t : Fin grid2.N, win2_6.index t = ![q0.val, q1.val, 0])

/-- The head pair of a grid point … -/
def hpOf (t : Fin cfg2.N) : Fin 16 := ⟨win2_6.index t (0 : Fin 3), (idx_facts2 t).2.2.2.2.2.2.2.2.2.2.2.2.2.2.1⟩
/-- … and its query tile. -/
def qiOf (t : Fin cfg2.N) : Fin 8 := ⟨win2_6.index t (1 : Fin 3), (idx_facts2 t).2.2.2.2.2.2.2.2.2.2.2.2.2.2.2.1⟩

variable (V : (c : Dev nD) → (b : Ref sig .tc) → Buf (Elt Ideal) ((c : Thread nD τ).loc b))

/-! ## The arrays the region is entered with, read by coordinates -/

abbrev rdQ (c : Dev nD) : Fin 2048 → Fin 2048 → EReal := fun s n => (V c main_v3 : S2048x2048.Idx → EReal) (ix2 s n)
abbrev rdC (c : Dev nD) : Fin 2048 → Fin 64 → EReal := fun s d => (V c main_v6 : S2048x64.Idx → EReal) (ix2 s d)
abbrev rdS (c : Dev nD) : Fin 2048 → Fin 64 → EReal := fun s d => (V c main_v7 : S2048x64.Idx → EReal) (ix2 s d)
abbrev rdK (c : Dev nD) : Fin 8 → Fin 2048 → Fin 64 → EReal := fun g t d => (V c main_v9 : S8x2048x64.Idx → EReal) (ix3 g t d)
abbrev rdM (c : Dev nD) : Fin 2048 → Fin 2048 → EReal := fun s t => (V c main_v8 : S2048x2048.Idx → EReal) (ix2 s t)
abbrev rdV (c : Dev nD) : Fin 8 → Fin 2048 → Fin 64 → EReal := fun g t d => (V c main_v12 : S8x2048x64.Idx → EReal) (ix3 g t d)

/-! ## Each input block as a read of its array -/

theorem iblk2_0_apply (c : Dev nD) (t : Fin cfg2.N) (r : Fin 256) (n : Fin 128) :
    (iblk2 V c 0 t : Vec Ideal S256x128 .f32) (ix2 r n) = rdQ V c (rowOf (qiOf t) r) (featOf (hpOf t) n) := by
  obtain ⟨e0, e1, -⟩ := idx_facts2 t
  unfold iblk2
  rw [View.read_apply]
  show V c main_v3 _ = V c main_v3 _
  congr 1
  funext a
  apply Fin.ext
  match a with
  | ⟨0, _⟩ => show win2_0.index t (0 : Fin 2) * 256 + 1 * r.val = win2_6.index t (1 : Fin 3) * 256 + r.val; omega
  | ⟨1, _⟩ => show win2_0.index t (1 : Fin 2) * 128 + 1 * n.val = win2_6.index t (0 : Fin 3) * 128 + n.val; omega

theorem iblk2_1_apply (c : Dev nD) (t : Fin cfg2.N) (r : Fin 256) (d : Fin 64) :
    (iblk2 V c 1 t : Vec Ideal S256x64 .f32) (ix2 r d) = rdC V c (rowOf (qiOf t) r) d := by
  obtain ⟨-, -, e0, e1, -⟩ := idx_facts2 t
  unfold iblk2
  rw [View.read_apply]
  show V c main_v6 _ = V c main_v6 _
  congr 1
  funext a
  apply Fin.ext
  match a with
  | ⟨0, _⟩ => show win2_1.index t (0 : Fin 2) * 256 + 1 * r.val = win2_6.index t (1 : Fin 3) * 256 + r.val; omega
  | ⟨1, _⟩ => show win2_1.index t (1 : Fin 2) * 64 + 1 * d.val = d.val; omega

theorem iblk2_2_apply (c : Dev nD) (t : Fin cfg2.N) (r : Fin 256) (d : Fin 64) :
    (iblk2 V c 2 t : Vec Ideal S256x64 .f32) (ix2 r d) = rdS V c (rowOf (qiOf t) r) d := by
  obtain ⟨-, -, -, -, e0, e1, -⟩ := idx_facts2 t
  unfold iblk2
  rw [View.read_apply]
  show V c main_v7 _ = V c main_v7 _
  congr 1
  funext a
  apply Fin.ext
  match a with
  | ⟨0, _⟩ => show win2_2.index t (0 : Fin 2) * 256 + 1 * r.val = win2_6.index t (1 : Fin 3) * 256 + r.val; omega
  | ⟨1, _⟩ => show win2_2.index t (1 : Fin 2) * 64 + 1 * d.val = d.val; omega

theorem iblk2_3_apply (c : Dev nD) (t : Fin cfg2.N) (k : Fin 2048) (d : Fin 64) :
    (iblk2 V c 3 t : Vec Ideal S1x2048x64 .bf16) (ix3 (0 : Fin 1) k d) = rdK V c (kvOfPair (hpOf t)) k d := by
  obtain ⟨-, -, -, -, -, -, e0, e1, e2, -⟩ := idx_facts2 t
  unfold iblk2
  rw [View.read_apply]
  show V c main_v9 _ = V c main_v9 _
  congr 1
  funext a
  apply Fin.ext
  match a with
  | ⟨0, _⟩ => show win2_3.index t (0 : Fin 3) * 1 + 1 * 0 = win2_6.index t (0 : Fin 3) / 2; omega
  | ⟨1, _⟩ => show win2_3.index t (1 : Fin 3) * 2048 + 1 * k.val = k.val; omega
  | ⟨2, _⟩ => show win2_3.index t (2 : Fin 3) * 64 + 1 * d.val = d.val; omega

theorem iblk2_4_apply (c : Dev nD) (t : Fin cfg2.N) (k : Fin 2048) (d : Fin 64) :
    (iblk2 V c 4 t : Vec Ideal S1x2048x64 .bf16) (ix3 (0 : Fin 1) k d) = rdV V c (kvOfPair (hpOf t)) k d := by
  obtain ⟨-, -, -, -, -, -, -, -, -, e0, e1, e2, -⟩ := idx_facts2 t
  unfold iblk2
  rw [View.read_apply]
  show V c main_v12 _ = V c main_v12 _
  congr 1
  funext a
  apply Fin.ext
  match a with
  | ⟨0, _⟩ => show win2_4.index t (0 : Fin 3) * 1 + 1 * 0 = win2_6.index t (0 : Fin 3) / 2; omega
  | ⟨1, _⟩ => show win2_4.index t (1 : Fin 3) * 2048 + 1 * k.val = k.val; omega
  | ⟨2, _⟩ => show win2_4.index t (2 : Fin 3) * 64 + 1 * d.val = d.val; omega

theorem iblk2_5_apply (c : Dev nD) (t : Fin cfg2.N) (r : Fin 256) (k : Fin 2048) :
    (iblk2 V c 5 t : Vec Ideal S256x2048 .f32) (ix2 r k) = rdM V c (rowOf (qiOf t) r) k := by
  obtain ⟨-, -, -, -, -, -, -, -, -, -, -, -, e0, e1, -⟩ := idx_facts2 t
  unfold iblk2
  rw [View.read_apply]
  show V c main_v8 _ = V c main_v8 _
  congr 1
  funext a
  apply Fin.ext
  match a with
  | ⟨0, _⟩ => show win2_5.index t (0 : Fin 2) * 256 + 1 * r.val = win2_6.index t (1 : Fin 3) * 256 + r.val; omega
  | ⟨1, _⟩ => show win2_5.index t (1 : Fin 2) * 2048 + 1 * k.val = k.val; omega

/-- The five blocks the weights depend on are the blocks of the five arrays at the point's query tile and head pair. -/
theorem reads_iblk2 (c : Dev nD) (t : Fin cfg2.N) :
    Reads (rdQ V c) (rdC V c) (rdS V c) (rdK V c) (rdM V c) (iblk2 V c 0 t) (iblk2 V c 1 t) (iblk2 V c 2 t)
      (iblk2 V c 3 t) (iblk2 V c 5 t) (qiOf t) (hpOf t) :=
  ⟨iblk2_0_apply V c t, iblk2_1_apply V c t, iblk2_2_apply V c t, iblk2_3_apply V c t, iblk2_5_apply V c t⟩

end Cert.KernelIdeal.KVal2

end
-- ==== Proof.ValAttnOut.lean ====
/-
  What the attention cell leaves in its two output buffers at a grid point, entry by entry.

  The weights buffer (2 × 256 × 2048) is written by two stores, the first head's weights to slab 0 and the second
  head's to slab 1: entry `(e, r, t)` is the specification's weight of head `2 hp + e`, row `256 qi + r`, key `t`.
  The context buffer (256 × 128) is written by one store of both heads' contexts side by side: entry `(r, n)` is
  the specification's context feature `128 hp + n` at row `256 qi + r`: that feature belongs to head
  `(128 hp + n) / 64 = 2 hp + n / 64`, lane `n % 64`, and its head attends to key/value head `hp / 2`.
-/
import proofs.«162642_j16423954940491_2_alg».proof.Proof.FrDefs
import proofs.«162642_j16423954940491_2_alg».proof.Proof.Spec
import proofs.«162642_j16423954940491_2_alg».proof.Proof.ValAttnCell
import Idealize.ShloMosaic.Lib.ValueLayout
import Idealize.ShloMosaic.PureOps.Ideal.Laws

noncomputable section

namespace Cert.KernelIdeal.KVal2

open Idealize.ShloMosaic Cert.KernelIdeal Cert.KernelIdeal.Gen Cert.KernelIdeal.Fr Idealize.ShloMosaic.ValueIdx

section
variable {q : Fin 2048 → Fin 2048 → EReal} {C Sn : Fin 2048 → Fin 64 → EReal}
  {K : Fin 8 → Fin 2048 → Fin 64 → EReal} {M : Fin 2048 → Fin 2048 → EReal} (Vv : Fin 8 → Fin 2048 → Fin 64 → EReal)
variable {x0 : Vec Ideal S256x128 .f32} {x1 x2 : Vec Ideal S256x64 .f32}
  {x3 : Vec Ideal S1x2048x64 .bf16} (x4 : Vec Ideal S1x2048x64 .bf16) {x5 : Vec Ideal S256x2048 .f32}
variable {qi : Fin 8} {hp : Fin 16}

/-- The weights of the pair's two heads, as a function of the weights buffer's index. -/
def blkProb (q : Fin 2048 → Fin 2048 → EReal) (C Sn : Fin 2048 → Fin 64 → EReal)
    (K : Fin 8 → Fin 2048 → Fin 64 → EReal) (M : Fin 2048 → Fin 2048 → EReal) (qi : Fin 8) (hp : Fin 16) :
    S2x256x2048.Idx → EReal :=
  fun y => Cert.Spec.cellProb q C Sn K M (headOfPair hp (y 0)) (rowOf qi (y 1)) (y 2)

/-- Slab `e` of the weights buffer, read at a slab index, is the buffer at `(e, r, t)`. -/
theorem slab_emb (e : Fin 2) (off : Fin 3 → Nat) (hoff : off = ![e.val, 0, 0])
    (inb : ∀ a, off a + S1x256x2048.size a ≤ S2x256x2048.size a) (u : Fin 1) (r : Fin 256) (t : Fin 2048) :
    (Rect.unit (s := S2x256x2048) off S1x256x2048.size inb).emb (ix3 u r t) = ix3 e r t := by
  subst hoff
  funext a
  apply Fin.ext
  rw [Rect.emb_apply]
  have hu : u.val = 0 := by have := u.isLt; omega
  match a with
  | ⟨0, _⟩ => show e.val + 1 * u.val = e.val; omega
  | ⟨1, _⟩ => show 0 + 1 * r.val = r.val; omega
  | ⟨2, _⟩ => show 0 + 1 * t.val = t.val; omega

/-- THE WEIGHTS BUFFER after the body, at `(e, r, t)`. -/
theorem out2_6_apply (R : Reads q C Sn K M x0 x1 x2 x3 x5 qi hp) (e : Fin 2) (r : Fin 256) (t : Fin 2048) :
    out2_6 x0 x1 x2 x3 x5 (ix3 e r t) = Cert.Spec.cellProb q C Sn K M (headOfPair hp e) (rowOf qi r) t := by
  unfold out2_6
  simp only [p2_keys, p2_mask, p2_q1, p2_sc0, p2_mx0, View.ld_unit_zero (S := S256x128) hz2,
    View.ld_unit_zero (S := S256x64) hz2, View.ld_unit_zero (S := S1x2048x64) hz3, View.ld_unit_zero (S := S256x2048) hz2]
  refine (View.canon_apply_of_pieces (blkProb q C Sn K M qi hp) _ ?_ (ix3 e r t) ?_).trans rfl
  · intro pc hpc x
    rcases List.mem_cons.mp hpc with rfl | hpc
    · obtain ⟨u, r', t', rfl⟩ : ∃ (u : Fin 1) (r' : Fin 256) (t' : Fin 2048), x = ix3 u r' t' :=
        ⟨x 0, x 1, x 2, eq_ix3 x⟩
      show k2_pay4 (k2_pay9 x3) (k2_pay11 x5) (k2_pay12 x0 x1 x2) (ix3 u r' t') = blkProb q C Sn K M qi hp (rW1.emb (ix3 u r' t'))
      have hemb : rW1.emb (ix3 u r' t') = ix3 (1 : Fin 2) r' t' := slab_emb (1 : Fin 2) _ rfl _ u r' t'
      rw [hemb]
      show _ = Cert.Spec.cellProb q C Sn K M (headOfPair hp 1) (rowOf qi r') t'
      unfold k2_pay4
      rw [shapeCast_ab_1ab_apply, head1_eq]
      exact probV_apply R 64 _ (1 : Fin 2) rfl r' t'
    rcases List.mem_cons.mp hpc with rfl | hpc
    · obtain ⟨u, r', t', rfl⟩ : ∃ (u : Fin 1) (r' : Fin 256) (t' : Fin 2048), x = ix3 u r' t' :=
        ⟨x 0, x 1, x 2, eq_ix3 x⟩
      show k2_pay3 (k2_pay13 x0 x1 x2 x3 x5) (k2_pay14 x0 x1 x2 x3 x5) (k2_pay15 (F := Ideal)) (ix3 u r' t')
        = blkProb q C Sn K M qi hp (rW0.emb (ix3 u r' t'))
      have hemb : rW0.emb (ix3 u r' t') = ix3 (0 : Fin 2) r' t' := slab_emb (0 : Fin 2) _ rfl _ u r' t'
      rw [hemb]
      show _ = Cert.Spec.cellProb q C Sn K M (headOfPair hp 0) (rowOf qi r') t'
      unfold k2_pay3
      rw [shapeCast_ab_1ab_apply, head0_eq]
      exact probV_apply R 0 _ (0 : Fin 2) rfl r' t'
    nomatch hpc
  · have he : e.val < 2 := e.isLt
    have hr : r.val < 256 := r.isLt
    have ht : t.val < 2048 := t.isLt
    by_cases h : e.val = 0
    · refine ⟨⟨rW0, _⟩, List.mem_cons_of_mem _ List.mem_cons_self, ?_⟩
      show ix3 e r t ∈ rW0.set
      rw [Rect.mem_set_unit]
      intro a
      match a with
      | ⟨0, _⟩ => show 0 ≤ e.val ∧ e.val < 0 + 1; omega
      | ⟨1, _⟩ => show 0 ≤ r.val ∧ r.val < 0 + 256; omega
      | ⟨2, _⟩ => show 0 ≤ t.val ∧ t.val < 0 + 2048; omega
    · refine ⟨⟨rW1, _⟩, List.mem_cons_self, ?_⟩
      show ix3 e r t ∈ rW1.set
      rw [Rect.mem_set_unit]
      intro a
      match a with
      | ⟨0, _⟩ => show 1 ≤ e.val ∧ e.val < 1 + 1; omega
      | ⟨1, _⟩ => show 0 ≤ r.val ∧ r.val < 0 + 256; omega
      | ⟨2, _⟩ => show 0 ≤ t.val ∧ t.val < 0 + 2048; omega

/-- THE CONTEXT BUFFER after the body, at `(r, n)`. -/
theorem out2_7_apply (R : Reads q C Sn K M x0 x1 x2 x3 x5 qi hp)
    (h4 : ∀ (t : Fin 2048) (d : Fin 64), x4 (ix3 (0 : Fin 1) t d) = Vv (kvOfPair hp) t d) (r : Fin 256) (n : Fin 128) :
    out2_7 x0 x1 x2 x3 x4 x5 (ix2 r n) = Cert.Spec.cellCtx q C Sn K M Vv (rowOf qi r) (featOf hp n) := by
  have hhp : hp.val < 16 := hp.isLt
  have hn : n.val < 128 := n.isLt
  unfold out2_7
  rw [View.canon_unit_zero hz2]
  simp only [p2_keys, p2_vals, p2_mask, p2_q1, p2_sc0, p2_mx0, View.ld_unit_zero (S := S256x128) hz2,
    View.ld_unit_zero (S := S256x64) hz2, View.ld_unit_zero (S := S1x2048x64) hz3, View.ld_unit_zero (S := S256x2048) hz2]
  rw [pay5_eq, head0_eq, head1_eq]
  unfold Cert.Spec.cellCtx
  have eg : kvOfPair hp = Cert.Spec.grp (Cert.Spec.headOf (featOf hp n)) := Fin.ext (by
    show hp.val / 2 = (hp.val * 128 + n.val) / 64 / 4
    omega)
  have hV : ∀ (t : Fin 2048) (d : Fin 64), k2_pay10 x4 (ix2 t d) = Vv (kvOfPair hp) t d := fun t d => by
    unfold k2_pay10
    rw [shapeCast_1ab_ab_apply, h4]
  rw [← eg]
  by_cases h : n.val < 64
  · have eh : headOfPair hp 0 = Cert.Spec.headOf (featOf hp n) := Fin.ext (by
      show hp.val * 2 + 0 = (hp.val * 128 + n.val) / 64
      omega)
    have el : (⟨n.val, h⟩ : Fin 64) = Cert.Spec.laneOf (featOf hp n) := Fin.ext (by
      show n.val = (hp.val * 128 + n.val) % 64
      omega)
    rw [catV_apply_lo _ _ r n h, ctxV_apply, ← eh, ← el]
    refine Finset.sum_congr rfl fun t _ => ?_
    rw [probV_apply R 0 _ (0 : Fin 2) rfl r t, hV]
  · have h' : 64 ≤ n.val := Nat.le_of_not_lt h
    have eh : headOfPair hp 1 = Cert.Spec.headOf (featOf hp n) := Fin.ext (by
      show hp.val * 2 + 1 = (hp.val * 128 + n.val) / 64
      omega)
    have el : (⟨n.val - 64, by omega⟩ : Fin 64) = Cert.Spec.laneOf (featOf hp n) := Fin.ext (by
      show n.val - 64 = (hp.val * 128 + n.val) % 64
      omega)
    rw [catV_apply_hi _ _ r n h', ctxV_apply, ← eh, ← el]
    refine Finset.sum_congr rfl fun t _ => ?_
    rw [probV_apply R 64 _ (1 : Fin 2) rfl r t, hV]

end

end Cert.KernelIdeal.KVal2

end
-- ==== Proof.ValAttnFinal.lean ====
/-
  The two result arrays of the attention region, index by index.

  What a grid point writes back to the weights array is the block (head pair, query tile) of ONE function of the
  array's index, the specification's attention weight at (head, query position, key position), and likewise for the
  context array with the specification's context at (position, feature): an entry `(e, r, t)` of the weights
  buffer lands at head `2 hp + e`, row `256 qi + r`, key `t`, an entry `(r, n)` of the context buffer at row
  `256 qi + r`, feature `128 hp + n`. Every index of either array is in the block of the point whose head pair is
  head / 2 (feature / 128) and whose query tile is row / 256, so after the region each array holds its function
  everywhere.
-/
import proofs.«162642_j16423954940491_2_alg».proof.Proof.FrDefs
import proofs.«162642_j16423954940491_2_alg».proof.Proof.Spec
import proofs.«162642_j16423954940491_2_alg».proof.Proof.ValAttnBlocks
import proofs.«162642_j16423954940491_2_alg».proof.Proof.ValAttnOut
import Idealize.ShloMosaic.Lib.ValueLayout
import Idealize.ShloMosaic.PureOps.Ideal.Laws

noncomputable section

namespace Cert.KernelIdeal.KVal2

open Idealize.ShloMosaic Cert.KernelIdeal Cert.KernelIdeal.Gen Cert.KernelIdeal.Fr Idealize.ShloMosaic.ValueIdx

open Idealize.ShloMosaic.Pipeline (Dat)
open Idealize.ShloMosaic.TcCoe

variable (V : (c : Dev nD) → (b : Ref sig .tc) → Buf (Elt Ideal) ((c : Thread nD τ).loc b))

/-- What the weights array ends holding … -/
abbrev G6 (c : Dev nD) : S32x2048x2048.Idx → EReal := fun i =>
  Cert.Spec.cellProb (rdQ V c) (rdC V c) (rdS V c) (rdK V c) (rdM V c) (i 0) (i 1) (i 2)
/-- … and the context array. -/
abbrev G7 (c : Dev nD) : S2048x2048.Idx → EReal := fun i =>
  Cert.Spec.cellCtx (rdQ V c) (rdC V c) (rdS V c) (rdK V c) (rdM V c) (rdV V c) (i 0) (i 1)

/-! ## The weights array -/

/-- An entry of the weights buffer after the body is the array's function at the index under it. -/
theorem flush6_point (c : Dev nD) (t : Fin cfg2.N) (y : S2x256x2048.Idx) :
    out2_6 (iblk2 V c 0 t) (iblk2 V c 1 t) (iblk2 V c 2 t) (iblk2 V c 3 t) (iblk2 V c 5 t) y
      = G6 V c (((cfg2.win 6).blk t).view.emb y) := by
  obtain ⟨e, r, k, rfl⟩ : ∃ (e : Fin 2) (r : Fin 256) (k : Fin 2048), y = ix3 e r k := ⟨y 0, y 1, y 2, eq_ix3 y⟩
  have hemb : ((cfg2.win 6).blk t).view.emb (ix3 e r k) = ix3 (headOfPair (hpOf t) e) (rowOf (qiOf t) r) k := by
    obtain ⟨-, -, -, -, -, -, -, -, -, -, -, -, -, -, -, -, z2, -⟩ := idx_facts2 t
    funext a
    apply Fin.ext
    match a with
    | ⟨0, _⟩ => show win2_6.index t (0 : Fin 3) * 2 + 1 * e.val = win2_6.index t (0 : Fin 3) * 2 + e.val; omega
    | ⟨1, _⟩ => show win2_6.index t (1 : Fin 3) * 256 + 1 * r.val = win2_6.index t (1 : Fin 3) * 256 + r.val; omega
    | ⟨2, _⟩ => show win2_6.index t (2 : Fin 3) * 2048 + 1 * k.val = k.val; omega
  rw [hemb]
  exact out2_6_apply (x0 := iblk2 V c 0 t) (x1 := iblk2 V c 1 t) (x2 := iblk2 V c 2 t) (x3 := iblk2 V c 3 t)
    (x5 := iblk2 V c 5 t) (reads_iblk2 V c t) e r k

/-- WHAT POINT `t` WRITES BACK to the weights array is block `t` of its function. -/
theorem flushed6_eq (c : Dev nD) (t : Fin cfg2.N) :
    (dat2 V c).flushed 6 t = ((cfg2.win 6).blk t).view.read (Elt Ideal) (G6 V c) := by
  show (cfg2.win 6).cut (grid2.coords t) ((dat2 V c).after 6 t) = _
  rw [after2_6]
  funext y
  exact flush6_point V c t y

theorem mem_blk6 (t : Fin cfg2.N) (i : S32x2048x2048.Idx) :
    i ∈ ((cfg2.win 6).blk t).view.set ↔ ∀ a : Fin 3, win2_6.index t a * S2x256x2048.size a ≤ (i a).val
      ∧ (i a).val < win2_6.index t a * S2x256x2048.size a + S2x256x2048.size a := by
  show i ∈ ((View.whole main_v13_0).slice (win2_6.rect t)).set ↔ _
  rw [View.set_slice_whole, Rect.mem_set_unit]
  exact Iff.rfl

/-- Every index of the weights array is in some point's block. -/
theorem cover6 (i : S32x2048x2048.Idx) :
    ∃ t : Fin cfg2.N, (cfg2.win 6).flush t = true ∧ i ∈ ((cfg2.win 6).blk t).view.set := by
  have hi0 : (i 0).val < 32 := (i 0).isLt
  have hi1 : (i 1).val < 2048 := (i 1).isLt
  have hi2 : (i 2).val < 2048 := (i 2).isLt
  obtain ⟨t, ht⟩ := idx_onto2 ⟨(i 0).val / 2, by omega⟩ ⟨(i 1).val / 256, by omega⟩
  have q0 : win2_6.index t (0 : Fin 3) = (i 0).val / 2 := congrFun ht 0
  have q1 : win2_6.index t (1 : Fin 3) = (i 1).val / 256 := congrFun ht 1
  have q2 : win2_6.index t (2 : Fin 3) = 0 := congrFun ht 2
  refine ⟨t, flush2_6 t, ?_⟩
  rw [mem_blk6]
  intro a
  match a with
  | ⟨0, _⟩ => show win2_6.index t (0 : Fin 3) * 2 ≤ (i 0).val ∧ (i 0).val < win2_6.index t (0 : Fin 3) * 2 + 2; omega
  | ⟨1, _⟩ => show win2_6.index t (1 : Fin 3) * 256 ≤ (i 1).val ∧ (i 1).val < win2_6.index t (1 : Fin 3) * 256 + 256; omega
  | ⟨2, _⟩ => show win2_6.index t (2 : Fin 3) * 2048 ≤ (i 2).val ∧ (i 2).val < win2_6.index t (2 : Fin 3) * 2048 + 2048; omega

/-- THE WEIGHTS ARRAY after the region: the specification's attention weights of the arrays the region is entered with. -/
theorem final2_6 (c : Dev nD) (h : Fin 32) (s t : Fin 2048) :
    (dat2 (F := Ideal) V c).arrAt 6 cfg2.N (ix3 h s t)
      = Cert.Spec.cellProb (rdQ V c) (rdC V c) (rdS V c) (rdK V c) (rdM V c) h s t :=
  congrFun ((dat2 V c).arrAt_eq_of_cover 6 (G6 V c) (fun t _ => flushed6_eq V c t) cover6) (ix3 h s t)

/-! ## The context array -/

/-- An entry of the context buffer after the body is the array's function at the index under it. -/
theorem flush7_point (c : Dev nD) (t : Fin cfg2.N) (y : S256x128.Idx) :
    out2_7 (iblk2 V c 0 t) (iblk2 V c 1 t) (iblk2 V c 2 t) (iblk2 V c 3 t) (iblk2 V c 4 t) (iblk2 V c 5 t) y
      = G7 V c (((cfg2.win 7).blk t).view.emb y) := by
  obtain ⟨r, n, rfl⟩ : ∃ (r : Fin 256) (n : Fin 128), y = ix2 r n := ⟨y 0, y 1, eq_ix2 y⟩
  have hemb : ((cfg2.win 7).blk t).view.emb (ix2 r n) = ix2 (rowOf (qiOf t) r) (featOf (hpOf t) n) := by
    obtain ⟨-, -, -, -, -, -, -, -, -, -, -, -, -, -, -, -, -, e0, e1⟩ := idx_facts2 t
    funext a
    apply Fin.ext
    match a with
    | ⟨0, _⟩ => show win2_7.index t (0 : Fin 2) * 256 + 1 * r.val = win2_6.index t (1 : Fin 3) * 256 + r.val; omega
    | ⟨1, _⟩ => show win2_7.index t (1 : Fin 2) * 128 + 1 * n.val = win2_6.index t (0 : Fin 3) * 128 + n.val; omega
  rw [hemb]
  exact out2_7_apply (x0 := iblk2 V c 0 t) (x1 := iblk2 V c 1 t) (x2 := iblk2 V c 2 t) (x3 := iblk2 V c 3 t)
    (x5 := iblk2 V c 5 t) (rdV V c) (iblk2 V c 4 t) (reads_iblk2 V c t) (iblk2_4_apply V c t) r n

/-- WHAT POINT `t` WRITES BACK to the context array is block `t` of its function. -/
theorem flushed7_eq (c : Dev nD) (t : Fin cfg2.N) :
    (dat2 V c).flushed 7 t = ((cfg2.win 7).blk t).view.read (Elt Ideal) (G7 V c) := by
  show (cfg2.win 7).cut (grid2.coords t) ((dat2 V c).after 7 t) = _
  rw [after2_7]
  funext y
  exact flush7_point V c t y

theorem mem_blk7 (t : Fin cfg2.N) (i : S2048x2048.Idx) :
    i ∈ ((cfg2.win 7).blk t).view.set ↔ ∀ a : Fin 2, win2_7.index t a * S256x128.size a ≤ (i a).val
      ∧ (i a).val < win2_7.index t a * S256x128.size a + S256x128.size a := by
  show i ∈ ((View.whole main_v13_1).slice (win2_7.rect t)).set ↔ _
  rw [View.set_slice_whole, Rect.mem_set_unit]
  exact Iff.rfl

/-- Every index of the context array is in some point's block. -/
theorem cover7 (i : S2048x2048.Idx) :
    ∃ t : Fin cfg2.N, (cfg2.win 7).flush t = true ∧ i ∈ ((cfg2.win 7).blk t).view.set := by
  have hi0 : (i 0).val < 2048 := (i 0).isLt
  have hi1 : (i 1).val < 2048 := (i 1).isLt
  obtain ⟨t, ht⟩ := idx_onto2 ⟨(i 1).val / 128, by omega⟩ ⟨(i 0).val / 256, by omega⟩
  have q0 : win2_6.index t (0 : Fin 3) = (i 1).val / 128 := congrFun ht 0
  have q1 : win2_6.index t (1 : Fin 3) = (i 0).val / 256 := congrFun ht 1
  obtain ⟨-, -, -, -, -, -, -, -, -, -, -, -, -, -, -, -, -, e0, e1⟩ := idx_facts2 t
  refine ⟨t, flush2_7 t, ?_⟩
  rw [mem_blk7]
  intro a
  match a with
  | ⟨0, _⟩ => show win2_7.index t (0 : Fin 2) * 256 ≤ (i 0).val ∧ (i 0).val < win2_7.index t (0 : Fin 2) * 256 + 256; omega
  | ⟨1, _⟩ => show win2_7.index t (1 : Fin 2) * 128 ≤ (i 1).val ∧ (i 1).val < win2_7.index t (1 : Fin 2) * 128 + 128; omega

/-- THE CONTEXT ARRAY after the region: the specification's context of the arrays the region is entered with. -/
theorem final2_7 (c : Dev nD) (s n : Fin 2048) :
    (dat2 (F := Ideal) V c).arrAt 7 cfg2.N (ix2 s n)
      = Cert.Spec.cellCtx (rdQ V c) (rdC V c) (rdS V c) (rdK V c) (rdM V c) (rdV V c) s n :=
  congrFun ((dat2 V c).arrAt_eq_of_cover 7 (G7 V c) (fun t _ => flushed7_eq V c t) cover7) (ix2 s n)

end Cert.KernelIdeal.KVal2

end
-- ==== Proof.ValAttn.lean ====
/-
  The attention region's two result arrays as values: one module gathering the attention cell's entry-by-entry
  lemmas, the blocks of the six input windows, and the two arrays after the region (`final2_6`, `final2_7`).
-/
import proofs.«162642_j16423954940491_2_alg».proof.Proof.ValAttnFinal
-- ==== Proof.ValBridge.lean ====
/-
  The kernel program's two results as functions of its eight launch arrays: every boundary buffer of the run, read at
  an index, is a function of `Cert.Spec` of the launch arrays. The stacked projection restricted to its three column
  ranges is the query, key and value projection; the rotated keys are `ropeK` of the key projection; the attention
  region's weights and contexts are `cellProb` and `cellCtx` of these; the last product is `out`.
-/
import proofs.«162642_j16423954940491_2_alg».proof.Proof.ValHost
import proofs.«162642_j16423954940491_2_alg».proof.Proof.ValMM
import proofs.«162642_j16423954940491_2_alg».proof.Proof.ValRope
import proofs.«162642_j16423954940491_2_alg».proof.Proof.ValAttn

noncomputable section

namespace Cert.KernelIdeal.KBridge

open Idealize.ShloMosaic Idealize.ShloMosaic.TcCoe Idealize.SL.Sem
open Cert.KernelIdeal Cert.KernelIdeal.Gen Cert.KernelIdeal.Fr Idealize.ShloMosaic.ValueIdx
open Cert.KernelIdeal.KVal Cert.KernelIdeal.KVal2

variable (m : (ℓ : Loc nD τ sig) → Buf (Elt Ideal) ℓ) (ρ : Dev nD → PrngReg) (c : Dev nD)

/-- The launch arrays as curried functions. -/
abbrev aX : Fin 2048 → Fin 2048 → EReal := Cert.Spec.rd3 (m ((c : Thread nD τ).loc main_arg0))
abbrev aC : Fin 2048 → Fin 64 → EReal := Cert.Spec.rd3 (m ((c : Thread nD τ).loc main_arg1))
abbrev aS : Fin 2048 → Fin 64 → EReal := Cert.Spec.rd3 (m ((c : Thread nD τ).loc main_arg2))
abbrev aM : Fin 2048 → Fin 2048 → EReal := Cert.Spec.rd4 (m ((c : Thread nD τ).loc main_arg3))
abbrev aWq : Fin 2048 → Fin 2048 → EReal := Cert.Spec.rd2 (m ((c : Thread nD τ).loc main_arg4))
abbrev aWk : Fin 512 → Fin 2048 → EReal := Cert.Spec.rd2 (m ((c : Thread nD τ).loc main_arg5))
abbrev aWv : Fin 512 → Fin 2048 → EReal := Cert.Spec.rd2 (m ((c : Thread nD τ).loc main_arg6))
abbrev aWo : Fin 2048 → Fin 2048 → EReal := Cert.Spec.rd2 (m ((c : Thread nD τ).loc main_arg7))

/-! ## The stacked projection and its three column ranges -/

/-- The first region leaves the hidden states against the stacked weights. -/
theorem proj_all (s : Fin 2048) (j : Fin 3072) :
    Cert.Spec.rd2 (W2 (F := Ideal) m ρ c (Proc.devRef .tc main_v2)) s j = Cert.Spec.proj (aX m c) (Cert.Spec.rd2 (W1 (F := Ideal) m ρ c (Proc.devRef .tc main_v1))) s j := by
  refine (congrFun (W2_arr m ρ c 2) (ix2 s j)).trans ?_
  refine (final0 (V1 m ρ) c s j).trans ?_
  rw [show Cert.Spec.rd2 (V1 (F := Ideal) m ρ c main_v0) = aX m c from rd_v0 m ρ c]

/-- The query columns are the query projection. -/
theorem q_eq : Cert.Spec.rd2 (W3 (F := Ideal) m ρ c (Proc.devRef .tc main_v3)) = Cert.Spec.proj (aX m c) (aWq m c) := by
  funext s n
  rw [rd_v3 m ρ c s n, proj_all m ρ c s]
  unfold Cert.Spec.proj
  exact Finset.sum_congr rfl fun k _ => by rw [cat_q m ρ c n k]
/-- The key columns are the key projection. -/
theorem k_eq : Cert.Spec.rd2 (W3 (F := Ideal) m ρ c (Proc.devRef .tc main_v4)) = Cert.Spec.proj (aX m c) (aWk m c) := by
  funext s n
  rw [rd_v4 m ρ c s n, proj_all m ρ c s]
  unfold Cert.Spec.proj
  exact Finset.sum_congr rfl fun k _ => by rw [cat_k m ρ c n k]
/-- The value columns are the value projection. -/
theorem v_eq : Cert.Spec.rd2 (W3 (F := Ideal) m ρ c (Proc.devRef .tc main_v5)) = Cert.Spec.proj (aX m c) (aWv m c) := by
  funext s n
  rw [rd_v5 m ρ c s n, proj_all m ρ c s]
  unfold Cert.Spec.proj
  exact Finset.sum_congr rfl fun k _ => by rw [cat_v m ρ c n k]

/-! ## The rotated keys -/

theorem k9_eq (g : Fin 8) (t : Fin 2048) (d : Fin 64) :
    ((W4 (F := Ideal) m ρ c (Proc.devRef .tc main_v9)) : S8x2048x64.Idx → EReal) (ix3 g t d)
      = Cert.Spec.ropeK (Cert.Spec.proj (aX m c) (aWk m c)) (aC m c) (aS m c) g t d := by
  refine (congrFun (W4_arr m ρ c 3) (ix3 g t d)).trans ?_
  refine (final1 (V3 m ρ) c g t d).trans ?_
  rw [show Cert.Spec.rd2 (V3 (F := Ideal) m ρ c main_v4) = _ from k_eq m ρ c,
    show Cert.Spec.rd2 (V3 (F := Ideal) m ρ c main_v6) = _ from rd_v6 m ρ c,
    show Cert.Spec.rd2 (V3 (F := Ideal) m ρ c main_v7) = _ from rd_v7 m ρ c]
  rfl

/-! ## What the attention region reads -/

/-- The cosine and sine tables are inputs of the key-rotation region, which leaves them as it found them. -/
theorem W5_v6 : W5 (F := Ideal) m ρ c (Proc.devRef .tc main_v6) = W3 (F := Ideal) m ρ c (Proc.devRef .tc main_v6) :=
  (W5_of m ρ c main_v6 (by decide)).trans ((W4_arr m ρ c 1).trans (((dat1 (V3 m ρ) c).arrAt_in 1 rfl _).trans (A_eq1 (V3 m ρ) c 1)))
theorem W5_v7 : W5 (F := Ideal) m ρ c (Proc.devRef .tc main_v7) = W3 (F := Ideal) m ρ c (Proc.devRef .tc main_v7) :=
  (W5_of m ρ c main_v7 (by decide)).trans ((W4_arr m ρ c 2).trans (((dat1 (V3 m ρ) c).arrAt_in 2 rfl _).trans (A_eq1 (V3 m ρ) c 2)))

theorem rdQ5 : rdQ (V5 (F := Ideal) m ρ) c = Cert.Spec.proj (aX m c) (aWq m c) := by
  funext s n
  refine (congrArg (fun b => Cert.Spec.rd2 b s n) (W5_of_W3 m ρ c main_v3 (by decide) (by decide))).trans ?_
  exact congrFun (congrFun (q_eq m ρ c) s) n
theorem rdC5 : rdC (V5 (F := Ideal) m ρ) c = aC m c := by
  funext s d
  refine (congrArg (fun b => Cert.Spec.rd2 b s d) (W5_v6 m ρ c)).trans ?_
  exact congrFun (congrFun (rd_v6 m ρ c) s) d
theorem rdS5 : rdS (V5 (F := Ideal) m ρ) c = aS m c := by
  funext s d
  refine (congrArg (fun b => Cert.Spec.rd2 b s d) (W5_v7 m ρ c)).trans ?_
  exact congrFun (congrFun (rd_v7 m ρ c) s) d
theorem rdM5 : rdM (V5 (F := Ideal) m ρ) c = aM m c := by
  funext s t
  refine (congrArg (fun b => Cert.Spec.rd2 b s t) (W5_of_W3 m ρ c main_v8 (by decide) (by decide))).trans ?_
  exact congrFun (congrFun (rd_v8 m ρ c) s) t
theorem rdK5 : rdK (V5 (F := Ideal) m ρ) c = Cert.Spec.ropeK (Cert.Spec.proj (aX m c) (aWk m c)) (aC m c) (aS m c) := by
  funext g t d
  refine (congrFun (W5_of m ρ c main_v9 (by decide)) (ix3 g t d)).trans ?_
  exact k9_eq m ρ c g t d
theorem rdV5 : rdV (V5 (F := Ideal) m ρ) c = Cert.Spec.vals (aX m c) (aWv m c) := by
  funext g t d
  refine (rd_v12 m ρ c g t d).trans ?_
  exact congrFun (congrFun (v_eq m ρ c) t) (Cert.Spec.lane8 g d)

/-! ## The attention weights, the contexts and the output -/

theorem p_eq (h : Fin 32) (s t : Fin 2048) :
    ((W6 (F := Ideal) m ρ c (Proc.devRef .tc main_v13_0)) : S32x2048x2048.Idx → EReal) (ix3 h s t)
      = Cert.Spec.prob (aX m c) (aC m c) (aS m c) (aM m c) (aWq m c) (aWk m c) h s t := by
  refine (congrFun (W6_arr m ρ c 6) (ix3 h s t)).trans ?_
  refine (final2_6 (V5 m ρ) c h s t).trans ?_
  rw [rdQ5, rdC5, rdS5, rdK5, rdM5]
  rfl

theorem ctx_eq (s n : Fin 2048) :
    Cert.Spec.rd2 (W6 (F := Ideal) m ρ c (Proc.devRef .tc main_v13_1)) s n
      = Cert.Spec.cellCtx (Cert.Spec.proj (aX m c) (aWq m c)) (aC m c) (aS m c)
          (Cert.Spec.ropeK (Cert.Spec.proj (aX m c) (aWk m c)) (aC m c) (aS m c)) (aM m c) (Cert.Spec.vals (aX m c) (aWv m c)) s n := by
  refine (congrFun (W6_arr m ρ c 7) (ix2 s n)).trans ?_
  refine (final2_7 (V5 m ρ) c s n).trans ?_
  rw [rdQ5, rdC5, rdS5, rdK5, rdM5, rdV5]

/-- The last product, summed over the 2048 context features. -/
theorem out_sum (s j : Fin 2048) :
    Cert.Spec.proj (Cert.Spec.rd2 (V6 (F := Ideal) m ρ c main_v13_1)) (Cert.Spec.rd2 (V6 (F := Ideal) m ρ c main_arg7)) s j
      = Cert.Spec.out (aX m c) (aC m c) (aS m c) (aM m c) (aWq m c) (aWk m c) (aWv m c) (aWo m c) s j := by
  unfold Cert.Spec.proj Cert.Spec.out
  refine Finset.sum_congr rfl fun n _ => ?_
  have e1 : Cert.Spec.rd2 (V6 (F := Ideal) m ρ c main_v13_1) s n = _ := ctx_eq m ρ c s n
  have e2 : Cert.Spec.rd2 (V6 (F := Ideal) m ρ c main_arg7) j n = aWo m c j n :=
    congrArg (fun b => Cert.Spec.rd2 b j n) (W6_launch m ρ c main_arg7 (by decide) (by decide) (by decide) (by decide) (by decide) (by decide))
  rw [e1, e2]

theorem out_eq (s j : Fin 2048) :
    Cert.Spec.rd2 (W7 (F := Ideal) m ρ c (Proc.devRef .tc main_v14)) s j
      = Cert.Spec.out (aX m c) (aC m c) (aS m c) (aM m c) (aWq m c) (aWk m c) (aWv m c) (aWo m c) s j := by
  refine (congrFun (W7_arr m ρ c 2) (ix2 s j)).trans ?_
  refine (final3 (V6 m ρ) c s j).trans ?_
  exact out_sum m ρ c s j

/-! ## The two results -/

theorem res0_eq : ((W8 (F := Ideal) m ρ c (Proc.devRef .tc main_v15)) : S1x2048x2048.Idx → EReal)
    = Cert.Spec.res0 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  funext i
  obtain ⟨u, s, j, rfl⟩ : ∃ (u : Fin 1) (s : Fin 2048) (j : Fin 2048), i = ix3 u s j := ⟨i 0, i 1, i 2, eq_ix3 i⟩
  exact (rd_v15 m ρ c u s j).trans (out_eq m ρ c s j)

theorem res1_eq : ((W8 (F := Ideal) m ρ c (Proc.devRef .tc main_v16)) : S1x32x2048x2048.Idx → EReal)
    = Cert.Spec.res1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  funext i
  obtain ⟨u, h, s, t, rfl⟩ : ∃ (u : Fin 1) (h : Fin 32) (s : Fin 2048) (t : Fin 2048), i = ix4 u h s t := ⟨i 0, i 1, i 2, i 3, eq_ix4 i⟩
  exact (rd_v16 m ρ c u h s t).trans (p_eq m ρ c h s t)

end Cert.KernelIdeal.KBridge

end
-- ==== Proof.KerRun.lean ====
/-
  The kernel program's run with its two results named: every weakly fair execution terminates, faults nowhere, and ends
  with the first result at `Cert.Spec.res0` and the second at `Cert.Spec.res1` of the launch arrays, the arguments
  unchanged. The run leaves every unscoped buffer at the last boundary's contents; the two result buffers there are the
  specification's arrays, and each argument reads back to its launch contents.
-/
import proofs.«162642_j16423954940491_2_alg».proof.Proof.FrRun
import proofs.«162642_j16423954940491_2_alg».proof.Proof.ValBridge

noncomputable section

namespace Cert.KernelIdeal.KBridge

open Idealize.ShloMosaic Idealize.ShloMosaic.TcCoe Idealize.SL.Sem
open Cert.KernelIdeal Cert.KernelIdeal.Gen Cert.KernelIdeal.Fr

theorem ker_run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v15) = Cert.Spec.res0 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_v16) = Cert.Spec.res1 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c =>
    ⟨(h c _ (mem_uc main_v15 (by decide))).trans (res0_eq m ρ c),
     (h c _ (mem_uc main_v16 (by decide))).trans (res1_eq m ρ c),
     (h c _ (mem_uc main_arg0 (by decide))).trans (W8_main_arg0 m ρ c),
     (h c _ (mem_uc main_arg1 (by decide))).trans (W8_main_arg1 m ρ c),
     (h c _ (mem_uc main_arg2 (by decide))).trans (W8_main_arg2 m ρ c),
     (h c _ (mem_uc main_arg3 (by decide))).trans (W8_main_arg3 m ρ c),
     (h c _ (mem_uc main_arg4 (by decide))).trans (W8_main_arg4 m ρ c),
     (h c _ (mem_uc main_arg5 (by decide))).trans (W8_main_arg5 m ρ c),
     (h c _ (mem_uc main_arg6 (by decide))).trans (W8_main_arg6 m ρ c),
     (h c _ (mem_uc main_arg7 (by decide))).trans (W8_main_arg7 m ρ c)⟩) (run_all (F := Ideal) m ρ)

end Cert.KernelIdeal.KBridge

end
-- ==== Proof.ValRefQ.lean ====
/-
  The reference's query side, read at an index: the projection of the hidden states by the query weights, laid out
  by head, is the specification's projection at the head's lane; the two position tables are broadcast over the heads;
  the half-rotation (the upper 32 lanes negated in front of the lower 32) is the specification's; and their
  combination is the rotary embedding of the head's 64 lanes.
-/
import proofs.«162642_j16423954940491_2_alg».proof.Proof.Gen.ReferenceIdeal.Read
import proofs.«162642_j16423954940491_2_alg».proof.Proof.Spec

noncomputable section

namespace Cert.ReferenceIdeal.RefValue

open Idealize.ShloMosaic Idealize.ShloMosaic.TcCoe Idealize.SL.Sem
open Cert.ReferenceIdeal Cert.ReferenceIdeal.Gen Cert.ReferenceIdeal.Read
open Cert.Spec

variable (x0 : (⟨S1x2048x2048, .f32⟩ : BufTy).Contents (Elt Ideal)) (x1 x2 : (⟨S1x2048x64, .f32⟩ : BufTy).Contents (Elt Ideal))
  (x4 : (⟨S2048x2048, .f32⟩ : BufTy).Contents (Elt Ideal))

/-- Head `h`, position `s`, lane `d` of the projected queries is row `s` of the hidden states against row
    `64 h + d` of the query weights: the reshape splits the feature axis into (head, lane) and the transpose puts
    the head in front of the position. -/
theorem query_proj_at (h : Fin 32) (s : Fin 2048) (d : Fin 64) :
    val_main_v2 (F := Ideal) x0 x4 (ValueIdx.ix4 (0 : Fin 1) h s d) = proj (rd3 x0) (rd2 x4) s (lane32 h d) := by
  have e2 : idx_main_v2 (ValueIdx.ix4 (0 : Fin 1) h s d) = ValueIdx.ix4 (0 : Fin 1) s h d :=
    funext fun a => Fin.ext (by match a with | ⟨0, _⟩ => rfl | ⟨1, _⟩ => rfl | ⟨2, _⟩ => rfl | ⟨3, _⟩ => rfl)
  have e1 : idx_main_v1 (ValueIdx.ix4 (0 : Fin 1) s h d) = ValueIdx.ix3 (0 : Fin 1) s (lane32 h d) :=
    funext fun a => Fin.ext (by
      have hs := s.isLt; have hh := h.isLt; have hd := d.isLt
      match a with
      | ⟨0, _⟩ => rfl
      | ⟨1, _⟩ => show ((((0 : Nat) * 2048 + s.val) * 32 + h.val) * 64 + d.val) / 2048 % 2048 = s.val; omega
      | ⟨2, _⟩ => show ((((0 : Nat) * 2048 + s.val) * 32 + h.val) * 64 + d.val) % 2048 = h.val * 64 + d.val; omega)
  rw [val_main_v2_apply, e2, val_main_v1_apply, e1, val_main_v0_apply]
  unfold proj
  refine Finset.sum_congr rfl fun k _ => ?_
  have el : lidx_main_v0 (ValueIdx.ix3 (0 : Fin 1) s (lane32 h d)) k = ValueIdx.ix3 (0 : Fin 1) s k :=
    funext fun a => Fin.ext (by match a with | ⟨0, _⟩ => rfl | ⟨1, _⟩ => rfl | ⟨2, _⟩ => rfl)
  have er : ridx_main_v0 (ValueIdx.ix3 (0 : Fin 1) s (lane32 h d)) k = ValueIdx.ix2 (lane32 h d) k :=
    funext fun a => Fin.ext (by match a with | ⟨0, _⟩ => rfl | ⟨1, _⟩ => rfl)
  rw [el, er]
  rfl

/-- The cosine table, broadcast over the 32 heads, at head `h`, position `s`, lane `d`. -/
theorem query_cos_at (h : Fin 32) (s : Fin 2048) (d : Fin 64) :
    val_main_v11 (F := Ideal) x1 (ValueIdx.ix4 (0 : Fin 1) h s d) = rd3 x1 s d := by
  have e : idx_main_v9 (idx_main_v11 (ValueIdx.ix4 (0 : Fin 1) h s d)) = ValueIdx.ix3 (0 : Fin 1) s d :=
    funext fun a => Fin.ext (by match a with | ⟨0, _⟩ => rfl | ⟨1, _⟩ => rfl | ⟨2, _⟩ => rfl)
  rw [val_main_v11_apply, val_main_v9_apply, e]
  rfl

/-- The sine table, broadcast over the 32 heads, at head `h`, position `s`, lane `d`. -/
theorem query_sin_at (h : Fin 32) (s : Fin 2048) (d : Fin 64) :
    val_main_v17 (F := Ideal) x2 (ValueIdx.ix4 (0 : Fin 1) h s d) = rd3 x2 s d := by
  have e : idx_main_v10 (idx_main_v17 (ValueIdx.ix4 (0 : Fin 1) h s d)) = ValueIdx.ix3 (0 : Fin 1) s d :=
    funext fun a => Fin.ext (by match a with | ⟨0, _⟩ => rfl | ⟨1, _⟩ => rfl | ⟨2, _⟩ => rfl)
  rw [val_main_v17_apply, val_main_v10_apply, e]
  rfl

/-- The concatenation of the negated upper half and the lower half of a head's 64 lanes is the half-rotation: lane
    `d < 32` falls in the first piece and reads `−` lane `d + 32`, lane `d ≥ 32` in the second and reads lane `d − 32`. -/
theorem query_rot_at (h : Fin 32) (s : Fin 2048) (d : Fin 64) :
    val_main_v16 (F := Ideal) x0 x4 (ValueIdx.ix4 (0 : Fin 1) h s d)
      = rot (fun d' => val_main_v2 (F := Ideal) x0 x4 (ValueIdx.ix4 (0 : Fin 1) h s d')) d := by
  unfold val_main_v16 rot
  by_cases hd : d.val < 32
  · rw [dif_pos hd]
    refine (concatenate_pair_apply_left (3 : Fin S1x32x2048x64.rank) _ _
      concatenates_S1x32x2048x32_S1x32x2048x32_S1x32x2048x64_d3 (ValueIdx.ix4 (0 : Fin 1) h s d) rfl
      (ValueIdx.ix4 (0 : Fin 1) h s (⟨d.val, hd⟩ : Fin 32))
      (fun b => by match b with | ⟨0, _⟩ => rfl | ⟨1, _⟩ => rfl | ⟨2, _⟩ => rfl | ⟨3, _⟩ => rfl)).trans ?_
    have e : idx_main_v13 (ValueIdx.ix4 (0 : Fin 1) h s (⟨d.val, hd⟩ : Fin 32))
        = ValueIdx.ix4 (0 : Fin 1) h s (⟨d.val + 32, by omega⟩ : Fin 64) :=
      funext fun a => Fin.ext (by
        match a with
        | ⟨0, _⟩ => rfl
        | ⟨1, _⟩ => rfl
        | ⟨2, _⟩ => rfl
        | ⟨3, _⟩ => show 32 + d.val = d.val + 32; omega)
    rw [val_main_v14_apply, val_main_v13_apply, e, Ideal.hostNegf_def, Ideal.negf_def]
  · rw [dif_neg hd]
    have hd64 := d.isLt
    refine (concatenate_pair_apply_right (3 : Fin S1x32x2048x64.rank) _ _
      concatenates_S1x32x2048x32_S1x32x2048x32_S1x32x2048x64_d3 (ValueIdx.ix4 (0 : Fin 1) h s d) rfl rfl
      (ValueIdx.ix4 (0 : Fin 1) h s (⟨d.val - 32, by omega⟩ : Fin 32))
      (fun b => by
        match b with
        | ⟨0, _⟩ => exact fun _ => rfl
        | ⟨1, _⟩ => exact fun _ => rfl
        | ⟨2, _⟩ => exact fun _ => rfl
        | ⟨3, _⟩ => exact fun hne => absurd rfl hne)
      (by show d.val - 32 + 32 = d.val; omega)).trans ?_
    have e : idx_main_v15 (ValueIdx.ix4 (0 : Fin 1) h s (⟨d.val - 32, by omega⟩ : Fin 32))
        = ValueIdx.ix4 (0 : Fin 1) h s (⟨d.val - 32, by omega⟩ : Fin 64) :=
      funext fun a => Fin.ext (by match a with | ⟨0, _⟩ => rfl | ⟨1, _⟩ => rfl | ⟨2, _⟩ => rfl | ⟨3, _⟩ => rfl)
    rw [val_main_v15_apply, e]

/-- The rotated queries: head `h`, position `s`, lane `d` is the rotary embedding of the head's 64 projected lanes
    with the position's cosines and sines. -/
theorem query_rope_at (h : Fin 32) (s : Fin 2048) (d : Fin 64) :
    val_main_v19 (F := Ideal) x0 x1 x2 x4 (ValueIdx.ix4 (0 : Fin 1) h s d)
      = rope (fun d' => proj (rd3 x0) (rd2 x4) s (lane32 h d')) (rd3 x1 s) (rd3 x2 s) d := by
  rw [val_main_v19_apply, val_main_v12_apply, val_main_v18_apply, query_rot_at, query_cos_at, query_sin_at]
  simp only [Ideal.addf_def, Ideal.mulf_def, query_proj_at]
  rfl

end Cert.ReferenceIdeal.RefValue

end
-- ==== Proof.ValRefK.lean ====
/-
  The reference's key side, read at an index: the projection of the hidden states by the key weights, laid out by
  key/value head, is the specification's projection at the head's lane; the rotary embedding is applied as on the
  query side; and the repetition of the key/value heads makes query head h read key/value head h / 4.
-/
import proofs.«162642_j16423954940491_2_alg».proof.Proof.Gen.ReferenceIdeal.Read
import proofs.«162642_j16423954940491_2_alg».proof.Proof.Spec

noncomputable section

namespace Cert.ReferenceIdeal.RefValue

open Idealize.ShloMosaic Idealize.ShloMosaic.TcCoe Idealize.SL.Sem
open Cert.ReferenceIdeal Cert.ReferenceIdeal.Gen Cert.ReferenceIdeal.Read
open Cert.Spec

variable (x0 : (⟨S1x2048x2048, .f32⟩ : BufTy).Contents (Elt Ideal)) (x1 x2 : (⟨S1x2048x64, .f32⟩ : BufTy).Contents (Elt Ideal))
  (x5 : (⟨S512x2048, .f32⟩ : BufTy).Contents (Elt Ideal))

/-- Head `h`, position `s`, lane `d` of the projected keys is row `s` of the hidden states against row
    `64 h + d` of the key weights: the reshape splits the feature axis into (head, lane) and the transpose puts
    the head in front of the position. -/
theorem key_proj_at (h : Fin 8) (s : Fin 2048) (d : Fin 64) :
    val_main_v5 (F := Ideal) x0 x5 (ValueIdx.ix4 (0 : Fin 1) h s d) = proj (rd3 x0) (rd2 x5) s (lane8 h d) := by
  have e2 : idx_main_v5 (ValueIdx.ix4 (0 : Fin 1) h s d) = ValueIdx.ix4 (0 : Fin 1) s h d :=
    funext fun a => Fin.ext (by match a with | ⟨0, _⟩ => rfl | ⟨1, _⟩ => rfl | ⟨2, _⟩ => rfl | ⟨3, _⟩ => rfl)
  have e1 : idx_main_v4 (ValueIdx.ix4 (0 : Fin 1) s h d) = ValueIdx.ix3 (0 : Fin 1) s (lane8 h d) :=
    funext fun a => Fin.ext (by
      have hs := s.isLt; have hh := h.isLt; have hd := d.isLt
      match a with
      | ⟨0, _⟩ => rfl
      | ⟨1, _⟩ => show ((((0 : Nat) * 2048 + s.val) * 8 + h.val) * 64 + d.val) / 512 % 2048 = s.val; omega
      | ⟨2, _⟩ => show ((((0 : Nat) * 2048 + s.val) * 8 + h.val) * 64 + d.val) % 512 = h.val * 64 + d.val; omega)
  rw [val_main_v5_apply, e2, val_main_v4_apply, e1, val_main_v3_apply]
  unfold proj
  refine Finset.sum_congr rfl fun k _ => ?_
  have el : lidx_main_v3 (ValueIdx.ix3 (0 : Fin 1) s (lane8 h d)) k = ValueIdx.ix3 (0 : Fin 1) s k :=
    funext fun a => Fin.ext (by match a with | ⟨0, _⟩ => rfl | ⟨1, _⟩ => rfl | ⟨2, _⟩ => rfl)
  have er : ridx_main_v3 (ValueIdx.ix3 (0 : Fin 1) s (lane8 h d)) k = ValueIdx.ix2 (lane8 h d) k :=
    funext fun a => Fin.ext (by match a with | ⟨0, _⟩ => rfl | ⟨1, _⟩ => rfl)
  rw [el, er]
  rfl

/-- The cosine table, broadcast over the 8 key/value heads, at head `h`, position `s`, lane `d`. -/
theorem key_cos_at (h : Fin 8) (s : Fin 2048) (d : Fin 64) :
    val_main_v20 (F := Ideal) x1 (ValueIdx.ix4 (0 : Fin 1) h s d) = rd3 x1 s d := by
  have e : idx_main_v9 (idx_main_v20 (ValueIdx.ix4 (0 : Fin 1) h s d)) = ValueIdx.ix3 (0 : Fin 1) s d :=
    funext fun a => Fin.ext (by match a with | ⟨0, _⟩ => rfl | ⟨1, _⟩ => rfl | ⟨2, _⟩ => rfl)
  rw [val_main_v20_apply, val_main_v9_apply, e]
  rfl

/-- The sine table, broadcast over the 8 key/value heads, at head `h`, position `s`, lane `d`. -/
theorem key_sin_at (h : Fin 8) (s : Fin 2048) (d : Fin 64) :
    val_main_v26 (F := Ideal) x2 (ValueIdx.ix4 (0 : Fin 1) h s d) = rd3 x2 s d := by
  have e : idx_main_v10 (idx_main_v26 (ValueIdx.ix4 (0 : Fin 1) h s d)) = ValueIdx.ix3 (0 : Fin 1) s d :=
    funext fun a => Fin.ext (by match a with | ⟨0, _⟩ => rfl | ⟨1, _⟩ => rfl | ⟨2, _⟩ => rfl)
  rw [val_main_v26_apply, val_main_v10_apply, e]
  rfl

/-- The concatenation of the negated upper half and the lower half of a head's 64 lanes is the half-rotation: lane
    `d < 32` falls in the first piece and reads `−` lane `d + 32`, lane `d ≥ 32` in the second and reads lane `d − 32`. -/
theorem key_rot_at (h : Fin 8) (s : Fin 2048) (d : Fin 64) :
    val_main_v25 (F := Ideal) x0 x5 (ValueIdx.ix4 (0 : Fin 1) h s d)
      = rot (fun d' => val_main_v5 (F := Ideal) x0 x5 (ValueIdx.ix4 (0 : Fin 1) h s d')) d := by
  unfold val_main_v25 rot
  by_cases hd : d.val < 32
  · rw [dif_pos hd]
    refine (concatenate_pair_apply_left (3 : Fin S1x8x2048x64.rank) _ _
      concatenates_S1x8x2048x32_S1x8x2048x32_S1x8x2048x64_d3 (ValueIdx.ix4 (0 : Fin 1) h s d) rfl
      (ValueIdx.ix4 (0 : Fin 1) h s (⟨d.val, hd⟩ : Fin 32))
      (fun b => by match b with | ⟨0, _⟩ => rfl | ⟨1, _⟩ => rfl | ⟨2, _⟩ => rfl | ⟨3, _⟩ => rfl)).trans ?_
    have e : idx_main_v22 (ValueIdx.ix4 (0 : Fin 1) h s (⟨d.val, hd⟩ : Fin 32))
        = ValueIdx.ix4 (0 : Fin 1) h s (⟨d.val + 32, by omega⟩ : Fin 64) :=
      funext fun a => Fin.ext (by
        match a with
        | ⟨0, _⟩ => rfl
        | ⟨1, _⟩ => rfl
        | ⟨2, _⟩ => rfl
        | ⟨3, _⟩ => show 32 + d.val = d.val + 32; omega)
    rw [val_main_v23_apply, val_main_v22_apply, e, Ideal.hostNegf_def, Ideal.negf_def]
  · rw [dif_neg hd]
    have hd64 := d.isLt
    refine (concatenate_pair_apply_right (3 : Fin S1x8x2048x64.rank) _ _
      concatenates_S1x8x2048x32_S1x8x2048x32_S1x8x2048x64_d3 (ValueIdx.ix4 (0 : Fin 1) h s d) rfl rfl
      (ValueIdx.ix4 (0 : Fin 1) h s (⟨d.val - 32, by omega⟩ : Fin 32))
      (fun b => by
        match b with
        | ⟨0, _⟩ => exact fun _ => rfl
        | ⟨1, _⟩ => exact fun _ => rfl
        | ⟨2, _⟩ => exact fun _ => rfl
        | ⟨3, _⟩ => exact fun hne => absurd rfl hne)
      (by show d.val - 32 + 32 = d.val; omega)).trans ?_
    have e : idx_main_v24 (ValueIdx.ix4 (0 : Fin 1) h s (⟨d.val - 32, by omega⟩ : Fin 32))
        = ValueIdx.ix4 (0 : Fin 1) h s (⟨d.val - 32, by omega⟩ : Fin 64) :=
      funext fun a => Fin.ext (by match a with | ⟨0, _⟩ => rfl | ⟨1, _⟩ => rfl | ⟨2, _⟩ => rfl | ⟨3, _⟩ => rfl)
    rw [val_main_v24_apply, e]

/-- The rotated keys: key/value head `h`, position `s`, lane `d` is the rotary embedding of the head's 64 projected lanes
    with the position's cosines and sines. -/
theorem key_rope_at (h : Fin 8) (s : Fin 2048) (d : Fin 64) :
    val_main_v28 (F := Ideal) x0 x1 x2 x5 (ValueIdx.ix4 (0 : Fin 1) h s d)
      = ropeK (proj (rd3 x0) (rd2 x5)) (rd3 x1) (rd3 x2) h s d := by
  rw [val_main_v28_apply, val_main_v21_apply, val_main_v27_apply, key_rot_at, key_cos_at, key_sin_at]
  simp only [Ideal.addf_def, Ideal.mulf_def, key_proj_at]
  rfl

/-- Repeating each key/value head four times (a broadcast over a new axis of extent 4, then merging it with the head
    axis) makes query head `h` read key/value head `h / 4`. -/
theorem key_repeat_at (h : Fin 32) (t : Fin 2048) (d : Fin 64) :
    val_main_v30 (F := Ideal) x0 x1 x2 x5 (ValueIdx.ix4 (0 : Fin 1) h t d)
      = val_main_v28 (F := Ideal) x0 x1 x2 x5 (ValueIdx.ix4 (0 : Fin 1) (grp h) t d) := by
  have e : idx_main_v29 (idx_main_v30 (ValueIdx.ix4 (0 : Fin 1) h t d)) = ValueIdx.ix4 (0 : Fin 1) (grp h) t d :=
    funext fun a => Fin.ext (by
      have hh := h.isLt; have ht := t.isLt; have hd := d.isLt
      match a with
      | ⟨0, _⟩ => rfl
      | ⟨1, _⟩ => show ((((0 : Nat) * 32 + h.val) * 2048 + t.val) * 64 + d.val) / 524288 % 8 = h.val / 4; omega
      | ⟨2, _⟩ => show ((((0 : Nat) * 32 + h.val) * 2048 + t.val) * 64 + d.val) / 64 % 2048 = t.val; omega
      | ⟨3, _⟩ => show ((((0 : Nat) * 32 + h.val) * 2048 + t.val) * 64 + d.val) % 64 = d.val; omega)
  rw [val_main_v30_apply, val_main_v29_apply, e]

end Cert.ReferenceIdeal.RefValue

end
-- ==== Proof.ValRefScore.lean ====
/-
  The reference's scores, read at an index: the rotated queries of head h against the rotated keys of key/value
  head h / 4 over the 64 lanes, times one eighth, plus the mask (broadcast over the heads).
-/
import proofs.«162642_j16423954940491_2_alg».proof.Proof.ValRefQ
import proofs.«162642_j16423954940491_2_alg».proof.Proof.ValRefK

noncomputable section

namespace Cert.ReferenceIdeal.RefValue

open Idealize.ShloMosaic Idealize.ShloMosaic.TcCoe Idealize.SL.Sem
open Cert.ReferenceIdeal Cert.ReferenceIdeal.Gen Cert.ReferenceIdeal.Read
open Cert.Spec

variable (x0 : (⟨S1x2048x2048, .f32⟩ : BufTy).Contents (Elt Ideal)) (x1 x2 : (⟨S1x2048x64, .f32⟩ : BufTy).Contents (Elt Ideal))
  (x3 : (⟨S1x1x2048x2048, .f32⟩ : BufTy).Contents (Elt Ideal)) (x4 : (⟨S2048x2048, .f32⟩ : BufTy).Contents (Elt Ideal))
  (x5 : (⟨S512x2048, .f32⟩ : BufTy).Contents (Elt Ideal))

/-- The masked, scaled score of head `h`, query position `s`, key position `t`. -/
theorem score_at (h : Fin 32) (s t : Fin 2048) :
    val_main_v37 (F := Ideal) x0 x1 x2 x3 x4 x5 (ValueIdx.ix4 (0 : Fin 1) h s t)
      = cellScore (proj (rd3 x0) (rd2 x4)) (rd3 x1) (rd3 x2) (ropeK (proj (rd3 x0) (rd2 x5)) (rd3 x1) (rd3 x2)) (rd4 x3) h s t := by
  have em : idx_main_v36 (ValueIdx.ix4 (0 : Fin 1) h s t) = ValueIdx.ix4 (0 : Fin 1) (0 : Fin 1) s t :=
    funext fun a => Fin.ext (by match a with | ⟨0, _⟩ => rfl | ⟨1, _⟩ => rfl | ⟨2, _⟩ => rfl | ⟨3, _⟩ => rfl)
  rw [val_main_v37_apply, val_main_v35_apply, val_main_v33_apply, val_main_v34_apply, val_main_cst_apply,
    val_main_v36_apply, em, Ideal.addf_def, Ideal.mulf_def, Ideal.ofBits_def]
  unfold cellScore eighth
  refine congrArg₂ (· + ·) (congrArg (· * _) (Finset.sum_congr rfl fun k _ => ?_)) rfl
  have el : lidx_main_v33 (ValueIdx.ix4 (0 : Fin 1) h s t) k = ValueIdx.ix4 (0 : Fin 1) h s k :=
    funext fun a => Fin.ext (by match a with | ⟨0, _⟩ => rfl | ⟨1, _⟩ => rfl | ⟨2, _⟩ => rfl | ⟨3, _⟩ => rfl)
  have er : ridx_main_v33 (ValueIdx.ix4 (0 : Fin 1) h s t) k = ValueIdx.ix4 (0 : Fin 1) h t k :=
    funext fun a => Fin.ext (by match a with | ⟨0, _⟩ => rfl | ⟨1, _⟩ => rfl | ⟨2, _⟩ => rfl | ⟨3, _⟩ => rfl)
  rw [el, er, query_rope_at, key_repeat_at, key_rope_at]

end Cert.ReferenceIdeal.RefValue

end
-- ==== Proof.ValRefSoft.lean ====
/-
  The reference's softmax, read at an index. A row of scores r (head h, query position s) is normalised as the
  program spells it: the row's maximum (a fold of max from the word of minus infinity, then once more max with that
  word: max ⊥ x = x), the exponentials of r t − max, their sum from the zero word (0 + x = x), and the quotient. That is
  the specification's softmax of the row.
-/
import proofs.«162642_j16423954940491_2_alg».proof.Proof.Gen.ReferenceIdeal.Read
import proofs.«162642_j16423954940491_2_alg».proof.Proof.Spec

noncomputable section

namespace Cert.ReferenceIdeal.RefValue

open Idealize.ShloMosaic Idealize.ShloMosaic.TcCoe Idealize.SL.Sem
open Cert.ReferenceIdeal Cert.ReferenceIdeal.Gen Cert.ReferenceIdeal.Read
open Cert.Spec

variable (x0 : (⟨S1x2048x2048, .f32⟩ : BufTy).Contents (Elt Ideal)) (x1 x2 : (⟨S1x2048x64, .f32⟩ : BufTy).Contents (Elt Ideal))
  (x3 : (⟨S1x1x2048x2048, .f32⟩ : BufTy).Contents (Elt Ideal)) (x4 : (⟨S2048x2048, .f32⟩ : BufTy).Contents (Elt Ideal))
  (x5 : (⟨S512x2048, .f32⟩ : BufTy).Contents (Elt Ideal))

/-- The float word of minus infinity is the bottom of the extended reals. -/
theorem neg_inf_word : Ideal.ofBits .f32 0xFF800000#32 = (⊥ : EReal) := by
  simp [Ideal.ofBits, Ideal.ieee]

/-- The reduction by max over the key axis, from minus infinity, is the row's maximum. -/
theorem row_reduce_max_at (h : Fin 32) (s : Fin 2048) :
    val_main_v38 (F := Ideal) x0 x1 x2 x3 x4 x5 (ValueIdx.ix3 (0 : Fin 1) h s)
      = rowmax (fun t' => val_main_v37 (F := Ideal) x0 x1 x2 x3 x4 x5 (ValueIdx.ix4 (0 : Fin 1) h s t')) := by
  unfold val_main_v38
  generalize val_main_v37 (F := Ideal) x0 x1 x2 x3 x4 x5 = y
  refine (Host.reduce_eq_fold_single (s := S1x32x2048x2048) (α := EReal) (FloatOps.maximumf (F := Ideal) (φ := .f32)) y _
    reducesTo_S1x32x2048x2048_S1x32x2048_d3 (by decide) h_S_ _).trans ?_
  have hf : (y ∘ Shape.Reduces.lift (by decide : S1x32x2048x2048.Reduces [3] S1x32x2048) (ValueIdx.ix3 (0 : Fin 1) h s))
      = fun t' : Fin 2048 => y (ValueIdx.ix4 (0 : Fin 1) h s t') :=
    funext fun k => congrArg y (funext fun a => Fin.ext (by
      match a with | ⟨0, _⟩ => rfl | ⟨1, _⟩ => rfl | ⟨2, _⟩ => rfl | ⟨3, _⟩ => rfl))
  rw [hf, val_main_cst_0_apply, Ideal.ofBits_def, neg_inf_word]
  rfl

/-- The maximum the row is shifted by: max with minus infinity changes nothing. -/
theorem row_max_at (h : Fin 32) (s t : Fin 2048) :
    val_main_v42 (F := Ideal) x0 x1 x2 x3 x4 x5 (ValueIdx.ix4 (0 : Fin 1) h s t)
      = rowmax (fun t' => val_main_v37 (F := Ideal) x0 x1 x2 x3 x4 x5 (ValueIdx.ix4 (0 : Fin 1) h s t')) := by
  have e : idx_main_v41 (idx_main_v42 (ValueIdx.ix4 (0 : Fin 1) h s t)) = ValueIdx.ix3 (0 : Fin 1) h s :=
    funext fun a => Fin.ext (by match a with | ⟨0, _⟩ => rfl | ⟨1, _⟩ => rfl | ⟨2, _⟩ => rfl)
  rw [val_main_v42_apply, val_main_v41_apply, e, val_main_v40_apply, val_main_v39_apply, val_main_cst_1_apply,
    row_reduce_max_at, Ideal.maximumf_def, Ideal.ofBits_def, neg_inf_word]
  exact max_bot_left _

/-- An exponential of the shifted row. -/
theorem row_exp_at (h : Fin 32) (s t : Fin 2048) :
    val_main_v44 (F := Ideal) x0 x1 x2 x3 x4 x5 (ValueIdx.ix4 (0 : Fin 1) h s t)
      = Ideal.exp (val_main_v37 (F := Ideal) x0 x1 x2 x3 x4 x5 (ValueIdx.ix4 (0 : Fin 1) h s t)
          - rowmax (fun t' => val_main_v37 (F := Ideal) x0 x1 x2 x3 x4 x5 (ValueIdx.ix4 (0 : Fin 1) h s t'))) := by
  rw [val_main_v44_apply, val_main_v43_apply, row_max_at, Ideal.hostUnary_exp_def, Ideal.subf_def]

/-- The sum of the row's exponentials, from the zero word. -/
theorem row_sum_at (h : Fin 32) (s t : Fin 2048) :
    val_main_v47 (F := Ideal) x0 x1 x2 x3 x4 x5 (ValueIdx.ix4 (0 : Fin 1) h s t)
      = ∑ t'' : Fin 2048, Ideal.exp (val_main_v37 (F := Ideal) x0 x1 x2 x3 x4 x5 (ValueIdx.ix4 (0 : Fin 1) h s t'')
          - rowmax (fun t' => val_main_v37 (F := Ideal) x0 x1 x2 x3 x4 x5 (ValueIdx.ix4 (0 : Fin 1) h s t'))) := by
  have e : idx_main_v46 (idx_main_v47 (ValueIdx.ix4 (0 : Fin 1) h s t)) = ValueIdx.ix3 (0 : Fin 1) h s :=
    funext fun a => Fin.ext (by match a with | ⟨0, _⟩ => rfl | ⟨1, _⟩ => rfl | ⟨2, _⟩ => rfl)
  rw [val_main_v47_apply, val_main_v46_apply, e, val_main_v45_apply, val_main_cst_2_apply, Ideal.ofBits_def,
    Ideal.ofBits_zero_f32, zero_add]
  refine Finset.sum_congr rfl fun k _ => ?_
  have ek : idx_main_v45 (ValueIdx.ix3 (0 : Fin 1) h s) k = ValueIdx.ix4 (0 : Fin 1) h s k :=
    funext fun a => Fin.ext (by match a with | ⟨0, _⟩ => rfl | ⟨1, _⟩ => rfl | ⟨2, _⟩ => rfl | ⟨3, _⟩ => rfl)
  rw [ek, row_exp_at]

/-- The attention weights are the softmax of the row of scores. -/
theorem softmax_at (h : Fin 32) (s t : Fin 2048) :
    val_main_v48 (F := Ideal) x0 x1 x2 x3 x4 x5 (ValueIdx.ix4 (0 : Fin 1) h s t)
      = soft (fun t' => val_main_v37 (F := Ideal) x0 x1 x2 x3 x4 x5 (ValueIdx.ix4 (0 : Fin 1) h s t')) t := by
  rw [val_main_v48_apply, row_exp_at, row_sum_at, Ideal.hostDivf_def]
  rfl

end Cert.ReferenceIdeal.RefValue

end
-- ==== Proof.ValRefV.lean ====
/-
  The reference's value side, read at an index: the projection of the hidden states by the value weights, laid out
  by key/value head and repeated four times, read at query head h is the specification's values of key/value head h / 4.
-/
import proofs.«162642_j16423954940491_2_alg».proof.Proof.Gen.ReferenceIdeal.Read
import proofs.«162642_j16423954940491_2_alg».proof.Proof.Spec

noncomputable section

namespace Cert.ReferenceIdeal.RefValue

open Idealize.ShloMosaic Idealize.ShloMosaic.TcCoe Idealize.SL.Sem
open Cert.ReferenceIdeal Cert.ReferenceIdeal.Gen Cert.ReferenceIdeal.Read
open Cert.Spec

variable (x0 : (⟨S1x2048x2048, .f32⟩ : BufTy).Contents (Elt Ideal)) (x6 : (⟨S512x2048, .f32⟩ : BufTy).Contents (Elt Ideal))

/-- Key/value head `g`, position `t`, lane `d` of the projected values is row `t` of the hidden states against row
    `64 g + d` of the value weights. -/
theorem value_proj_at (g : Fin 8) (t : Fin 2048) (d : Fin 64) :
    val_main_v8 (F := Ideal) x0 x6 (ValueIdx.ix4 (0 : Fin 1) g t d) = vals (rd3 x0) (rd2 x6) g t d := by
  have e2 : idx_main_v8 (ValueIdx.ix4 (0 : Fin 1) g t d) = ValueIdx.ix4 (0 : Fin 1) t g d :=
    funext fun a => Fin.ext (by match a with | ⟨0, _⟩ => rfl | ⟨1, _⟩ => rfl | ⟨2, _⟩ => rfl | ⟨3, _⟩ => rfl)
  have e1 : idx_main_v7 (ValueIdx.ix4 (0 : Fin 1) t g d) = ValueIdx.ix3 (0 : Fin 1) t (lane8 g d) :=
    funext fun a => Fin.ext (by
      have ht := t.isLt; have hg := g.isLt; have hd := d.isLt
      match a with
      | ⟨0, _⟩ => rfl
      | ⟨1, _⟩ => show ((((0 : Nat) * 2048 + t.val) * 8 + g.val) * 64 + d.val) / 512 % 2048 = t.val; omega
      | ⟨2, _⟩ => show ((((0 : Nat) * 2048 + t.val) * 8 + g.val) * 64 + d.val) % 512 = g.val * 64 + d.val; omega)
  rw [val_main_v8_apply, e2, val_main_v7_apply, e1, val_main_v6_apply]
  unfold vals proj
  refine Finset.sum_congr rfl fun k _ => ?_
  have el : lidx_main_v6 (ValueIdx.ix3 (0 : Fin 1) t (lane8 g d)) k = ValueIdx.ix3 (0 : Fin 1) t k :=
    funext fun a => Fin.ext (by match a with | ⟨0, _⟩ => rfl | ⟨1, _⟩ => rfl | ⟨2, _⟩ => rfl)
  have er : ridx_main_v6 (ValueIdx.ix3 (0 : Fin 1) t (lane8 g d)) k = ValueIdx.ix2 (lane8 g d) k :=
    funext fun a => Fin.ext (by match a with | ⟨0, _⟩ => rfl | ⟨1, _⟩ => rfl)
  rw [el, er]
  rfl

/-- The repeated values at query head `h` are the values of key/value head `h / 4`. -/
theorem value_repeat_at (h : Fin 32) (t : Fin 2048) (d : Fin 64) :
    val_main_v32 (F := Ideal) x0 x6 (ValueIdx.ix4 (0 : Fin 1) h t d) = vals (rd3 x0) (rd2 x6) (grp h) t d := by
  have e : idx_main_v31 (idx_main_v32 (ValueIdx.ix4 (0 : Fin 1) h t d)) = ValueIdx.ix4 (0 : Fin 1) (grp h) t d :=
    funext fun a => Fin.ext (by
      have hh := h.isLt; have ht := t.isLt; have hd := d.isLt
      match a with
      | ⟨0, _⟩ => rfl
      | ⟨1, _⟩ => show ((((0 : Nat) * 32 + h.val) * 2048 + t.val) * 64 + d.val) / 524288 % 8 = h.val / 4; omega
      | ⟨2, _⟩ => show ((((0 : Nat) * 32 + h.val) * 2048 + t.val) * 64 + d.val) / 64 % 2048 = t.val; omega
      | ⟨3, _⟩ => show ((((0 : Nat) * 32 + h.val) * 2048 + t.val) * 64 + d.val) % 64 = d.val; omega)
  rw [val_main_v32_apply, val_main_v31_apply, e, value_proj_at]

end Cert.ReferenceIdeal.RefValue

end
-- ==== Proof.ValRefOut.lean ====
/-
  The reference's output, read at an index: the context (the attention weights against the repeated values, heads
  laid side by side: feature n is head n / 64, lane n % 64) against the output weights.
-/
import proofs.«162642_j16423954940491_2_alg».proof.Proof.Gen.ReferenceIdeal.Read
import proofs.«162642_j16423954940491_2_alg».proof.Proof.Spec

noncomputable section

namespace Cert.ReferenceIdeal.RefValue

open Idealize.ShloMosaic Idealize.ShloMosaic.TcCoe Idealize.SL.Sem
open Cert.ReferenceIdeal Cert.ReferenceIdeal.Gen Cert.ReferenceIdeal.Read
open Cert.Spec

variable (x0 : (⟨S1x2048x2048, .f32⟩ : BufTy).Contents (Elt Ideal)) (x1 x2 : (⟨S1x2048x64, .f32⟩ : BufTy).Contents (Elt Ideal))
  (x3 : (⟨S1x1x2048x2048, .f32⟩ : BufTy).Contents (Elt Ideal)) (x4 : (⟨S2048x2048, .f32⟩ : BufTy).Contents (Elt Ideal))
  (x5 x6 : (⟨S512x2048, .f32⟩ : BufTy).Contents (Elt Ideal)) (x7 : (⟨S2048x2048, .f32⟩ : BufTy).Contents (Elt Ideal))

/-- Position `s`, output feature `j`: the sum over the 2048 context features `n` of the context of head `n / 64` at
    lane `n % 64` (the weights of that head against the values) times the output weight. -/
theorem out_at (s j : Fin 2048) :
    val_main_v52 (F := Ideal) x0 x1 x2 x3 x4 x5 x6 x7 (ValueIdx.ix3 (0 : Fin 1) s j)
      = ∑ n : Fin 2048, (∑ t : Fin 2048, val_main_v48 (F := Ideal) x0 x1 x2 x3 x4 x5 (ValueIdx.ix4 (0 : Fin 1) (headOf n) s t)
          * val_main_v32 (F := Ideal) x0 x6 (ValueIdx.ix4 (0 : Fin 1) (headOf n) t (laneOf n))) * rd2 x7 j n := by
  rw [val_main_v52_apply]
  refine Finset.sum_congr rfl fun n _ => ?_
  have el : lidx_main_v52 (ValueIdx.ix3 (0 : Fin 1) s j) n = ValueIdx.ix3 (0 : Fin 1) s n :=
    funext fun a => Fin.ext (by match a with | ⟨0, _⟩ => rfl | ⟨1, _⟩ => rfl | ⟨2, _⟩ => rfl)
  have er : ridx_main_v52 (ValueIdx.ix3 (0 : Fin 1) s j) n = ValueIdx.ix2 j n :=
    funext fun a => Fin.ext (by match a with | ⟨0, _⟩ => rfl | ⟨1, _⟩ => rfl)
  have e51 : idx_main_v50 (idx_main_v51 (ValueIdx.ix3 (0 : Fin 1) s n)) = ValueIdx.ix4 (0 : Fin 1) (headOf n) s (laneOf n) :=
    funext fun a => Fin.ext (by
      have hs := s.isLt; have hn := n.isLt
      match a with
      | ⟨0, _⟩ => rfl
      | ⟨1, _⟩ => show (((0 : Nat) * 2048 + s.val) * 2048 + n.val) / 64 % 32 = n.val / 64; omega
      | ⟨2, _⟩ => show (((0 : Nat) * 2048 + s.val) * 2048 + n.val) / 2048 % 2048 = s.val; omega
      | ⟨3, _⟩ => show (((0 : Nat) * 2048 + s.val) * 2048 + n.val) % 64 = n.val % 64; omega)
  rw [el, er, val_main_v51_apply, val_main_v50_apply, e51, val_main_v49_apply]
  refine congrArg₂ (· * ·) (Finset.sum_congr rfl fun t _ => ?_) rfl
  have el49 : lidx_main_v49 (ValueIdx.ix4 (0 : Fin 1) (headOf n) s (laneOf n)) t = ValueIdx.ix4 (0 : Fin 1) (headOf n) s t :=
    funext fun a => Fin.ext (by match a with | ⟨0, _⟩ => rfl | ⟨1, _⟩ => rfl | ⟨2, _⟩ => rfl | ⟨3, _⟩ => rfl)
  have er49 : ridx_main_v49 (ValueIdx.ix4 (0 : Fin 1) (headOf n) s (laneOf n)) t = ValueIdx.ix4 (0 : Fin 1) (headOf n) t (laneOf n) :=
    funext fun a => Fin.ext (by match a with | ⟨0, _⟩ => rfl | ⟨1, _⟩ => rfl | ⟨2, _⟩ => rfl | ⟨3, _⟩ => rfl)
  rw [el49, er49]

end Cert.ReferenceIdeal.RefValue

end
-- ==== Proof.ValRef.lean ====
/-
  The reference program's two results, read index by index, are the attention layer of `Cert.Spec`: the second result
  is the attention weights (the softmax of the masked, scaled scores of the rotated queries against the rotated keys),
  the first the output projection of the context (the weights against the values), and every weakly fair execution of
  the reference ends with its two result buffers at these two functions of the arguments, the arguments unchanged.
-/
import proofs.«162642_j16423954940491_2_alg».proof.Proof.ValRefScore
import proofs.«162642_j16423954940491_2_alg».proof.Proof.ValRefSoft
import proofs.«162642_j16423954940491_2_alg».proof.Proof.ValRefV
import proofs.«162642_j16423954940491_2_alg».proof.Proof.ValRefOut

noncomputable section

namespace Cert.ReferenceIdeal.RefValue

open Idealize.ShloMosaic Idealize.ShloMosaic.TcCoe Idealize.SL.Sem
open Cert.ReferenceIdeal Cert.ReferenceIdeal.Gen Cert.ReferenceIdeal.Read
open Cert.Spec

section
variable (x0 : (⟨S1x2048x2048, .f32⟩ : BufTy).Contents (Elt Ideal)) (x1 x2 : (⟨S1x2048x64, .f32⟩ : BufTy).Contents (Elt Ideal))
  (x3 : (⟨S1x1x2048x2048, .f32⟩ : BufTy).Contents (Elt Ideal)) (x4 : (⟨S2048x2048, .f32⟩ : BufTy).Contents (Elt Ideal))
  (x5 x6 : (⟨S512x2048, .f32⟩ : BufTy).Contents (Elt Ideal)) (x7 : (⟨S2048x2048, .f32⟩ : BufTy).Contents (Elt Ideal))

/-- The attention weight of head `h`, query `s`, key `t` is the specification's: the softmax of the row of scores. -/
theorem prob_at (h : Fin 32) (s t : Fin 2048) :
    val_main_v48 (F := Ideal) x0 x1 x2 x3 x4 x5 (ValueIdx.ix4 (0 : Fin 1) h s t)
      = prob (rd3 x0) (rd3 x1) (rd3 x2) (rd4 x3) (rd2 x4) (rd2 x5) h s t := by
  rw [softmax_at]
  simp only [score_at]
  rfl

/-- The second result is the array of attention weights. -/
theorem res1_eq : val_main_v48 (F := Ideal) x0 x1 x2 x3 x4 x5 = res1 x0 x1 x2 x3 x4 x5 := by
  funext i
  obtain ⟨h, s, t, rfl⟩ : ∃ (h : Fin 32) (s t : Fin 2048), i = ValueIdx.ix4 (0 : Fin 1) h s t :=
    ⟨i 1, i 2, i 3, (ValueIdx.eq_ix4 i).trans
      (congrArg (fun a => ValueIdx.ix4 a (i 1) (i 2) (i 3)) (Fin.fin_one_eq_zero (i 0)))⟩
  rw [prob_at]
  rfl

/-- The first result is the layer's output. -/
theorem res0_eq : val_main_v52 (F := Ideal) x0 x1 x2 x3 x4 x5 x6 x7 = res0 x0 x1 x2 x3 x4 x5 x6 x7 := by
  funext i
  obtain ⟨s, j, rfl⟩ : ∃ (s j : Fin 2048), i = ValueIdx.ix3 (0 : Fin 1) s j :=
    ⟨i 1, i 2, (ValueIdx.eq_ix3 i).trans (congrArg (fun a => ValueIdx.ix3 a (i 1) (i 2)) (Fin.fin_one_eq_zero (i 0)))⟩
  rw [out_at]
  simp only [prob_at, value_repeat_at]
  rfl
end

/-- On every device, from any memory with zero counters: every weakly fair execution of the reference terminates with
    the first result at the layer's output, the second at the attention weights, and the arguments unchanged. -/
theorem ref_run (m : (ℓ : Loc Cert.ReferenceIdeal.nD Cert.ReferenceIdeal.τ Cert.ReferenceIdeal.sig) → Buf (Elt Ideal) ℓ) (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ (fun r => ∀ c : Dev Cert.ReferenceIdeal.nD,
      r.2.mem ((c.tc : Thread Cert.ReferenceIdeal.nD Cert.ReferenceIdeal.τ).loc Cert.ReferenceIdeal.main_v52) = Cert.Spec.res0 (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))
      ∧ r.2.mem ((c.tc : Thread Cert.ReferenceIdeal.nD Cert.ReferenceIdeal.τ).loc Cert.ReferenceIdeal.main_v48) = Cert.Spec.res1 (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)) :=
  (θ_run (Cert.ReferenceIdeal.defs (F := Ideal)) _ _).mono
    (fun _ h c => ⟨(h c).1.trans ((val_main_v52_eq m c).trans (res0_eq _ _ _ _ _ _ _ _)),
      (h c).2.1.trans ((val_main_v48_eq m c).trans (res1_eq _ _ _ _ _ _)), (h c).2.2⟩)
    (Cert.ReferenceIdeal.Value.run (F := Ideal) m ρ)

end Cert.ReferenceIdeal.RefValue

end
-- ==== Proof.lean ====
/-
  An attention layer written as four launched kernels (the stacked query/key/value projection in tiles, the rotation of
  the keys, the attention cell per query tile and pair of heads, the output projection in tiles) against its plain
  reference, over the extended reals.

  Both programs compute the same function of their eight arrays, `Cert.Spec`: projections of the hidden states, the
  rotary embedding of queries and keys, scores scaled by one eighth plus the mask, a row softmax, the weights against
  the values, and the output projection. Between the two only the arrangement differs (one stacked matrix product
  against three, heads laid out along columns against a head axis, a query tile at a time against whole arrays), and no
  law beyond re-indexing of finite sums, `0 − x = −x`, `max ⊥ x = x` and `0 + x = x` is used; the precondition is not
  needed for the values.

  The frames: each kernel program is run as eight segments (host stretches and launched regions), every launched
  region from its body's triple; the reference is a line of host operations.
-/
import proofs.«162642_j16423954940491_2_alg».proof.Defs
import proofs.«162642_j16423954940491_2_alg».proof.Proof.Gen.Kernel
import proofs.«162642_j16423954940491_2_alg».proof.Proof.Gen.KernelIdeal
import proofs.«162642_j16423954940491_2_alg».proof.Proof.Gen.ReferenceIdeal
import proofs.«162642_j16423954940491_2_alg».proof.Proof.Gen.Pre_finite_inputs
import proofs.«162642_j16423954940491_2_alg».proof.Proof.Gen.ReferenceIdeal.Run
import proofs.«162642_j16423954940491_2_alg».proof.Proof.KFrRun
import proofs.«162642_j16423954940491_2_alg».proof.Proof.FrRun
import proofs.«162642_j16423954940491_2_alg».proof.Proof.KerRun
import proofs.«162642_j16423954940491_2_alg».proof.Proof.ValRef
import Idealize.ShloMosaic.Adequacy
import Idealize.ShloMosaic.Init

noncomputable section

namespace Cert.Proof

open Idealize.ShloMosaic Idealize.SL.Sem

/-- The word-level kernel program runs to the end and leaves its arguments unchanged. -/
theorem frame_k : Cert.frame_Kernel := fun m ρ _ => Cert.Kernel.Fr.frame m ρ
/-- So does the idealized kernel program. -/
theorem frame_ki : Cert.frame_KernelIdeal := fun m ρ _ => Cert.KernelIdeal.Fr.frame m ρ
/-- The reference is a line of host operations: its run, with the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The idealization rewrote nothing. -/
theorem preserves : Cert.preserves_Kernel_KernelIdeal := trivial

/-- Both idealized programs end with the specification's two arrays of their (agreeing) arguments. -/
theorem algebraic : Cert.algebraic_KernelIdeal_ReferenceIdeal := by
  intro m ρ m' ρ' _ hagree
  refine ⟨_, _, Cert.KernelIdeal.KBridge.ker_run m ρ, ?_⟩
  refine (θ_run Cert.ReferenceIdeal.defs _ _).mono (fun r h c => ?_) (Cert.ReferenceIdeal.RefValue.ref_run m' ρ')
  obtain ⟨h0, h1, hargs⟩ := h c
  obtain ⟨e0, e1, e2, e3, e4, e5, e6, e7⟩ := hagree c
  refine ⟨?_, ?_, hargs⟩
  · rw [h0, e0, e1, e2, e3, e4, e5, e6, e7]
  · rw [h1, e0, e1, e2, e3, e4, e5]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
